-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S65536 : Shape := ⟨1, ![65536]⟩
abbrev S65536x64 : Shape := ⟨2, ![65536, 64]⟩
abbrev S8x64 : Shape := ⟨2, ![8, 64]⟩
abbrev S8x67x256 : Shape := ⟨3, ![8, 67, 256]⟩
abbrev S8x256 : Shape := ⟨2, ![8, 256]⟩
abbrev S2x8x256x256 : Shape := ⟨4, ![2, 8, 256, 256]⟩
abbrev S2x8x256 : Shape := ⟨3, ![2, 8, 256]⟩
abbrev S8x256x1 : Shape := ⟨3, ![8, 256, 1]⟩
abbrev S8x1 : Shape := ⟨2, ![8, 1]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S8x64 : S_.BroadcastsInDim S8x64 (![] : Fin 0 → Fin S8x64.rank)
  reducesTo_S8x64_S_d0_1 : S8x64.ReducesTo [0, 1] S_
  bcast_S_S8x67x256 : S_.BroadcastsInDim S8x67x256 (![] : Fin 0 → Fin S8x67x256.rank)
  reducesTo_S8x67x256_S_d0_1_2 : S8x67x256.ReducesTo [0, 1, 2] S_
  bcast_S_S8x256 : S_.BroadcastsInDim S8x256 (![] : Fin 0 → Fin S8x256.rank)
  reducesTo_S8x256_S_d0_1 : S8x256.ReducesTo [0, 1] S_
  bcast_S_S2x8x256x256 : S_.BroadcastsInDim S2x8x256x256 (![] : Fin 0 → Fin S2x8x256x256.rank)
  reducesTo_S2x8x256x256_S_d0_1_2_3 : S2x8x256x256.ReducesTo [0, 1, 2, 3] S_
  bcast_S_S2x8x256 : S_.BroadcastsInDim S2x8x256 (![] : Fin 0 → Fin S2x8x256.rank)
  reducesTo_S2x8x256_S_d0_1_2 : S2x8x256.ReducesTo [0, 1, 2] S_
  bcast_S_S8x256x1 : S_.BroadcastsInDim S8x256x1 (![] : Fin 0 → Fin S8x256x1.rank)
  reducesTo_S8x256x1_S_d0_1_2 : S8x256x1.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part2 {F : FTy → Type} [FloatOps F] (main_arg8 : FVec F S2x8x256 .f32) (main_arg9 : FVec F S8x256x1 .f32) (main_arg10 : FVec F S8x1 .f32) (main_v33 : IVec S_ 1) : IVec S_ 1 :=
  let main_v34 : FVec F S2x8x256 .f32 := Host.absf main_arg8
  let main_cst_12 : FVec F S_ .f32 := constant S_ .f32 0x7F800000#32
  let main_v35 : FVec F S2x8x256 .f32 := broadcastInDim S2x8x256 ![] bcast_S_S2x8x256 main_cst_12
  let main_v36 : IVec S2x8x256 1 := cmpf .olt main_v34 main_v35
  let main_c_13 : IVec S_ 1 := constantI S_ 1 1#1
  let main_v37 : IVec S_ 1 := (fun x v => Host.reduce IntOp.andi x v reducesTo_S2x8x256_S_d0_1_2 h_S_) main_v36 main_c_13
  let main_v38 : IVec S_ 1 := andi main_v33 main_v37
  let main_v39 : FVec F S8x256x1 .f32 := Host.absf main_arg9
  let main_cst_14 : FVec F S_ .f32 := constant S_ .f32 0x7F800000#32
  let main_v40 : FVec F S8x256x1 .f32 := broadcastInDim S8x256x1 ![] bcast_S_S8x256x1 main_cst_14
  let main_v41 : IVec S8x256x1 1 := cmpf .olt main_v39 main_v40
  let main_c_15 : IVec S_ 1 := constantI S_ 1 1#1
  let main_v42 : IVec S_ 1 := (fun x v => Host.reduce IntOp.andi x v reducesTo_S8x256x1_S_d0_1_2 h_S_) main_v41 main_c_15
  let main_v43 : IVec S_ 1 := andi main_v38 main_v42
  let main_v44 : FVec F S8x1 .f32 := Host.absf main_arg10
  let main_cst_16 : FVec F S_ .f32 := constant S_ .f32 0x7F800000#32
  let main_v45 : FVec F S8x1 .f32 := broadcastInDim S8x1 ![] bcast_S_S8x1 main_cst_16
  let main_v46 : IVec S8x1 1 := cmpf .olt main_v44 main_v45
  let main_c_17 : IVec S_ 1 := constantI S_ 1 1#1
  let main_v47 : IVec S_ 1 := (fun x v => Host.reduce IntOp.andi x v reducesTo_S8x1_S_d0_1 h_S_) main_v46 main_c_17
  let main_v48 : IVec S_ 1 := andi main_v43 main_v47
  main_v48

def fn_part1 {F : FTy → Type} [FloatOps F] (main_arg5 : FVec F S8x67x256 .f32) (main_arg6 : FVec F S8x256 .f32) (main_arg7 : FVec F S2x8x256x256 .f32) (main_arg8 : FVec F S2x8x256 .f32) (main_arg9 : FVec F S8x256x1 .f32) (main_arg10 : FVec F S8x1 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8x67x256 .f32 := Host.absf main_arg5
  let main_cst_6 : FVec F S_ .f32 := constant S_ .f32 0x7F800000#32
  let main_v20 : FVec F S8x67x256 .f32 := broadcastInDim S8x67x256 ![] bcast_S_S8x67x256 main_cst_6
  let main_v21 : IVec S8x67x256 1 := cmpf .olt main_v19 main_v20
  let main_c_7 : IVec S_ 1 := constantI S_ 1 1#1
  let main_v22 : IVec S_ 1 := (fun x v => Host.reduce IntOp.andi x v reducesTo_S8x67x256_S_d0_1_2 h_S_) main_v21 main_c_7
  let main_v23 : IVec S_ 1 := andi main_v18 main_v22
  let main_v24 : FVec F S8x256 .f32 := Host.absf main_arg6
  let main_cst_8 : FVec F S_ .f32 := constant S_ .f32 0x7F800000#32
  let main_v25 : FVec F S8x256 .f32 := broadcastInDim S8x256 ![] bcast_S_S8x256 main_cst_8
  let main_v26 : IVec S8x256 1 := cmpf .olt main_v24 main_v25
  let main_c_9 : IVec S_ 1 := constantI S_ 1 1#1
  let main_v27 : IVec S_ 1 := (fun x v => Host.reduce IntOp.andi x v reducesTo_S8x256_S_d0_1 h_S_) main_v26 main_c_9
  let main_v28 : IVec S_ 1 := andi main_v23 main_v27
  let main_v29 : FVec F S2x8x256x256 .f32 := Host.absf main_arg7
  let main_cst_10 : FVec F S_ .f32 := constant S_ .f32 0x7F800000#32
  let main_v30 : FVec F S2x8x256x256 .f32 := broadcastInDim S2x8x256x256 ![] bcast_S_S2x8x256x256 main_cst_10
  let main_v31 : IVec S2x8x256x256 1 := cmpf .olt main_v29 main_v30
  let main_c_11 : IVec S_ 1 := constantI S_ 1 1#1
  let main_v32 : IVec S_ 1 := (fun x v => Host.reduce IntOp.andi x v reducesTo_S2x8x256x256_S_d0_1_2_3 h_S_) main_v31 main_c_11
  let main_v33 : IVec S_ 1 := andi main_v28 main_v32
  fn_part2 (F := F) main_arg8 main_arg9 main_arg10 main_v33

def fn {F : FTy → Type} [FloatOps F] (main_arg0 : FVec F S65536x3 .f32) (main_arg1 : IVec S65536 32) (main_arg2 : FVec F S65536x64 .f32) (main_arg3 : FVec F S8x64 .f32) (main_arg4 : FVec F S8x64 .f32) (main_arg5 : FVec F S8x67x256 .f32) (main_arg6 : FVec F S8x256 .f32) (main_arg7 : FVec F S2x8x256x256 .f32) (main_arg8 : FVec F S2x8x256 .f32) (main_arg9 : FVec F S8x256x1 .f32) (main_arg10 : FVec F S8x1 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S65536x64 .f32 := Host.absf main_arg2
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S8x64 .f32 := Host.absf main_arg3
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_arg7 main_arg8 main_arg9 main_arg10 main_v13 main_v16
-- ==== Kernel.lean ====
abbrev S65536x3 : Shape := ⟨2, ![65536, 3]⟩
abbrev S65536 : Shape := ⟨1, ![65536]⟩
abbrev S65536x64 : Shape := ⟨2, ![65536, 64]⟩
abbrev S8x64 : Shape := ⟨2, ![8, 64]⟩
abbrev S8x67x256 : Shape := ⟨3, ![8, 67, 256]⟩
abbrev S8x256 : Shape := ⟨2, ![8, 256]⟩
abbrev S2x8x256x256 : Shape := ⟨4, ![2, 8, 256, 256]⟩
abbrev S2x8x256 : Shape := ⟨3, ![2, 8, 256]⟩
abbrev S8x256x1 : Shape := ⟨3, ![8, 256, 1]⟩
abbrev S8x1 : Shape := ⟨2, ![8, 1]⟩
abbrev S_ : Shape := ⟨0, ![]⟩
abbrev S65536x1 : Shape := ⟨2, ![65536, 1]⟩
abbrev S65536x67 : Shape := ⟨2, ![65536, 67]⟩
abbrev S4096x67 : Shape := ⟨2, ![4096, 67]⟩
abbrev S4096x1 : Shape := ⟨2, ![4096, 1]⟩
abbrev S1x67x256 : Shape := ⟨3, ![1, 67, 256]⟩
abbrev S67x256 : Shape := ⟨2, ![67, 256]⟩
abbrev S1x256 : Shape := ⟨2, ![1, 256]⟩
abbrev S256 : Shape := ⟨1, ![256]⟩
abbrev S4096x256 : Shape := ⟨2, ![4096, 256]⟩
abbrev S1x1x256x256 : Shape := ⟨4, ![1, 1, 256, 256]⟩
abbrev S256x256 : Shape := ⟨2, ![256, 256]⟩
abbrev S1x1x256 : Shape := ⟨3, ![1, 1, 256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩

abbrev nBuf : Space → Nat
  | .hbm => 55
  | .vmem => 12
  | .smem => 0
  | _ => 0

abbrev bufTy : (tb : Table) → Fin (tcTables nBuf tb) → BufTy
  | .hbm, ⟨0, _⟩ => ⟨S65536x3, .f32⟩
  | .hbm, ⟨1, _⟩ => ⟨S65536, .i32⟩
  | .hbm, ⟨2, _⟩ => ⟨S65536x64, .f32⟩
  | .hbm, ⟨3, _⟩ => ⟨S8x64, .f32⟩
  | .hbm, ⟨4, _⟩ => ⟨S8x64, .f32⟩
  | .hbm, ⟨5, _⟩ => ⟨S8x67x256, .f32⟩
  | .hbm, ⟨6, _⟩ => ⟨S8x256, .f32⟩
  | .hbm, ⟨7, _⟩ => ⟨S2x8x256x256, .f32⟩
  | .hbm, ⟨8, _⟩ => ⟨S2x8x256, .f32⟩
  | .hbm, ⟨9, _⟩ => ⟨S8x256x1, .f32⟩
  | .hbm, ⟨10, _⟩ => ⟨S8x1, .f32⟩
  | .hbm, ⟨11, _⟩ => ⟨S_, .i32⟩
  | .hbm, ⟨12, _⟩ => ⟨S65536, .i32⟩
  | .hbm, ⟨13, _⟩ => ⟨S65536, .i1⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536, .i32⟩
  | .hbm, ⟨18, _⟩ => ⟨S65536x1, .i32⟩
  | .hbm, ⟨19, _⟩ => ⟨S65536x64, .f32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x64, .f32⟩
  | .hbm, ⟨29, _⟩ => ⟨S_, .f32⟩
  | .hbm, ⟨30, _⟩ => ⟨S65536x64, .f32⟩
  | .hbm, ⟨31, _⟩ => ⟨S65536x64, .f32⟩
  | .hbm, ⟨32, _⟩ => ⟨S65536x64, .f32⟩
  | .hbm, ⟨33, _⟩ => ⟨S65536x64, .f32⟩
  | .hbm, ⟨34, _⟩ => ⟨S65536x64, .f32⟩
  | .hbm, ⟨35, _⟩ => ⟨S_, .f32⟩
  | .hbm, ⟨36, _⟩ => ⟨S65536x64, .f32⟩
  | .hbm, ⟨37, _⟩ => ⟨S65536x64, .f32⟩
  | .hbm, ⟨38, _⟩ => ⟨S65536x64, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S65536x67, .f32⟩
  | .hbm, ⟨49, _⟩ => ⟨S65536x67, .bf16⟩
  | .hbm, ⟨50, _⟩ => ⟨S65536x1, .i32⟩
  | .hbm, ⟨51, _⟩ => ⟨S8x67x256, .bf16⟩
  | .hbm, ⟨52, _⟩ => ⟨S2x8x256x256, .bf16⟩
  | .hbm, ⟨53, _⟩ => ⟨S8x256x1, .bf16⟩
  | .hbm, ⟨54, _⟩ => ⟨S65536x1, .f32⟩
  | .local _ .vmem, ⟨0, _⟩ => ⟨S4096x67, .bf16⟩
  | .local _ .vmem, ⟨1, _⟩ => ⟨S4096x67, .bf16⟩
  | .local _ .vmem, ⟨2, _⟩ => ⟨S4096x1, .i32⟩
  | .local _ .vmem, ⟨3, _⟩ => ⟨S4096x1, .i32⟩
  | .local _ .vmem, ⟨4, _⟩ => ⟨S8x67x256, .bf16⟩
  | .local _ .vmem, ⟨5, _⟩ => ⟨S8x256, .f32⟩
  | .local _ .vmem, ⟨6, _⟩ => ⟨S2x8x256x256, .bf16⟩
  | .local _ .vmem, ⟨7, _⟩ => ⟨S2x8x256, .f32⟩
  | .local _ .vmem, ⟨8, _⟩ => ⟨S8x256x1, .bf16⟩
  | .local _ .vmem, ⟨9, _⟩ => ⟨S8x1, .f32⟩
  | .local _ .vmem, ⟨10, _⟩ => ⟨S4096x1, .f32⟩
  | .local _ .vmem, ⟨11, _⟩ => ⟨S4096x1, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x67 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x67x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x64 : S_.BroadcastsInDim S65536x64 (![] : Fin 0 → Fin S65536x64.rank)
  reducesTo_S65536x64_S_d0_1 : S65536x64.ReducesTo [0, 1] S_
  h_S_ : 0 < S_.numel
  concatenates_S65536x3_S65536x64_S65536x67_d1 : Shape.Concatenates [S65536x3, S65536x64] S65536x67 1
  bitsLt_bf16_f32 : FTy.bits .bf16 < FTy.bits .f32
  shapeCasts_S65536_S65536x1 : S65536.ShapeCasts S65536x1
  inb_S4096x67_S4096x67_0_0 : ∀ a, (![0, 0] : Fin 2 → Nat) a + S4096x67.size a ≤ S4096x67.size a
  h_S4096x67 : 0 < S4096x67.numel
  shapeCasts_S4096x67_S4096x67 : S4096x67.ShapeCasts S4096x67
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S8x67x256_S1x67x256_0_0_0 : ∀ a, (![0, 0, 0] : Fin 3 → Nat) a + S1x67x256.size a ≤ S8x67x256.size a
  h_S1x67x256 : 0 < S1x67x256.numel
  shapeCasts_S1x67x256_S67x256 : S1x67x256.ShapeCasts S67x256
  inb_S8x256_S1x256_0_0 : ∀ a, (![0, 0] : Fin 2 → Nat) a + S1x256.size a ≤ S8x256.size a
  h_S1x256 : 0 < S1x256.numel
  shapeCasts_S1x256_S256 : S1x256.ShapeCasts S256
  shapeCasts_S256_S1x256 : S256.ShapeCasts S1x256
  broadcasts_S1x256_S4096x256 : S1x256.Broadcasts S4096x256
  inb_S2x8x256x256_S1x1x256x256_0_0_0_0 : ∀ a, (![0, 0, 0, 0] : Fin 4 → Nat) a + S1x1x256x256.size a ≤ S2x8x256x256.size a
  h_S1x1x256x256 : 0 < S1x1x256x256.numel
  shapeCasts_S1x1x256x256_S256x256 : S1x1x256x256.ShapeCasts S256x256
  inb_S2x8x256_S1x1x256_0_0_0 : ∀ a, (![0, 0, 0] : Fin 3 → Nat) a + S1x1x256.size a ≤ S2x8x256.size a
  h_S1x1x256 : 0 < S1x1x256.numel
  shapeCasts_S1x1x256_S256 : S1x1x256.ShapeCasts S256
  inb_S2x8x256x256_S1x1x256x256_1_0_0_0 : ∀ a, (![1, 0, 0, 0] : Fin 4 → Nat) a + S1x1x256x256.size a ≤ S2x8x256x256.size a
  inb_S2x8x256_S1x1x256_1_0_0 : ∀ a, (![1, 0, 0] : Fin 3 → Nat) a + S1x1x256.size a ≤ S2x8x256.size a
  inb_S8x256x1_S1x256x1_0_0_0 : ∀ a, (![0, 0, 0] : Fin 3 → Nat) a + S1x256x1.size a ≤ S8x256x1.size a
  h_S1x256x1 : 0 < S1x256x1.numel
  shapeCasts_S1x256x1_S256x1 : S1x256x1.ShapeCasts S256x1
  inb_S8x1_S1x1_0_0 : ∀ a, (![0, 0] : Fin 2 → Nat) a + S1x1.size a ≤ S8x1.size a
  h_S1x1 : 0 < S1x1.numel
  shapeCasts_S1x1_S1 : S1x1.ShapeCasts S1
  shapeCasts_S1_S1x1 : S1.ShapeCasts S1x1
  broadcasts_S1x1_S4096x1 : S1x1.Broadcasts S4096x1
  inb_S8x67x256_S1x67x256_1_0_0 : ∀ a, (![1, 0, 0] : Fin 3 → Nat) a + S1x67x256.size a ≤ S8x67x256.size a
  inb_S8x256_S1x256_1_0 : ∀ a, (![1, 0] : Fin 2 → Nat) a + S1x256.size a ≤ S8x256.size a
  inb_S2x8x256x256_S1x1x256x256_0_1_0_0 : ∀ a, (![0, 1, 0, 0] : Fin 4 → Nat) a + S1x1x256x256.size a ≤ S2x8x256x256.size a
  inb_S2x8x256_S1x1x256_0_1_0 : ∀ a, (![0, 1, 0] : Fin 3 → Nat) a + S1x1x256.size a ≤ S2x8x256.size a
  inb_S2x8x256x256_S1x1x256x256_1_1_0_0 : ∀ a, (![1, 1, 0, 0] : Fin 4 → Nat) a + S1x1x256x256.size a ≤ S2x8x256x256.size a
  inb_S2x8x256_S1x1x256_1_1_0 : ∀ a, (![1, 1, 0] : Fin 3 → Nat) a + S1x1x256.size a ≤ S2x8x256.size a
  inb_S8x256x1_S1x256x1_1_0_0 : ∀ a, (![1, 0, 0] : Fin 3 → Nat) a + S1x256x1.size a ≤ S8x256x1.size a
  inb_S8x1_S1x1_1_0 : ∀ a, (![1, 0] : Fin 2 → Nat) a + S1x1.size a ≤ S8x1.size a
  inb_S8x67x256_S1x67x256_2_0_0 : ∀ a, (![2, 0, 0] : Fin 3 → Nat) a + S1x67x256.size a ≤ S8x67x256.size a
  inb_S8x256_S1x256_2_0 : ∀ a, (![2, 0] : Fin 2 → Nat) a + S1x256.size a ≤ S8x256.size a
  inb_S2x8x256x256_S1x1x256x256_0_2_0_0 : ∀ a, (![0, 2, 0, 0] : Fin 4 → Nat) a + S1x1x256x256.size a ≤ S2x8x256x256.size a
  inb_S2x8x256_S1x1x256_0_2_0 : ∀ a, (![0, 2, 0] : Fin 3 → Nat) a + S1x1x256.size a ≤ S2x8x256.size a
  inb_S2x8x256x256_S1x1x256x256_1_2_0_0 : ∀ a, (![1, 2, 0, 0] : Fin 4 → Nat) a + S1x1x256x256.size a ≤ S2x8x256x256.size a
  inb_S2x8x256_S1x1x256_1_2_0 : ∀ a, (![1, 2, 0] : Fin 3 → Nat) a + S1x1x256.size a ≤ S2x8x256.size a
  inb_S8x256x1_S1x256x1_2_0_0 : ∀ a, (![2, 0, 0] : Fin 3 → Nat) a + S1x256x1.size a ≤ S8x256x1.size a
  inb_S8x1_S1x1_2_0 : ∀ a, (![2, 0] : Fin 2 → Nat) a + S1x1.size a ≤ S8x1.size a
  inb_S8x67x256_S1x67x256_3_0_0 : ∀ a, (![3, 0, 0] : Fin 3 → Nat) a + S1x67x256.size a ≤ S8x67x256.size a
  inb_S8x256_S1x256_3_0 : ∀ a, (![3, 0] : Fin 2 → Nat) a + S1x256.size a ≤ S8x256.size a
  inb_S2x8x256x256_S1x1x256x256_0_3_0_0 : ∀ a, (![0, 3, 0, 0] : Fin 4 → Nat) a + S1x1x256x256.size a ≤ S2x8x256x256.size a
  inb_S2x8x256_S1x1x256_0_3_0 : ∀ a, (![0, 3, 0] : Fin 3 → Nat) a + S1x1x256.size a ≤ S2x8x256.size a
  inb_S2x8x256x256_S1x1x256x256_1_3_0_0 : ∀ a, (![1, 3, 0, 0] : Fin 4 → Nat) a + S1x1x256x256.size a ≤ S2x8x256x256.size a
  inb_S2x8x256_S1x1x256_1_3_0 : ∀ a, (![1, 3, 0] : Fin 3 → Nat) a + S1x1x256.size a ≤ S2x8x256.size a
  inb_S8x256x1_S1x256x1_3_0_0 : ∀ a, (![3, 0, 0] : Fin 3 → Nat) a + S1x256x1.size a ≤ S8x256x1.size a
  inb_S8x1_S1x1_3_0 : ∀ a, (![3, 0] : Fin 2 → Nat) a + S1x1.size a ≤ S8x1.size a
  inb_S8x67x256_S1x67x256_4_0_0 : ∀ a, (![4, 0, 0] : Fin 3 → Nat) a + S1x67x256.size a ≤ S8x67x256.size a
  inb_S8x256_S1x256_4_0 : ∀ a, (![4, 0] : Fin 2 → Nat) a + S1x256.size a ≤ S8x256.size a
  inb_S2x8x256x256_S1x1x256x256_0_4_0_0 : ∀ a, (![0, 4, 0, 0] : Fin 4 → Nat) a + S1x1x256x256.size a ≤ S2x8x256x256.size a
  inb_S2x8x256_S1x1x256_0_4_0 : ∀ a, (![0, 4, 0] : Fin 3 → Nat) a + S1x1x256.size a ≤ S2x8x256.size a
  inb_S2x8x256x256_S1x1x256x256_1_4_0_0 : ∀ a, (![1, 4, 0, 0] : Fin 4 → Nat) a + S1x1x256x256.size a ≤ S2x8x256x256.size a
  inb_S2x8x256_S1x1x256_1_4_0 : ∀ a, (![1, 4, 0] : Fin 3 → Nat) a + S1x1x256.size a ≤ S2x8x256.size a
  inb_S8x256x1_S1x256x1_4_0_0 : ∀ a, (![4, 0, 0] : Fin 3 → Nat) a + S1x256x1.size a ≤ S8x256x1.size a
  inb_S8x1_S1x1_4_0 : ∀ a, (![4, 0] : Fin 2 → Nat) a + S1x1.size a ≤ S8x1.size a
  inb_S8x67x256_S1x67x256_5_0_0 : ∀ a, (![5, 0, 0] : Fin 3 → Nat) a + S1x67x256.size a ≤ S8x67x256.size a
  inb_S8x256_S1x256_5_0 : ∀ a, (![5, 0] : Fin 2 → Nat) a + S1x256.size a ≤ S8x256.size a
  inb_S2x8x256x256_S1x1x256x256_0_5_0_0 : ∀ a, (![0, 5, 0, 0] : Fin 4 → Nat) a + S1x1x256x256.size a ≤ S2x8x256x256.size a
  inb_S2x8x256_S1x1x256_0_5_0 : ∀ a, (![0, 5, 0] : Fin 3 → Nat) a + S1x1x256.size a ≤ S2x8x256.size a
  inb_S2x8x256x256_S1x1x256x256_1_5_0_0 : ∀ a, (![1, 5, 0, 0] : Fin 4 → Nat) a + S1x1x256x256.size a ≤ S2x8x256x256.size a
  inb_S2x8x256_S1x1x256_1_5_0 : ∀ a, (![1, 5, 0] : Fin 3 → Nat) a + S1x1x256.size a ≤ S2x8x256.size a
  inb_S8x256x1_S1x256x1_5_0_0 : ∀ a, (![5, 0, 0] : Fin 3 → Nat) a + S1x256x1.size a ≤ S8x256x1.size a
  inb_S8x1_S1x1_5_0 : ∀ a, (![5, 0] : Fin 2 → Nat) a + S1x1.size a ≤ S8x1.size a
  inb_S8x67x256_S1x67x256_6_0_0 : ∀ a, (![6, 0, 0] : Fin 3 → Nat) a + S1x67x256.size a ≤ S8x67x256.size a
  inb_S8x256_S1x256_6_0 : ∀ a, (![6, 0] : Fin 2 → Nat) a + S1x256.size a ≤ S8x256.size a
  inb_S2x8x256x256_S1x1x256x256_0_6_0_0 : ∀ a, (![0, 6, 0, 0] : Fin 4 → Nat) a + S1x1x256x256.size a ≤ S2x8x256x256.size a
  inb_S2x8x256_S1x1x256_0_6_0 : ∀ a, (![0, 6, 0] : Fin 3 → Nat) a + S1x1x256.size a ≤ S2x8x256.size a
  inb_S2x8x256x256_S1x1x256x256_1_6_0_0 : ∀ a, (![1, 6, 0, 0] : Fin 4 → Nat) a + S1x1x256x256.size a ≤ S2x8x256x256.size a
  inb_S2x8x256_S1x1x256_1_6_0 : ∀ a, (![1, 6, 0] : Fin 3 → Nat) a + S1x1x256.size a ≤ S2x8x256.size a
  inb_S8x256x1_S1x256x1_6_0_0 : ∀ a, (![6, 0, 0] : Fin 3 → Nat) a + S1x256x1.size a ≤ S8x256x1.size a
  inb_S8x1_S1x1_6_0 : ∀ a, (![6, 0] : Fin 2 → Nat) a + S1x1.size a ≤ S8x1.size a
  inb_S8x67x256_S1x67x256_7_0_0 : ∀ a, (![7, 0, 0] : Fin 3 → Nat) a + S1x67x256.size a ≤ S8x67x256.size a
  inb_S8x256_S1x256_7_0 : ∀ a, (![7, 0] : Fin 2 → Nat) a + S1x256.size a ≤ S8x256.size a
  inb_S2x8x256x256_S1x1x256x256_0_7_0_0 : ∀ a, (![0, 7, 0, 0] : Fin 4 → Nat) a + S1x1x256x256.size a ≤ S2x8x256x256.size a
  inb_S2x8x256_S1x1x256_0_7_0 : ∀ a, (![0, 7, 0] : Fin 3 → Nat) a + S1x1x256.size a ≤ S2x8x256.size a
  inb_S2x8x256x256_S1x1x256x256_1_7_0_0 : ∀ a, (![1, 7, 0, 0] : Fin 4 → Nat) a + S1x1x256x256.size a ≤ S2x8x256x256.size a
  inb_S2x8x256_S1x1x256_1_7_0 : ∀ a, (![1, 7, 0] : Fin 3 → Nat) a + S1x1x256.size a ≤ S2x8x256.size a
  inb_S8x256x1_S1x256x1_7_0_0 : ∀ a, (![7, 0, 0] : Fin 3 → Nat) a + S1x256x1.size a ≤ S8x256x1.size a
  inb_S8x1_S1x1_7_0 : ∀ a, (![7, 0] : Fin 2 → Nat) a + S1x1.size a ≤ S8x1.size a
  gather_S8x64_S65536x1_S65536x64_1_0_n_n_0_1_164_wf : GatherDims.WF S8x64 S65536x1 S65536x64 [1] [0] [] [0] [] 1 ![1, 64]
  dot_S4096x67_S67x256_S4096x256_1_0_0_1_n_n_wf : DotDims.WF S4096x67 S67x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x67.size a ≤ S65536x67.size a
  hwx0_0 : ∀ i : grid0.Coords, EltTy.bits .bf16 = 32 ∨ (Rect.block (s := S65536x67) S4096x67.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .i32 = 32 ∨ (Rect.block (s := S65536x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x67x256.size a ≤ S8x67x256.size a
  hwx0_2 : ∀ i : grid0.Coords, EltTy.bits .bf16 = 32 ∨ (Rect.block (s := S8x67x256) S8x67x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x256.size a
  hwx0_3 : ∀ i : grid0.Coords, EltTy.bits .f32 = 32 ∨ (Rect.block (s := S8x256) S8x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x8x256x256.size a ≤ S2x8x256x256.size a
  hwx0_4 : ∀ i : grid0.Coords, EltTy.bits .bf16 = 32 ∨ (Rect.block (s := S2x8x256x256) S2x8x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x8x256.size a ≤ S2x8x256.size a
  hwx0_5 : ∀ i : grid0.Coords, EltTy.bits .f32 = 32 ∨ (Rect.block (s := S2x8x256) S2x8x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x256x1.size a ≤ S8x256x1.size a
  hwx0_6 : ∀ i : grid0.Coords, EltTy.bits .bf16 = 32 ∨ (Rect.block (s := S8x256x1) S8x256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x1.size a ≤ S65536x1.size a
  hwx0_8 : ∀ i : grid0.Coords, EltTy.bits .f32 = 32 ∨ (Rect.block (s := S65536x1) S4096x1.size (cc0_transform_8 i) (hinb0_8 i)).WholeWords (EltTy.packing .f32)

variable [Facts₀]

def gather_S8x64_S65536x1_S65536x64_1_0_n_n_0_1_164 : GatherDims S8x64 S65536x1 S65536x64 where
  offsetDims := [1]
  collapsedSliceDims := [0]
  operandBatchingDims := []
  startIndicesBatchingDims := []
  startIndexMap := [0]
  indexVectorDim := 1
  sliceSizes := ![1, 64]
  wf := gather_S8x64_S65536x1_S65536x64_1_0_n_n_0_1_164_wf
def dot_S4096x67_S67x256_S4096x256_1_0_0_1_n_n : DotDims S4096x67 S67x256 S4096x256 where
  lhsContracting := [1]
  rhsContracting := [0]
  lhsNonContracting := [0]
  rhsNonContracting := [1]
  lhsBatch := []
  rhsBatch := []
  wf := dot_S4096x67_S67x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v29) S4096x67.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8x67x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S8x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S2x8x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S2x8x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S8x256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S4096x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x3 : Shape := ⟨2, ![65536, 3]⟩
abbrev S65536 : Shape := ⟨1, ![65536]⟩
abbrev S65536x64 : Shape := ⟨2, ![65536, 64]⟩
abbrev S8x64 : Shape := ⟨2, ![8, 64]⟩
abbrev S8x67x256 : Shape := ⟨3, ![8, 67, 256]⟩
abbrev S8x256 : Shape := ⟨2, ![8, 256]⟩
abbrev S2x8x256x256 : Shape := ⟨4, ![2, 8, 256, 256]⟩
abbrev S2x8x256 : Shape := ⟨3, ![2, 8, 256]⟩
abbrev S8x256x1 : Shape := ⟨3, ![8, 256, 1]⟩
abbrev S8x1 : Shape := ⟨2, ![8, 1]⟩
abbrev S_ : Shape := ⟨0, ![]⟩
abbrev S65536x1 : Shape := ⟨2, ![65536, 1]⟩
abbrev S65536x67 : Shape := ⟨2, ![65536, 67]⟩
abbrev S1x67x256 : Shape := ⟨3, ![1, 67, 256]⟩
abbrev S67x256 : Shape := ⟨2, ![67, 256]⟩
abbrev S65536x256 : Shape := ⟨2, ![65536, 256]⟩
abbrev S1x256 : Shape := ⟨2, ![1, 256]⟩
abbrev S256 : Shape := ⟨1, ![256]⟩
abbrev S1x1x256x256 : Shape := ⟨4, ![1, 1, 256, 256]⟩
abbrev S256x256 : Shape := ⟨2, ![256, 256]⟩
abbrev S1x1x256 : Shape := ⟨3, ![1, 1, 256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩

abbrev nBuf : Space → Nat
  | .hbm => 451
  | .vmem => 0
  | .smem => 0
  | _ => 0

abbrev hbmTy0_0 (i : Nat) : BufTy := match i % 128 with
  | 0 => ⟨S65536x3, .f32⟩
  | 1 => ⟨S65536, .i32⟩
  | 2 => ⟨S65536x64, .f32⟩
  | 3 => ⟨S8x64, .f32⟩
  | 4 => ⟨S8x64, .f32⟩
  | 5 => ⟨S8x67x256, .f32⟩
  | 6 => ⟨S8x256, .f32⟩
  | 7 => ⟨S2x8x256x256, .f32⟩
  | 8 => ⟨S2x8x256, .f32⟩
  | 9 => ⟨S8x256x1, .f32⟩
  | 10 => ⟨S8x1, .f32⟩
  | 11 => ⟨S_, .i32⟩
  | 12 => ⟨S65536, .i32⟩
  | 13 => ⟨S65536, .i1⟩
  | 14 => ⟨S_, .i32⟩
  | 15 => ⟨S65536, .i32⟩
  | 16 => ⟨S65536, .i32⟩
  | 17 => ⟨S65536, .i32⟩
  | 18 => ⟨S65536x1, .i32⟩
  | 19 => ⟨S65536x64, .f32⟩
  | 20 => ⟨S_, .i32⟩
  | 21 => ⟨S65536, .i32⟩
  | 22 => ⟨S65536, .i1⟩
  | 23 => ⟨S_, .i32⟩
  | 24 => ⟨S65536, .i32⟩
  | 25 => ⟨S65536, .i32⟩
  | 26 => ⟨S65536, .i32⟩
  | 27 => ⟨S65536x1, .i32⟩
  | 28 => ⟨S65536x64, .f32⟩
  | 29 => ⟨S_, .f32⟩
  | 30 => ⟨S65536x64, .f32⟩
  | 31 => ⟨S65536x64, .f32⟩
  | 32 => ⟨S65536x64, .f32⟩
  | 33 => ⟨S65536x64, .f32⟩
  | 34 => ⟨S65536x64, .f32⟩
  | 35 => ⟨S_, .f32⟩
  | 36 => ⟨S65536x64, .f32⟩
  | 37 => ⟨S65536x64, .f32⟩
  | 38 => ⟨S65536x64, .f32⟩
  | 39 => ⟨S65536x64, .f32⟩
  | 40 => ⟨S65536x64, .f32⟩
  | 41 => ⟨S65536x64, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S65536x67, .f32⟩
  | 49 => ⟨S_, .f32⟩
  | 50 => ⟨S65536x1, .f32⟩
  | 51 => ⟨S1x67x256, .f32⟩
  | 52 => ⟨S67x256, .f32⟩
  | 53 => ⟨S65536x256, .f32⟩
  | 54 => ⟨S1x256, .f32⟩
  | 55 => ⟨S256, .f32⟩
  | 56 => ⟨S1x256, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S1x1x256x256, .f32⟩
  | 63 => ⟨S256x256, .f32⟩
  | 64 => ⟨S65536x256, .f32⟩
  | 65 => ⟨S1x1x256, .f32⟩
  | 66 => ⟨S256, .f32⟩
  | 67 => ⟨S1x256, .f32⟩
  | 68 => ⟨S65536x256, .f32⟩
  | 69 => ⟨S65536x256, .f32⟩
  | 70 => ⟨S_, .f32⟩
  | 71 => ⟨S65536x256, .f32⟩
  | 72 => ⟨S65536x256, .f32⟩
  | 73 => ⟨S1x1x256x256, .f32⟩
  | 74 => ⟨S256x256, .f32⟩
  | 75 => ⟨S65536x256, .f32⟩
  | 76 => ⟨S1x1x256, .f32⟩
  | 77 => ⟨S256, .f32⟩
  | 78 => ⟨S1x256, .f32⟩
  | 79 => ⟨S65536x256, .f32⟩
  | 80 => ⟨S65536x256, .f32⟩
  | 81 => ⟨S_, .f32⟩
  | 82 => ⟨S65536x256, .f32⟩
  | 83 => ⟨S65536x256, .f32⟩
  | 84 => ⟨S1x256x1, .f32⟩
  | 85 => ⟨S256x1, .f32⟩
  | 86 => ⟨S65536x1, .f32⟩
  | 87 => ⟨S1x1, .f32⟩
  | 88 => ⟨S1, .f32⟩
  | 89 => ⟨S1x1, .f32⟩
  | 90 => ⟨S65536x1, .f32⟩
  | 91 => ⟨S65536x1, .f32⟩
  | 92 => ⟨S_, .i32⟩
  | 93 => ⟨S65536, .i32⟩
  | 94 => ⟨S65536, .i1⟩
  | 95 => ⟨S65536x1, .i1⟩
  | 96 => ⟨S_, .f32⟩
  | 97 => ⟨S_, .f32⟩
  | 98 => ⟨S65536x1, .f32⟩
  | 99 => ⟨S65536x1, .f32⟩
  | 100 => ⟨S65536x1, .f32⟩
  | 101 => ⟨S1x67x256, .f32⟩
  | 102 => ⟨S67x256, .f32⟩
  | 103 => ⟨S65536x256, .f32⟩
  | 104 => ⟨S1x256, .f32⟩
  | 105 => ⟨S256, .f32⟩
  | 106 => ⟨S1x256, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S1x1x256x256, .f32⟩
  | 113 => ⟨S256x256, .f32⟩
  | 114 => ⟨S65536x256, .f32⟩
  | 115 => ⟨S1x1x256, .f32⟩
  | 116 => ⟨S256, .f32⟩
  | 117 => ⟨S1x256, .f32⟩
  | 118 => ⟨S65536x256, .f32⟩
  | 119 => ⟨S65536x256, .f32⟩
  | 120 => ⟨S_, .f32⟩
  | 121 => ⟨S65536x256, .f32⟩
  | 122 => ⟨S65536x256, .f32⟩
  | 123 => ⟨S1x1x256x256, .f32⟩
  | 124 => ⟨S256x256, .f32⟩
  | 125 => ⟨S65536x256, .f32⟩
  | 126 => ⟨S1x1x256, .f32⟩
  | 127 => ⟨S256, .f32⟩
  | _ => ⟨S65536x3, .f32⟩

abbrev hbmTy0_1 (i : Nat) : BufTy := match i % 128 with
  | 0 => ⟨S1x256, .f32⟩
  | 1 => ⟨S65536x256, .f32⟩
  | 2 => ⟨S65536x256, .f32⟩
  | 3 => ⟨S_, .f32⟩
  | 4 => ⟨S65536x256, .f32⟩
  | 5 => ⟨S65536x256, .f32⟩
  | 6 => ⟨S1x256x1, .f32⟩
  | 7 => ⟨S256x1, .f32⟩
  | 8 => ⟨S65536x1, .f32⟩
  | 9 => ⟨S1x1, .f32⟩
  | 10 => ⟨S1, .f32⟩
  | 11 => ⟨S1x1, .f32⟩
  | 12 => ⟨S65536x1, .f32⟩
  | 13 => ⟨S65536x1, .f32⟩
  | 14 => ⟨S_, .i32⟩
  | 15 => ⟨S65536, .i32⟩
  | 16 => ⟨S65536, .i1⟩
  | 17 => ⟨S65536x1, .i1⟩
  | 18 => ⟨S_, .f32⟩
  | 19 => ⟨S_, .f32⟩
  | 20 => ⟨S65536x1, .f32⟩
  | 21 => ⟨S65536x1, .f32⟩
  | 22 => ⟨S65536x1, .f32⟩
  | 23 => ⟨S1x67x256, .f32⟩
  | 24 => ⟨S67x256, .f32⟩
  | 25 => ⟨S65536x256, .f32⟩
  | 26 => ⟨S1x256, .f32⟩
  | 27 => ⟨S256, .f32⟩
  | 28 => ⟨S1x256, .f32⟩
  | 29 => ⟨S65536x256, .f32⟩
  | 30 => ⟨S65536x256, .f32⟩
  | 31 => ⟨S_, .f32⟩
  | 32 => ⟨S65536x256, .f32⟩
  | 33 => ⟨S65536x256, .f32⟩
  | 34 => ⟨S1x1x256x256, .f32⟩
  | 35 => ⟨S256x256, .f32⟩
  | 36 => ⟨S65536x256, .f32⟩
  | 37 => ⟨S1x1x256, .f32⟩
  | 38 => ⟨S256, .f32⟩
  | 39 => ⟨S1x256, .f32⟩
  | 40 => ⟨S65536x256, .f32⟩
  | 41 => ⟨S65536x256, .f32⟩
  | 42 => ⟨S_, .f32⟩
  | 43 => ⟨S65536x256, .f32⟩
  | 44 => ⟨S65536x256, .f32⟩
  | 45 => ⟨S1x1x256x256, .f32⟩
  | 46 => ⟨S256x256, .f32⟩
  | 47 => ⟨S65536x256, .f32⟩
  | 48 => ⟨S1x1x256, .f32⟩
  | 49 => ⟨S256, .f32⟩
  | 50 => ⟨S1x256, .f32⟩
  | 51 => ⟨S65536x256, .f32⟩
  | 52 => ⟨S65536x256, .f32⟩
  | 53 => ⟨S_, .f32⟩
  | 54 => ⟨S65536x256, .f32⟩
  | 55 => ⟨S65536x256, .f32⟩
  | 56 => ⟨S1x256x1, .f32⟩
  | 57 => ⟨S256x1, .f32⟩
  | 58 => ⟨S65536x1, .f32⟩
  | 59 => ⟨S1x1, .f32⟩
  | 60 => ⟨S1, .f32⟩
  | 61 => ⟨S1x1, .f32⟩
  | 62 => ⟨S65536x1, .f32⟩
  | 63 => ⟨S65536x1, .f32⟩
  | 64 => ⟨S_, .i32⟩
  | 65 => ⟨S65536, .i32⟩
  | 66 => ⟨S65536, .i1⟩
  | 67 => ⟨S65536x1, .i1⟩
  | 68 => ⟨S_, .f32⟩
  | 69 => ⟨S_, .f32⟩
  | 70 => ⟨S65536x1, .f32⟩
  | 71 => ⟨S65536x1, .f32⟩
  | 72 => ⟨S65536x1, .f32⟩
  | 73 => ⟨S1x67x256, .f32⟩
  | 74 => ⟨S67x256, .f32⟩
  | 75 => ⟨S65536x256, .f32⟩
  | 76 => ⟨S1x256, .f32⟩
  | 77 => ⟨S256, .f32⟩
  | 78 => ⟨S1x256, .f32⟩
  | 79 => ⟨S65536x256, .f32⟩
  | 80 => ⟨S65536x256, .f32⟩
  | 81 => ⟨S_, .f32⟩
  | 82 => ⟨S65536x256, .f32⟩
  | 83 => ⟨S65536x256, .f32⟩
  | 84 => ⟨S1x1x256x256, .f32⟩
  | 85 => ⟨S256x256, .f32⟩
  | 86 => ⟨S65536x256, .f32⟩
  | 87 => ⟨S1x1x256, .f32⟩
  | 88 => ⟨S256, .f32⟩
  | 89 => ⟨S1x256, .f32⟩
  | 90 => ⟨S65536x256, .f32⟩
  | 91 => ⟨S65536x256, .f32⟩
  | 92 => ⟨S_, .f32⟩
  | 93 => ⟨S65536x256, .f32⟩
  | 94 => ⟨S65536x256, .f32⟩
  | 95 => ⟨S1x1x256x256, .f32⟩
  | 96 => ⟨S256x256, .f32⟩
  | 97 => ⟨S65536x256, .f32⟩
  | 98 => ⟨S1x1x256, .f32⟩
  | 99 => ⟨S256, .f32⟩
  | 100 => ⟨S1x256, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S1x256x1, .f32⟩
  | 107 => ⟨S256x1, .f32⟩
  | 108 => ⟨S65536x1, .f32⟩
  | 109 => ⟨S1x1, .f32⟩
  | 110 => ⟨S1, .f32⟩
  | 111 => ⟨S1x1, .f32⟩
  | 112 => ⟨S65536x1, .f32⟩
  | 113 => ⟨S65536x1, .f32⟩
  | 114 => ⟨S_, .i32⟩
  | 115 => ⟨S65536, .i32⟩
  | 116 => ⟨S65536, .i1⟩
  | 117 => ⟨S65536x1, .i1⟩
  | 118 => ⟨S_, .f32⟩
  | 119 => ⟨S_, .f32⟩
  | 120 => ⟨S65536x1, .f32⟩
  | 121 => ⟨S65536x1, .f32⟩
  | 122 => ⟨S65536x1, .f32⟩
  | 123 => ⟨S1x67x256, .f32⟩
  | 124 => ⟨S67x256, .f32⟩
  | 125 => ⟨S65536x256, .f32⟩
  | 126 => ⟨S1x256, .f32⟩
  | 127 => ⟨S256, .f32⟩
  | _ => ⟨S65536x3, .f32⟩

abbrev hbmTy0_2 (i : Nat) : BufTy := match i % 128 with
  | 0 => ⟨S1x256, .f32⟩
  | 1 => ⟨S65536x256, .f32⟩
  | 2 => ⟨S65536x256, .f32⟩
  | 3 => ⟨S_, .f32⟩
  | 4 => ⟨S65536x256, .f32⟩
  | 5 => ⟨S65536x256, .f32⟩
  | 6 => ⟨S1x1x256x256, .f32⟩
  | 7 => ⟨S256x256, .f32⟩
  | 8 => ⟨S65536x256, .f32⟩
  | 9 => ⟨S1x1x256, .f32⟩
  | 10 => ⟨S256, .f32⟩
  | 11 => ⟨S1x256, .f32⟩
  | 12 => ⟨S65536x256, .f32⟩
  | 13 => ⟨S65536x256, .f32⟩
  | 14 => ⟨S_, .f32⟩
  | 15 => ⟨S65536x256, .f32⟩
  | 16 => ⟨S65536x256, .f32⟩
  | 17 => ⟨S1x1x256x256, .f32⟩
  | 18 => ⟨S256x256, .f32⟩
  | 19 => ⟨S65536x256, .f32⟩
  | 20 => ⟨S1x1x256, .f32⟩
  | 21 => ⟨S256, .f32⟩
  | 22 => ⟨S1x256, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S1x256x1, .f32⟩
  | 29 => ⟨S256x1, .f32⟩
  | 30 => ⟨S65536x1, .f32⟩
  | 31 => ⟨S1x1, .f32⟩
  | 32 => ⟨S1, .f32⟩
  | 33 => ⟨S1x1, .f32⟩
  | 34 => ⟨S65536x1, .f32⟩
  | 35 => ⟨S65536x1, .f32⟩
  | 36 => ⟨S_, .i32⟩
  | 37 => ⟨S65536, .i32⟩
  | 38 => ⟨S65536, .i1⟩
  | 39 => ⟨S65536x1, .i1⟩
  | 40 => ⟨S_, .f32⟩
  | 41 => ⟨S_, .f32⟩
  | 42 => ⟨S65536x1, .f32⟩
  | 43 => ⟨S65536x1, .f32⟩
  | 44 => ⟨S65536x1, .f32⟩
  | 45 => ⟨S1x67x256, .f32⟩
  | 46 => ⟨S67x256, .f32⟩
  | 47 => ⟨S65536x256, .f32⟩
  | 48 => ⟨S1x256, .f32⟩
  | 49 => ⟨S256, .f32⟩
  | 50 => ⟨S1x256, .f32⟩
  | 51 => ⟨S65536x256, .f32⟩
  | 52 => ⟨S65536x256, .f32⟩
  | 53 => ⟨S_, .f32⟩
  | 54 => ⟨S65536x256, .f32⟩
  | 55 => ⟨S65536x256, .f32⟩
  | 56 => ⟨S1x1x256x256, .f32⟩
  | 57 => ⟨S256x256, .f32⟩
  | 58 => ⟨S65536x256, .f32⟩
  | 59 => ⟨S1x1x256, .f32⟩
  | 60 => ⟨S256, .f32⟩
  | 61 => ⟨S1x256, .f32⟩
  | 62 => ⟨S65536x256, .f32⟩
  | 63 => ⟨S65536x256, .f32⟩
  | 64 => ⟨S_, .f32⟩
  | 65 => ⟨S65536x256, .f32⟩
  | 66 => ⟨S65536x256, .f32⟩
  | 67 => ⟨S1x1x256x256, .f32⟩
  | 68 => ⟨S256x256, .f32⟩
  | 69 => ⟨S65536x256, .f32⟩
  | 70 => ⟨S1x1x256, .f32⟩
  | 71 => ⟨S256, .f32⟩
  | 72 => ⟨S1x256, .f32⟩
  | 73 => ⟨S65536x256, .f32⟩
  | 74 => ⟨S65536x256, .f32⟩
  | 75 => ⟨S_, .f32⟩
  | 76 => ⟨S65536x256, .f32⟩
  | 77 => ⟨S65536x256, .f32⟩
  | 78 => ⟨S1x256x1, .f32⟩
  | 79 => ⟨S256x1, .f32⟩
  | 80 => ⟨S65536x1, .f32⟩
  | 81 => ⟨S1x1, .f32⟩
  | 82 => ⟨S1, .f32⟩
  | 83 => ⟨S1x1, .f32⟩
  | 84 => ⟨S65536x1, .f32⟩
  | 85 => ⟨S65536x1, .f32⟩
  | 86 => ⟨S_, .i32⟩
  | 87 => ⟨S65536, .i32⟩
  | 88 => ⟨S65536, .i1⟩
  | 89 => ⟨S65536x1, .i1⟩
  | 90 => ⟨S_, .f32⟩
  | 91 => ⟨S_, .f32⟩
  | 92 => ⟨S65536x1, .f32⟩
  | 93 => ⟨S65536x1, .f32⟩
  | 94 => ⟨S65536x1, .f32⟩
  | 95 => ⟨S1x67x256, .f32⟩
  | 96 => ⟨S67x256, .f32⟩
  | 97 => ⟨S65536x256, .f32⟩
  | 98 => ⟨S1x256, .f32⟩
  | 99 => ⟨S256, .f32⟩
  | 100 => ⟨S1x256, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S1x1x256x256, .f32⟩
  | 107 => ⟨S256x256, .f32⟩
  | 108 => ⟨S65536x256, .f32⟩
  | 109 => ⟨S1x1x256, .f32⟩
  | 110 => ⟨S256, .f32⟩
  | 111 => ⟨S1x256, .f32⟩
  | 112 => ⟨S65536x256, .f32⟩
  | 113 => ⟨S65536x256, .f32⟩
  | 114 => ⟨S_, .f32⟩
  | 115 => ⟨S65536x256, .f32⟩
  | 116 => ⟨S65536x256, .f32⟩
  | 117 => ⟨S1x1x256x256, .f32⟩
  | 118 => ⟨S256x256, .f32⟩
  | 119 => ⟨S65536x256, .f32⟩
  | 120 => ⟨S1x1x256, .f32⟩
  | 121 => ⟨S256, .f32⟩
  | 122 => ⟨S1x256, .f32⟩
  | 123 => ⟨S65536x256, .f32⟩
  | 124 => ⟨S65536x256, .f32⟩
  | 125 => ⟨S_, .f32⟩
  | 126 => ⟨S65536x256, .f32⟩
  | 127 => ⟨S65536x256, .f32⟩
  | _ => ⟨S65536x3, .f32⟩

abbrev hbmTy0_3 (i : Nat) : BufTy := match i % 128 with
  | 0 => ⟨S1x256x1, .f32⟩
  | 1 => ⟨S256x1, .f32⟩
  | 2 => ⟨S65536x1, .f32⟩
  | 3 => ⟨S1x1, .f32⟩
  | 4 => ⟨S1, .f32⟩
  | 5 => ⟨S1x1, .f32⟩
  | 6 => ⟨S65536x1, .f32⟩
  | 7 => ⟨S65536x1, .f32⟩
  | 8 => ⟨S_, .i32⟩
  | 9 => ⟨S65536, .i32⟩
  | 10 => ⟨S65536, .i1⟩
  | 11 => ⟨S65536x1, .i1⟩
  | 12 => ⟨S_, .f32⟩
  | 13 => ⟨S_, .f32⟩
  | 14 => ⟨S65536x1, .f32⟩
  | 15 => ⟨S65536x1, .f32⟩
  | 16 => ⟨S65536x1, .f32⟩
  | 17 => ⟨S1x67x256, .f32⟩
  | 18 => ⟨S67x256, .f32⟩
  | 19 => ⟨S65536x256, .f32⟩
  | 20 => ⟨S1x256, .f32⟩
  | 21 => ⟨S256, .f32⟩
  | 22 => ⟨S1x256, .f32⟩
  | 23 => ⟨S65536x256, .f32⟩
  | 24 => ⟨S65536x256, .f32⟩
  | 25 => ⟨S_, .f32⟩
  | 26 => ⟨S65536x256, .f32⟩
  | 27 => ⟨S65536x256, .f32⟩
  | 28 => ⟨S1x1x256x256, .f32⟩
  | 29 => ⟨S256x256, .f32⟩
  | 30 => ⟨S65536x256, .f32⟩
  | 31 => ⟨S1x1x256, .f32⟩
  | 32 => ⟨S256, .f32⟩
  | 33 => ⟨S1x256, .f32⟩
  | 34 => ⟨S65536x256, .f32⟩
  | 35 => ⟨S65536x256, .f32⟩
  | 36 => ⟨S_, .f32⟩
  | 37 => ⟨S65536x256, .f32⟩
  | 38 => ⟨S65536x256, .f32⟩
  | 39 => ⟨S1x1x256x256, .f32⟩
  | 40 => ⟨S256x256, .f32⟩
  | 41 => ⟨S65536x256, .f32⟩
  | 42 => ⟨S1x1x256, .f32⟩
  | 43 => ⟨S256, .f32⟩
  | 44 => ⟨S1x256, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S1x256x1, .f32⟩
  | 51 => ⟨S256x1, .f32⟩
  | 52 => ⟨S65536x1, .f32⟩
  | 53 => ⟨S1x1, .f32⟩
  | 54 => ⟨S1, .f32⟩
  | 55 => ⟨S1x1, .f32⟩
  | 56 => ⟨S65536x1, .f32⟩
  | 57 => ⟨S65536x1, .f32⟩
  | 58 => ⟨S_, .i32⟩
  | 59 => ⟨S65536, .i32⟩
  | 60 => ⟨S65536, .i1⟩
  | 61 => ⟨S65536x1, .i1⟩
  | 62 => ⟨S_, .f32⟩
  | 63 => ⟨S_, .f32⟩
  | 64 => ⟨S65536x1, .f32⟩
  | 65 => ⟨S65536x1, .f32⟩
  | 66 => ⟨S65536x1, .f32⟩
  | _ => ⟨S65536x3, .f32⟩

abbrev hbmTy (i : Nat) : BufTy := match i / 128 with
  | 0 => hbmTy0_0 i
  | 1 => hbmTy0_1 i
  | 2 => hbmTy0_2 i
  | 3 => hbmTy0_3 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call2_cst : Ref sig .tc := ⟨.hbm, 81, rfl⟩
abbrev main_call2_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_call3_v0 : Ref sig .tc := ⟨.hbm, 97, rfl⟩
abbrev main_call3_v1 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_call4_cst : Ref sig .tc := ⟨.hbm, 109, rfl⟩
abbrev main_call4_v0 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call5_cst : Ref sig .tc := ⟨.hbm, 120, rfl⟩
abbrev main_call5_v0 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call6_cst : Ref sig .tc := ⟨.hbm, 131, rfl⟩
abbrev main_call6_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_c_10 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_11 : Ref sig .tc := ⟨.hbm, 146, rfl⟩
abbrev main_call7_v0 : Ref sig .tc := ⟨.hbm, 147, rfl⟩
abbrev main_call7_v1 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call8_cst : Ref sig .tc := ⟨.hbm, 159, rfl⟩
abbrev main_call8_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_call9_cst : Ref sig .tc := ⟨.hbm, 170, rfl⟩
abbrev main_call9_v0 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_call10_cst : Ref sig .tc := ⟨.hbm, 181, rfl⟩
abbrev main_call10_v0 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_c_12 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_13 : Ref sig .tc := ⟨.hbm, 196, rfl⟩
abbrev main_call11_v0 : Ref sig .tc := ⟨.hbm, 197, rfl⟩
abbrev main_call11_v1 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_call12_cst : Ref sig .tc := ⟨.hbm, 209, rfl⟩
abbrev main_call12_v0 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_call13_cst : Ref sig .tc := ⟨.hbm, 220, rfl⟩
abbrev main_call13_v0 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_call14_cst : Ref sig .tc := ⟨.hbm, 231, rfl⟩
abbrev main_call14_v0 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_c_14 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_cst_15 : Ref sig .tc := ⟨.hbm, 246, rfl⟩
abbrev main_call15_v0 : Ref sig .tc := ⟨.hbm, 247, rfl⟩
abbrev main_call15_v1 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_call16_cst : Ref sig .tc := ⟨.hbm, 259, rfl⟩
abbrev main_call16_v0 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_call17_cst : Ref sig .tc := ⟨.hbm, 270, rfl⟩
abbrev main_call17_v0 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_call18_cst : Ref sig .tc := ⟨.hbm, 281, rfl⟩
abbrev main_call18_v0 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_c_16 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_cst_17 : Ref sig .tc := ⟨.hbm, 296, rfl⟩
abbrev main_call19_v0 : Ref sig .tc := ⟨.hbm, 297, rfl⟩
abbrev main_call19_v1 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_call20_cst : Ref sig .tc := ⟨.hbm, 309, rfl⟩
abbrev main_call20_v0 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_call21_cst : Ref sig .tc := ⟨.hbm, 320, rfl⟩
abbrev main_call21_v0 : Ref sig .tc := ⟨.hbm, 321, rfl⟩
abbrev main_v247 : Ref sig .tc := ⟨.hbm, 322, rfl⟩
abbrev main_v248 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_call22_cst : Ref sig .tc := ⟨.hbm, 331, rfl⟩
abbrev main_call22_v0 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_c_18 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_cst_19 : Ref sig .tc := ⟨.hbm, 346, rfl⟩
abbrev main_call23_v0 : Ref sig .tc := ⟨.hbm, 347, rfl⟩
abbrev main_call23_v1 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_call24_cst : Ref sig .tc := ⟨.hbm, 359, rfl⟩
abbrev main_call24_v0 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_call25_cst : Ref sig .tc := ⟨.hbm, 370, rfl⟩
abbrev main_call25_v0 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_call26_cst : Ref sig .tc := ⟨.hbm, 381, rfl⟩
abbrev main_call26_v0 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_c_20 : Ref sig .tc := ⟨.hbm, 392, rfl⟩
abbrev main_v305 : Ref sig .tc := ⟨.hbm, 393, rfl⟩
abbrev main_v306 : Ref sig .tc := ⟨.hbm, 394, rfl⟩
abbrev main_v307 : Ref sig .tc := ⟨.hbm, 395, rfl⟩
abbrev main_cst_21 : Ref sig .tc := ⟨.hbm, 396, rfl⟩
abbrev main_call27_v0 : Ref sig .tc := ⟨.hbm, 397, rfl⟩
abbrev main_call27_v1 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_call28_cst : Ref sig .tc := ⟨.hbm, 409, rfl⟩
abbrev main_call28_v0 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_call29_cst : Ref sig .tc := ⟨.hbm, 420, rfl⟩
abbrev main_call29_v0 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_call30_cst : Ref sig .tc := ⟨.hbm, 431, rfl⟩
abbrev main_call30_v0 : Ref sig .tc := ⟨.hbm, 432, rfl⟩
abbrev main_v336 : Ref sig .tc := ⟨.hbm, 433, rfl⟩
abbrev main_v337 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_v343 : Ref sig .tc := ⟨.hbm, 440, rfl⟩
abbrev main_v344 : Ref sig .tc := ⟨.hbm, 441, rfl⟩
abbrev main_c_22 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_cst_23 : Ref sig .tc := ⟨.hbm, 446, rfl⟩
abbrev main_call31_v0 : Ref sig .tc := ⟨.hbm, 447, rfl⟩
abbrev main_call31_v1 : Ref sig .tc := ⟨.hbm, 448, rfl⟩
abbrev main_v348 : Ref sig .tc := ⟨.hbm, 449, rfl⟩
abbrev main_v349 : Ref sig .tc := ⟨.hbm, 450, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x64 : S_.BroadcastsInDim S65536x64 (![] : Fin 0 → Fin S65536x64.rank)
  reducesTo_S65536x64_S_d0_1 : S65536x64.ReducesTo [0, 1] S_
  h_S_ : 0 < S_.numel
  concatenates_S65536x3_S65536x64_S65536x67_d1 : Shape.Concatenates [S65536x3, S65536x64] S65536x67 1
  bcast_S_S65536x1 : S_.BroadcastsInDim S65536x1 (![] : Fin 0 → Fin S65536x1.rank)
  slices_S8x67x256_S1x67x256_0_0_0 : S8x67x256.Slices ![0, 0, 0] S1x67x256
  shapeCasts_S1x67x256_S67x256 : S1x67x256.ShapeCasts S67x256
  slices_S8x256_S1x256_0_0 : S8x256.Slices ![0, 0] S1x256
  shapeCasts_S1x256_S256 : S1x256.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S2x8x256x256_S1x1x256x256_0_0_0_0 : S2x8x256x256.Slices ![0, 0, 0, 0] S1x1x256x256
  shapeCasts_S1x1x256x256_S256x256 : S1x1x256x256.ShapeCasts S256x256
  slices_S2x8x256_S1x1x256_0_0_0 : S2x8x256.Slices ![0, 0, 0] S1x1x256
  shapeCasts_S1x1x256_S256 : S1x1x256.ShapeCasts S256
  slices_S2x8x256x256_S1x1x256x256_1_0_0_0 : S2x8x256x256.Slices ![1, 0, 0, 0] S1x1x256x256
  slices_S2x8x256_S1x1x256_1_0_0 : S2x8x256.Slices ![1, 0, 0] S1x1x256
  slices_S8x256x1_S1x256x1_0_0_0 : S8x256x1.Slices ![0, 0, 0] S1x256x1
  shapeCasts_S1x256x1_S256x1 : S1x256x1.ShapeCasts S256x1
  slices_S8x1_S1x1_0_0 : S8x1.Slices ![0, 0] S1x1
  shapeCasts_S1x1_S1 : S1x1.ShapeCasts S1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  slices_S8x67x256_S1x67x256_1_0_0 : S8x67x256.Slices ![1, 0, 0] S1x67x256
  slices_S8x256_S1x256_1_0 : S8x256.Slices ![1, 0] S1x256
  slices_S2x8x256x256_S1x1x256x256_0_1_0_0 : S2x8x256x256.Slices ![0, 1, 0, 0] S1x1x256x256
  slices_S2x8x256_S1x1x256_0_1_0 : S2x8x256.Slices ![0, 1, 0] S1x1x256
  slices_S2x8x256x256_S1x1x256x256_1_1_0_0 : S2x8x256x256.Slices ![1, 1, 0, 0] S1x1x256x256
  slices_S2x8x256_S1x1x256_1_1_0 : S2x8x256.Slices ![1, 1, 0] S1x1x256
  slices_S8x256x1_S1x256x1_1_0_0 : S8x256x1.Slices ![1, 0, 0] S1x256x1
  slices_S8x1_S1x1_1_0 : S8x1.Slices ![1, 0] S1x1
  slices_S8x67x256_S1x67x256_2_0_0 : S8x67x256.Slices ![2, 0, 0] S1x67x256
  slices_S8x256_S1x256_2_0 : S8x256.Slices ![2, 0] S1x256
  slices_S2x8x256x256_S1x1x256x256_0_2_0_0 : S2x8x256x256.Slices ![0, 2, 0, 0] S1x1x256x256
  slices_S2x8x256_S1x1x256_0_2_0 : S2x8x256.Slices ![0, 2, 0] S1x1x256
  slices_S2x8x256x256_S1x1x256x256_1_2_0_0 : S2x8x256x256.Slices ![1, 2, 0, 0] S1x1x256x256
  slices_S2x8x256_S1x1x256_1_2_0 : S2x8x256.Slices ![1, 2, 0] S1x1x256
  slices_S8x256x1_S1x256x1_2_0_0 : S8x256x1.Slices ![2, 0, 0] S1x256x1
  slices_S8x1_S1x1_2_0 : S8x1.Slices ![2, 0] S1x1
  slices_S8x67x256_S1x67x256_3_0_0 : S8x67x256.Slices ![3, 0, 0] S1x67x256
  slices_S8x256_S1x256_3_0 : S8x256.Slices ![3, 0] S1x256
  slices_S2x8x256x256_S1x1x256x256_0_3_0_0 : S2x8x256x256.Slices ![0, 3, 0, 0] S1x1x256x256
  slices_S2x8x256_S1x1x256_0_3_0 : S2x8x256.Slices ![0, 3, 0] S1x1x256
  slices_S2x8x256x256_S1x1x256x256_1_3_0_0 : S2x8x256x256.Slices ![1, 3, 0, 0] S1x1x256x256
  slices_S2x8x256_S1x1x256_1_3_0 : S2x8x256.Slices ![1, 3, 0] S1x1x256
  slices_S8x256x1_S1x256x1_3_0_0 : S8x256x1.Slices ![3, 0, 0] S1x256x1
  slices_S8x1_S1x1_3_0 : S8x1.Slices ![3, 0] S1x1
  slices_S8x67x256_S1x67x256_4_0_0 : S8x67x256.Slices ![4, 0, 0] S1x67x256
  slices_S8x256_S1x256_4_0 : S8x256.Slices ![4, 0] S1x256
  slices_S2x8x256x256_S1x1x256x256_0_4_0_0 : S2x8x256x256.Slices ![0, 4, 0, 0] S1x1x256x256
  slices_S2x8x256_S1x1x256_0_4_0 : S2x8x256.Slices ![0, 4, 0] S1x1x256
  slices_S2x8x256x256_S1x1x256x256_1_4_0_0 : S2x8x256x256.Slices ![1, 4, 0, 0] S1x1x256x256
  slices_S2x8x256_S1x1x256_1_4_0 : S2x8x256.Slices ![1, 4, 0] S1x1x256
  slices_S8x256x1_S1x256x1_4_0_0 : S8x256x1.Slices ![4, 0, 0] S1x256x1
  slices_S8x1_S1x1_4_0 : S8x1.Slices ![4, 0] S1x1
  slices_S8x67x256_S1x67x256_5_0_0 : S8x67x256.Slices ![5, 0, 0] S1x67x256
  slices_S8x256_S1x256_5_0 : S8x256.Slices ![5, 0] S1x256
  slices_S2x8x256x256_S1x1x256x256_0_5_0_0 : S2x8x256x256.Slices ![0, 5, 0, 0] S1x1x256x256
  slices_S2x8x256_S1x1x256_0_5_0 : S2x8x256.Slices ![0, 5, 0] S1x1x256
  slices_S2x8x256x256_S1x1x256x256_1_5_0_0 : S2x8x256x256.Slices ![1, 5, 0, 0] S1x1x256x256
  slices_S2x8x256_S1x1x256_1_5_0 : S2x8x256.Slices ![1, 5, 0] S1x1x256
  slices_S8x256x1_S1x256x1_5_0_0 : S8x256x1.Slices ![5, 0, 0] S1x256x1
  slices_S8x1_S1x1_5_0 : S8x1.Slices ![5, 0] S1x1
  slices_S8x67x256_S1x67x256_6_0_0 : S8x67x256.Slices ![6, 0, 0] S1x67x256
  slices_S8x256_S1x256_6_0 : S8x256.Slices ![6, 0] S1x256
  slices_S2x8x256x256_S1x1x256x256_0_6_0_0 : S2x8x256x256.Slices ![0, 6, 0, 0] S1x1x256x256
  slices_S2x8x256_S1x1x256_0_6_0 : S2x8x256.Slices ![0, 6, 0] S1x1x256
  slices_S2x8x256x256_S1x1x256x256_1_6_0_0 : S2x8x256x256.Slices ![1, 6, 0, 0] S1x1x256x256
  slices_S2x8x256_S1x1x256_1_6_0 : S2x8x256.Slices ![1, 6, 0] S1x1x256
  slices_S8x256x1_S1x256x1_6_0_0 : S8x256x1.Slices ![6, 0, 0] S1x256x1
  slices_S8x1_S1x1_6_0 : S8x1.Slices ![6, 0] S1x1
  slices_S8x67x256_S1x67x256_7_0_0 : S8x67x256.Slices ![7, 0, 0] S1x67x256
  slices_S8x256_S1x256_7_0 : S8x256.Slices ![7, 0] S1x256
  slices_S2x8x256x256_S1x1x256x256_0_7_0_0 : S2x8x256x256.Slices ![0, 7, 0, 0] S1x1x256x256
  slices_S2x8x256_S1x1x256_0_7_0 : S2x8x256.Slices ![0, 7, 0] S1x1x256
  slices_S2x8x256x256_S1x1x256x256_1_7_0_0 : S2x8x256x256.Slices ![1, 7, 0, 0] S1x1x256x256
  slices_S2x8x256_S1x1x256_1_7_0 : S2x8x256.Slices ![1, 7, 0] S1x1x256
  slices_S8x256x1_S1x256x1_7_0_0 : S8x256x1.Slices ![7, 0, 0] S1x256x1
  slices_S8x1_S1x1_7_0 : S8x1.Slices ![7, 0] S1x1
  gather_S8x64_S65536x1_S65536x64_1_0_n_n_0_1_164_wf : GatherDims.WF S8x64 S65536x1 S65536x64 [1] [0] [] [0] [] 1 ![1, 64]
  dot_S65536x67_S67x256_S65536x256_1_0_0_1_n_n_wf : DotDims.WF S65536x67 S67x256 S65536x256 [1] [0] [0] [1] [] []
  dot_S65536x256_S256x256_S65536x256_1_0_0_1_n_n_wf : DotDims.WF S65536x256 S256x256 S65536x256 [1] [0] [0] [1] [] []
  dot_S65536x256_S256x1_S65536x1_1_0_0_1_n_n_wf : DotDims.WF S65536x256 S256x1 S65536x1 [1] [0] [0] [1] [] []

variable [Facts₀]

def gather_S8x64_S65536x1_S65536x64_1_0_n_n_0_1_164 : GatherDims S8x64 S65536x1 S65536x64 where
  offsetDims := [1]
  collapsedSliceDims := [0]
  operandBatchingDims := []
  startIndicesBatchingDims := []
  startIndexMap := [0]
  indexVectorDim := 1
  sliceSizes := ![1, 64]
  wf := gather_S8x64_S65536x1_S65536x64_1_0_n_n_0_1_164_wf
def dot_S65536x67_S67x256_S65536x256_1_0_0_1_n_n : DotDims S65536x67 S67x256 S65536x256 where
  lhsContracting := [1]
  rhsContracting := [0]
  lhsNonContracting := [0]
  rhsNonContracting := [1]
  lhsBatch := []
  rhsBatch := []
  wf := dot_S65536x67_S67x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefOps.lean ====
/-
  The reference program's @main as lines of host operations, cut into nine stretches: the glue that builds
  the network's input (the embedding lookups, the reparametrised latent, the KL term, the concatenation and the
  zero accumulator), then one stretch per expert (its four dense layers, the comparison of the labels with the
  expert's number, the selection and the accumulation). The whole line is their concatenation.
-/
import proofs.«162275_j30107720745799_1_alg».proof.Proof.Gen.ReferenceIdeal
import proofs.«162275_j30107720745799_1_alg».proof.Proof.LibStretches
import Idealize.ShloMosaic.Lib.StableHlo.Run

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

/-- The glue stretch: operations 1 to 40 of @main, in order. -/
abbrev glue : List (HloOp τ sig (Elt F)) :=
  [ nullary main_c (constantI S_ 32 0#32),
    unary main_c main_v0 (broadcastInDim S65536 ![] bcast_S_S65536 : (⟨S_, .i32⟩ : BufTy).Contents (Elt F) → (⟨S65536, .i32⟩ : BufTy).Contents (Elt F)),
    binary main_arg1 main_v0 main_v1 (cmpi .slt : (⟨S65536, .i32⟩ : BufTy).Contents (Elt F) → (⟨S65536, .i32⟩ : BufTy).Contents (Elt F) → (⟨S65536, .i1⟩ : BufTy).Contents (Elt F)),
    nullary main_c_0 (constantI S_ 32 8#32),
    unary main_c_0 main_v2 (broadcastInDim S65536 ![] bcast_S_S65536 : (⟨S_, .i32⟩ : BufTy).Contents (Elt F) → (⟨S65536, .i32⟩ : BufTy).Contents (Elt F)),
    binary main_arg1 main_v2 main_v3 (addi : (⟨S65536, .i32⟩ : BufTy).Contents (Elt F) → (⟨S65536, .i32⟩ : BufTy).Contents (Elt F) → (⟨S65536, .i32⟩ : BufTy).Contents (Elt F)),
    ternary main_v1 main_v3 main_arg1 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v4 main_v5 (broadcastInDim S65536x1 ![0] bcast_S65536_S65536x1_0 : (⟨S65536, .i32⟩ : BufTy).Contents (Elt F) → (⟨S65536x1, .i32⟩ : BufTy).Contents (Elt F)),
    binary main_arg3 main_v5 main_v6 ((fun x i => Host.gather gather_S8x64_S65536x1_S65536x64_1_0_n_n_0_1_164 x i) : (⟨S8x64, .f32⟩ : BufTy).Contents (Elt F) → (⟨S65536x1, .i32⟩ : BufTy).Contents (Elt F) → (⟨S65536x64, .f32⟩ : BufTy).Contents (Elt F)),
    nullary main_c_1 (constantI S_ 32 0#32),
    unary main_c_1 main_v7 (broadcastInDim S65536 ![] bcast_S_S65536 : (⟨S_, .i32⟩ : BufTy).Contents (Elt F) → (⟨S65536, .i32⟩ : BufTy).Contents (Elt F)),
    binary main_arg1 main_v7 main_v8 (cmpi .slt : (⟨S65536, .i32⟩ : BufTy).Contents (Elt F) → (⟨S65536, .i32⟩ : BufTy).Contents (Elt F) → (⟨S65536, .i1⟩ : BufTy).Contents (Elt F)),
    nullary main_c_2 (constantI S_ 32 8#32),
    unary main_c_2 main_v9 (broadcastInDim S65536 ![] bcast_S_S65536 : (⟨S_, .i32⟩ : BufTy).Contents (Elt F) → (⟨S65536, .i32⟩ : BufTy).Contents (Elt F)),
    binary main_arg1 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_arg1 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    binary main_arg4 main_v12 main_v13 ((fun x i => Host.gather gather_S8x64_S65536x1_S65536x64_1_0_n_n_0_1_164 x i) : (⟨S8x64, .f32⟩ : BufTy).Contents (Elt F) → (⟨S65536x1, .i32⟩ : BufTy).Contents (Elt F) → (⟨S65536x64, .f32⟩ : BufTy).Contents (Elt F)),
    nullary main_cst (constant S_ .f32 0x3F000000#32),
    unary main_cst main_v14 (broadcastInDim S65536x64 ![] bcast_S_S65536x64 : (⟨S_, .f32⟩ : BufTy).Contents (Elt F) → (⟨S65536x64, .f32⟩ : BufTy).Contents (Elt F)),
    binary main_v14 main_v13 main_v15 (mulf : (⟨S65536x64, .f32⟩ : BufTy).Contents (Elt F) → (⟨S65536x64, .f32⟩ : BufTy).Contents (Elt F) → (⟨S65536x64, .f32⟩ : BufTy).Contents (Elt F)),
    unary main_v15 main_v16 (Host.exp : (⟨S65536x64, .f32⟩ : BufTy).Contents (Elt F) → (⟨S65536x64, .f32⟩ : BufTy).Contents (Elt F)),
    binary main_arg2 main_v16 main_v17 (mulf : (⟨S65536x64, .f32⟩ : BufTy).Contents (Elt F) → (⟨S65536x64, .f32⟩ : BufTy).Contents (Elt F) → (⟨S65536x64, .f32⟩ : BufTy).Contents (Elt F)),
    binary main_v6 main_v17 main_v18 (addf : (⟨S65536x64, .f32⟩ : BufTy).Contents (Elt F) → (⟨S65536x64, .f32⟩ : BufTy).Contents (Elt F) → (⟨S65536x64, .f32⟩ : BufTy).Contents (Elt F)),
    nullary main_cst_3 (constant S_ .f32 0x3F800000#32),
    unary main_cst_3 main_v19 (broadcastInDim S65536x64 ![] bcast_S_S65536x64 : (⟨S_, .f32⟩ : BufTy).Contents (Elt F) → (⟨S65536x64, .f32⟩ : BufTy).Contents (Elt F)),
    binary main_v19 main_v13 main_v20 (addf : (⟨S65536x64, .f32⟩ : BufTy).Contents (Elt F) → (⟨S65536x64, .f32⟩ : BufTy).Contents (Elt F) → (⟨S65536x64, .f32⟩ : BufTy).Contents (Elt F)),
    binary main_v6 main_v6 main_v21 (mulf : (⟨S65536x64, .f32⟩ : BufTy).Contents (Elt F) → (⟨S65536x64, .f32⟩ : BufTy).Contents (Elt F) → (⟨S65536x64, .f32⟩ : BufTy).Contents (Elt F)),
    binary main_v20 main_v21 main_v22 (subf : (⟨S65536x64, .f32⟩ : BufTy).Contents (Elt F) → (⟨S65536x64, .f32⟩ : BufTy).Contents (Elt F) → (⟨S65536x64, .f32⟩ : BufTy).Contents (Elt F)),
    unary main_v13 main_v23 (Host.exp : (⟨S65536x64, .f32⟩ : BufTy).Contents (Elt F) → (⟨S65536x64, .f32⟩ : BufTy).Contents (Elt F)),
    binary main_v22 main_v23 main_v24 (subf : (⟨S65536x64, .f32⟩ : BufTy).Contents (Elt F) → (⟨S65536x64, .f32⟩ : BufTy).Contents (Elt F) → (⟨S65536x64, .f32⟩ : BufTy).Contents (Elt F)),
    nullary main_cst_4 (constant S_ .f32 0x00000000#32),
    binary main_v24 main_cst_4 main_v25 ((fun x v => Host.reduceAdd x v reducesTo_S65536x64_S_d0_1 h_S_) : (⟨S65536x64, .f32⟩ : BufTy).Contents (Elt F) → (⟨S_, .f32⟩ : BufTy).Contents (Elt F) → (⟨S_, .f32⟩ : BufTy).Contents (Elt F)),
    nullary main_cst_5 (constant S_ .f32 0xBF000000#32),
    binary main_cst_5 main_v25 main_v26 (mulf : (⟨S_, .f32⟩ : BufTy).Contents (Elt F) → (⟨S_, .f32⟩ : BufTy).Contents (Elt F) → (⟨S_, .f32⟩ : BufTy).Contents (Elt F)),
    nullary main_cst_6 (constant S_ .f32 0x47800000#32),
    binary main_v26 main_cst_6 main_v27 (Host.divf : (⟨S_, .f32⟩ : BufTy).Contents (Elt F) → (⟨S_, .f32⟩ : BufTy).Contents (Elt F) → (⟨S_, .f32⟩ : BufTy).Contents (Elt F)),
    binary main_arg0 main_v18 main_v28 ((fun a b => concatenate S65536x67 1 [⟨S65536x3, a⟩, ⟨S65536x64, b⟩] concatenates_S65536x3_S65536x64_S65536x67_d1) : (⟨S65536x3, .f32⟩ : BufTy).Contents (Elt F) → (⟨S65536x64, .f32⟩ : BufTy).Contents (Elt F) → (⟨S65536x67, .f32⟩ : BufTy).Contents (Elt F)),
    nullary main_cst_7 (constant S_ .f32 0x00000000#32),
    unary main_cst_7 main_v29 (broadcastInDim S65536x1 ![] bcast_S_S65536x1 : (⟨S_, .f32⟩ : BufTy).Contents (Elt F) → (⟨S65536x1, .f32⟩ : BufTy).Contents (Elt F)) ]

theorem glue_sub : (glue : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., binary_bufs_sub .., binary_bufs_sub .., unary_bufs_sub .., binary_bufs_sub .., nullary_bufs_sub .., binary_bufs_sub .., nullary_bufs_sub .., binary_bufs_sub .., nullary_bufs_sub .., binary_bufs_sub .., binary_bufs_sub .., nullary_bufs_sub .., unary_bufs_sub ..⟩

theorem glue_fresh : ∀ op ∈ (glue : List (HloOp τ sig (Elt F))), op.fresh = ∅ := by
  intro _ h; (repeat (cases h with | head => rfl | tail _ h => ?_)); exact nomatch h

/-- The stretch of expert 0: operations 41 to 90 of @main, in order. -/
abbrev expert0 : List (HloOp τ sig (Elt F)) :=
  [ unary main_arg5 main_v30 ((extractStridedSlice S1x67x256 ![0, 0, 0] · slices_S8x67x256_S1x67x256_0_0_0) : (⟨S8x67x256, .f32⟩ : BufTy).Contents (Elt F) → (⟨S1x67x256, .f32⟩ : BufTy).Contents (Elt F)),
    reshape main_v30 main_v31 rfl shapeCasts_S1x67x256_S67x256,
    binary main_v28 main_v31 main_v32 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v33 ((extractStridedSlice S1x256 ![0, 0] · slices_S8x256_S1x256_0_0) : (⟨S8x256, .f32⟩ : BufTy).Contents (Elt F) → (⟨S1x256, .f32⟩ : BufTy).Contents (Elt F)),
    reshape main_v33 main_v34 rfl shapeCasts_S1x256_S256,
    unary main_v34 main_v35 (broadcastInDim S1x256 ![1] bcast_S256_S1x256_1 : (⟨S256, .f32⟩ : BufTy).Contents (Elt F) → (⟨S1x256, .f32⟩ : BufTy).Contents (Elt F)),
    unary main_v35 main_v36 (broadcastInDim S65536x256 ![0, 1] bcast_S1x256_S65536x256_0_1 : (⟨S1x256, .f32⟩ : BufTy).Contents (Elt F) → (⟨S65536x256, .f32⟩ : BufTy).Contents (Elt F)),
    binary main_v32 main_v36 main_v37 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x256, .f32⟩) main_call0_v0) (broadcastInDim S65536x256 ![] bcast_S_S65536x256),
    TRef.binary (TRef.of (T := ⟨S65536x256, .f32⟩) main_v37) (TRef.of (T := ⟨S65536x256, .f32⟩) main_call0_v0) (TRef.of (T := ⟨S65536x256, .f32⟩) main_v38) maximumf,
    unary main_arg7 main_v39 ((extractStridedSlice S1x1x256x256 ![0, 0, 0, 0] · slices_S2x8x256x256_S1x1x256x256_0_0_0_0) : (⟨S2x8x256x256, .f32⟩ : BufTy).Contents (Elt F) → (⟨S1x1x256x256, .f32⟩ : BufTy).Contents (Elt F)),
    reshape main_v39 main_v40 rfl shapeCasts_S1x1x256x256_S256x256,
    binary main_v38 main_v40 main_v41 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v42 ((extractStridedSlice S1x1x256 ![0, 0, 0] · slices_S2x8x256_S1x1x256_0_0_0) : (⟨S2x8x256, .f32⟩ : BufTy).Contents (Elt F) → (⟨S1x1x256, .f32⟩ : BufTy).Contents (Elt F)),
    reshape main_v42 main_v43 rfl shapeCasts_S1x1x256_S256,
    unary main_v43 main_v44 (broadcastInDim S1x256 ![1] bcast_S256_S1x256_1 : (⟨S256, .f32⟩ : BufTy).Contents (Elt F) → (⟨S1x256, .f32⟩ : BufTy).Contents (Elt F)),
    unary main_v44 main_v45 (broadcastInDim S65536x256 ![0, 1] bcast_S1x256_S65536x256_0_1 : (⟨S1x256, .f32⟩ : BufTy).Contents (Elt F) → (⟨S65536x256, .f32⟩ : BufTy).Contents (Elt F)),
    binary main_v41 main_v45 main_v46 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S65536x256, .f32⟩) main_call1_v0) (broadcastInDim S65536x256 ![] bcast_S_S65536x256),
    TRef.binary (TRef.of (T := ⟨S65536x256, .f32⟩) main_v46) (TRef.of (T := ⟨S65536x256, .f32⟩) main_call1_v0) (TRef.of (T := ⟨S65536x256, .f32⟩) main_v47) maximumf,
    unary main_arg7 main_v48 ((extractStridedSlice S1x1x256x256 ![1, 0, 0, 0] · slices_S2x8x256x256_S1x1x256x256_1_0_0_0) : (⟨S2x8x256x256, .f32⟩ : BufTy).Contents (Elt F) → (⟨S1x1x256x256, .f32⟩ : BufTy).Contents (Elt F)),
    reshape main_v48 main_v49 rfl shapeCasts_S1x1x256x256_S256x256,
    binary main_v47 main_v49 main_v50 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v51 ((extractStridedSlice S1x1x256 ![1, 0, 0] · slices_S2x8x256_S1x1x256_1_0_0) : (⟨S2x8x256, .f32⟩ : BufTy).Contents (Elt F) → (⟨S1x1x256, .f32⟩ : BufTy).Contents (Elt F)),
    reshape main_v51 main_v52 rfl shapeCasts_S1x1x256_S256,
    unary main_v52 main_v53 (broadcastInDim S1x256 ![1] bcast_S256_S1x256_1 : (⟨S256, .f32⟩ : BufTy).Contents (Elt F) → (⟨S1x256, .f32⟩ : BufTy).Contents (Elt F)),
    unary main_v53 main_v54 (broadcastInDim S65536x256 ![0, 1] bcast_S1x256_S65536x256_0_1 : (⟨S1x256, .f32⟩ : BufTy).Contents (Elt F) → (⟨S65536x256, .f32⟩ : BufTy).Contents (Elt F)),
    binary main_v50 main_v54 main_v55 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x256, .f32⟩) main_call2_v0) (broadcastInDim S65536x256 ![] bcast_S_S65536x256),
    TRef.binary (TRef.of (T := ⟨S65536x256, .f32⟩) main_v55) (TRef.of (T := ⟨S65536x256, .f32⟩) main_call2_v0) (TRef.of (T := ⟨S65536x256, .f32⟩) main_v56) maximumf,
    unary main_arg9 main_v57 ((extractStridedSlice S1x256x1 ![0, 0, 0] · slices_S8x256x1_S1x256x1_0_0_0) : (⟨S8x256x1, .f32⟩ : BufTy).Contents (Elt F) → (⟨S1x256x1, .f32⟩ : BufTy).Contents (Elt F)),
    reshape main_v57 main_v58 rfl shapeCasts_S1x256x1_S256x1,
    binary main_v56 main_v58 main_v59 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v60 ((extractStridedSlice S1x1 ![0, 0] · slices_S8x1_S1x1_0_0) : (⟨S8x1, .f32⟩ : BufTy).Contents (Elt F) → (⟨S1x1, .f32⟩ : BufTy).Contents (Elt F)),
    reshape main_v60 main_v61 rfl shapeCasts_S1x1_S1,
    unary main_v61 main_v62 (broadcastInDim S1x1 ![1] bcast_S1_S1x1_1 : (⟨S1, .f32⟩ : BufTy).Contents (Elt F) → (⟨S1x1, .f32⟩ : BufTy).Contents (Elt F)),
    unary main_v62 main_v63 (broadcastInDim S65536x1 ![0, 1] bcast_S1x1_S65536x1_0_1 : (⟨S1x1, .f32⟩ : BufTy).Contents (Elt F) → (⟨S65536x1, .f32⟩ : BufTy).Contents (Elt F)),
    binary main_v59 main_v63 main_v64 (addf : (⟨S65536x1, .f32⟩ : BufTy).Contents (Elt F) → (⟨S65536x1, .f32⟩ : BufTy).Contents (Elt F) → (⟨S65536x1, .f32⟩ : BufTy).Contents (Elt F)),
    nullary main_c_8 (constantI S_ 32 0#32),
    unary main_c_8 main_v65 (broadcastInDim S65536 ![] bcast_S_S65536 : (⟨S_, .i32⟩ : BufTy).Contents (Elt F) → (⟨S65536, .i32⟩ : BufTy).Contents (Elt F)),
    binary main_arg1 main_v65 main_v66 (cmpi .eq : (⟨S65536, .i32⟩ : BufTy).Contents (Elt F) → (⟨S65536, .i32⟩ : BufTy).Contents (Elt F) → (⟨S65536, .i1⟩ : BufTy).Contents (Elt F)),
    unary main_v66 main_v67 (broadcastInDim S65536x1 ![0] bcast_S65536_S65536x1_0 : (⟨S65536, .i1⟩ : BufTy).Contents (Elt F) → (⟨S65536x1, .i1⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S65536x1, .f32⟩) main_call3_v1) (broadcastInDim S65536x1 ![] bcast_S_S65536x1),
    TRef.ternary (TRef.of (T := ⟨S65536x1, .i1⟩) main_v67) (TRef.of (T := ⟨S65536x1, .f32⟩) main_v64) (TRef.of (T := ⟨S65536x1, .f32⟩) main_call3_v1) (TRef.of (T := ⟨S65536x1, .f32⟩) main_v68) select,
    binary main_v29 main_v68 main_v69 (addf : (⟨S65536x1, .f32⟩ : BufTy).Contents (Elt F) → (⟨S65536x1, .f32⟩ : BufTy).Contents (Elt F) → (⟨S65536x1, .f32⟩ : BufTy).Contents (Elt F)) ]

theorem expert0_sub : (expert0 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert0_fresh : ∀ op ∈ (expert0 : List (HloOp τ sig (Elt F))), op.fresh = ∅ := by
  intro _ h; (repeat (cases h with | head => rfl | tail _ h => ?_)); exact nomatch h

/-- The stretch of expert 1: operations 91 to 140 of @main, in order. -/
abbrev expert1 : List (HloOp τ sig (Elt F)) :=
  [ unary main_arg5 main_v70 ((extractStridedSlice S1x67x256 ![1, 0, 0] · slices_S8x67x256_S1x67x256_1_0_0) : (⟨S8x67x256, .f32⟩ : BufTy).Contents (Elt F) → (⟨S1x67x256, .f32⟩ : BufTy).Contents (Elt F)),
    reshape main_v70 main_v71 rfl shapeCasts_S1x67x256_S67x256,
    binary main_v28 main_v71 main_v72 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v73 ((extractStridedSlice S1x256 ![1, 0] · slices_S8x256_S1x256_1_0) : (⟨S8x256, .f32⟩ : BufTy).Contents (Elt F) → (⟨S1x256, .f32⟩ : BufTy).Contents (Elt F)),
    reshape main_v73 main_v74 rfl shapeCasts_S1x256_S256,
    unary main_v74 main_v75 (broadcastInDim S1x256 ![1] bcast_S256_S1x256_1 : (⟨S256, .f32⟩ : BufTy).Contents (Elt F) → (⟨S1x256, .f32⟩ : BufTy).Contents (Elt F)),
    unary main_v75 main_v76 (broadcastInDim S65536x256 ![0, 1] bcast_S1x256_S65536x256_0_1 : (⟨S1x256, .f32⟩ : BufTy).Contents (Elt F) → (⟨S65536x256, .f32⟩ : BufTy).Contents (Elt F)),
    binary main_v72 main_v76 main_v77 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x256, .f32⟩) main_call4_v0) (broadcastInDim S65536x256 ![] bcast_S_S65536x256),
    TRef.binary (TRef.of (T := ⟨S65536x256, .f32⟩) main_v77) (TRef.of (T := ⟨S65536x256, .f32⟩) main_call4_v0) (TRef.of (T := ⟨S65536x256, .f32⟩) main_v78) maximumf,
    unary main_arg7 main_v79 ((extractStridedSlice S1x1x256x256 ![0, 1, 0, 0] · slices_S2x8x256x256_S1x1x256x256_0_1_0_0) : (⟨S2x8x256x256, .f32⟩ : BufTy).Contents (Elt F) → (⟨S1x1x256x256, .f32⟩ : BufTy).Contents (Elt F)),
    reshape main_v79 main_v80 rfl shapeCasts_S1x1x256x256_S256x256,
    binary main_v78 main_v80 main_v81 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v82 ((extractStridedSlice S1x1x256 ![0, 1, 0] · slices_S2x8x256_S1x1x256_0_1_0) : (⟨S2x8x256, .f32⟩ : BufTy).Contents (Elt F) → (⟨S1x1x256, .f32⟩ : BufTy).Contents (Elt F)),
    reshape main_v82 main_v83 rfl shapeCasts_S1x1x256_S256,
    unary main_v83 main_v84 (broadcastInDim S1x256 ![1] bcast_S256_S1x256_1 : (⟨S256, .f32⟩ : BufTy).Contents (Elt F) → (⟨S1x256, .f32⟩ : BufTy).Contents (Elt F)),
    unary main_v84 main_v85 (broadcastInDim S65536x256 ![0, 1] bcast_S1x256_S65536x256_0_1 : (⟨S1x256, .f32⟩ : BufTy).Contents (Elt F) → (⟨S65536x256, .f32⟩ : BufTy).Contents (Elt F)),
    binary main_v81 main_v85 main_v86 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x256, .f32⟩) main_call5_v0) (broadcastInDim S65536x256 ![] bcast_S_S65536x256),
    TRef.binary (TRef.of (T := ⟨S65536x256, .f32⟩) main_v86) (TRef.of (T := ⟨S65536x256, .f32⟩) main_call5_v0) (TRef.of (T := ⟨S65536x256, .f32⟩) main_v87) maximumf,
    unary main_arg7 main_v88 ((extractStridedSlice S1x1x256x256 ![1, 1, 0, 0] · slices_S2x8x256x256_S1x1x256x256_1_1_0_0) : (⟨S2x8x256x256, .f32⟩ : BufTy).Contents (Elt F) → (⟨S1x1x256x256, .f32⟩ : BufTy).Contents (Elt F)),
    reshape main_v88 main_v89 rfl shapeCasts_S1x1x256x256_S256x256,
    binary main_v87 main_v89 main_v90 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v91 ((extractStridedSlice S1x1x256 ![1, 1, 0] · slices_S2x8x256_S1x1x256_1_1_0) : (⟨S2x8x256, .f32⟩ : BufTy).Contents (Elt F) → (⟨S1x1x256, .f32⟩ : BufTy).Contents (Elt F)),
    reshape main_v91 main_v92 rfl shapeCasts_S1x1x256_S256,
    unary main_v92 main_v93 (broadcastInDim S1x256 ![1] bcast_S256_S1x256_1 : (⟨S256, .f32⟩ : BufTy).Contents (Elt F) → (⟨S1x256, .f32⟩ : BufTy).Contents (Elt F)),
    unary main_v93 main_v94 (broadcastInDim S65536x256 ![0, 1] bcast_S1x256_S65536x256_0_1 : (⟨S1x256, .f32⟩ : BufTy).Contents (Elt F) → (⟨S65536x256, .f32⟩ : BufTy).Contents (Elt F)),
    binary main_v90 main_v94 main_v95 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S65536x256, .f32⟩) main_call6_v0) (broadcastInDim S65536x256 ![] bcast_S_S65536x256),
    TRef.binary (TRef.of (T := ⟨S65536x256, .f32⟩) main_v95) (TRef.of (T := ⟨S65536x256, .f32⟩) main_call6_v0) (TRef.of (T := ⟨S65536x256, .f32⟩) main_v96) maximumf,
    unary main_arg9 main_v97 ((extractStridedSlice S1x256x1 ![1, 0, 0] · slices_S8x256x1_S1x256x1_1_0_0) : (⟨S8x256x1, .f32⟩ : BufTy).Contents (Elt F) → (⟨S1x256x1, .f32⟩ : BufTy).Contents (Elt F)),
    reshape main_v97 main_v98 rfl shapeCasts_S1x256x1_S256x1,
    binary main_v96 main_v98 main_v99 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v100 ((extractStridedSlice S1x1 ![1, 0] · slices_S8x1_S1x1_1_0) : (⟨S8x1, .f32⟩ : BufTy).Contents (Elt F) → (⟨S1x1, .f32⟩ : BufTy).Contents (Elt F)),
    reshape main_v100 main_v101 rfl shapeCasts_S1x1_S1,
    unary main_v101 main_v102 (broadcastInDim S1x1 ![1] bcast_S1_S1x1_1 : (⟨S1, .f32⟩ : BufTy).Contents (Elt F) → (⟨S1x1, .f32⟩ : BufTy).Contents (Elt F)),
    unary main_v102 main_v103 (broadcastInDim S65536x1 ![0, 1] bcast_S1x1_S65536x1_0_1 : (⟨S1x1, .f32⟩ : BufTy).Contents (Elt F) → (⟨S65536x1, .f32⟩ : BufTy).Contents (Elt F)),
    binary main_v99 main_v103 main_v104 (addf : (⟨S65536x1, .f32⟩ : BufTy).Contents (Elt F) → (⟨S65536x1, .f32⟩ : BufTy).Contents (Elt F) → (⟨S65536x1, .f32⟩ : BufTy).Contents (Elt F)),
    nullary main_c_10 (constantI S_ 32 1#32),
    unary main_c_10 main_v105 (broadcastInDim S65536 ![] bcast_S_S65536 : (⟨S_, .i32⟩ : BufTy).Contents (Elt F) → (⟨S65536, .i32⟩ : BufTy).Contents (Elt F)),
    binary main_arg1 main_v105 main_v106 (cmpi .eq : (⟨S65536, .i32⟩ : BufTy).Contents (Elt F) → (⟨S65536, .i32⟩ : BufTy).Contents (Elt F) → (⟨S65536, .i1⟩ : BufTy).Contents (Elt F)),
    unary main_v106 main_v107 (broadcastInDim S65536x1 ![0] bcast_S65536_S65536x1_0 : (⟨S65536, .i1⟩ : BufTy).Contents (Elt F) → (⟨S65536x1, .i1⟩ : BufTy).Contents (Elt F)),
    nullary main_cst_11 (constant S_ .f32 0x00000000#32),
    TRef.unary (TRef.of (T := ⟨S_, .f32⟩) main_cst_11) (TRef.of (T := ⟨S_, .f32⟩) main_call7_v0) id,
    TRef.unary (TRef.of (T := ⟨S_, .f32⟩) main_call7_v0) (TRef.of (T := ⟨S65536x1, .f32⟩) main_call7_v1) (broadcastInDim S65536x1 ![] bcast_S_S65536x1),
    TRef.ternary (TRef.of (T := ⟨S65536x1, .i1⟩) main_v107) (TRef.of (T := ⟨S65536x1, .f32⟩) main_v104) (TRef.of (T := ⟨S65536x1, .f32⟩) main_call7_v1) (TRef.of (T := ⟨S65536x1, .f32⟩) main_v108) select,
    binary main_v69 main_v108 main_v109 (addf : (⟨S65536x1, .f32⟩ : BufTy).Contents (Elt F) → (⟨S65536x1, .f32⟩ : BufTy).Contents (Elt F) → (⟨S65536x1, .f32⟩ : BufTy).Contents (Elt F)) ]

theorem expert1_sub : (expert1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert1_fresh : ∀ op ∈ (expert1 : List (HloOp τ sig (Elt F))), op.fresh = ∅ := by
  intro _ h; (repeat (cases h with | head => rfl | tail _ h => ?_)); exact nomatch h

/-- The stretch of expert 2: operations 141 to 190 of @main, in order. -/
abbrev expert2 : List (HloOp τ sig (Elt F)) :=
  [ unary main_arg5 main_v110 ((extractStridedSlice S1x67x256 ![2, 0, 0] · slices_S8x67x256_S1x67x256_2_0_0) : (⟨S8x67x256, .f32⟩ : BufTy).Contents (Elt F) → (⟨S1x67x256, .f32⟩ : BufTy).Contents (Elt F)),
    reshape main_v110 main_v111 rfl shapeCasts_S1x67x256_S67x256,
    binary main_v28 main_v111 main_v112 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v113 ((extractStridedSlice S1x256 ![2, 0] · slices_S8x256_S1x256_2_0) : (⟨S8x256, .f32⟩ : BufTy).Contents (Elt F) → (⟨S1x256, .f32⟩ : BufTy).Contents (Elt F)),
    reshape main_v113 main_v114 rfl shapeCasts_S1x256_S256,
    unary main_v114 main_v115 (broadcastInDim S1x256 ![1] bcast_S256_S1x256_1 : (⟨S256, .f32⟩ : BufTy).Contents (Elt F) → (⟨S1x256, .f32⟩ : BufTy).Contents (Elt F)),
    unary main_v115 main_v116 (broadcastInDim S65536x256 ![0, 1] bcast_S1x256_S65536x256_0_1 : (⟨S1x256, .f32⟩ : BufTy).Contents (Elt F) → (⟨S65536x256, .f32⟩ : BufTy).Contents (Elt F)),
    binary main_v112 main_v116 main_v117 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S65536x256, .f32⟩) main_call8_v0) (broadcastInDim S65536x256 ![] bcast_S_S65536x256),
    TRef.binary (TRef.of (T := ⟨S65536x256, .f32⟩) main_v117) (TRef.of (T := ⟨S65536x256, .f32⟩) main_call8_v0) (TRef.of (T := ⟨S65536x256, .f32⟩) main_v118) maximumf,
    unary main_arg7 main_v119 ((extractStridedSlice S1x1x256x256 ![0, 2, 0, 0] · slices_S2x8x256x256_S1x1x256x256_0_2_0_0) : (⟨S2x8x256x256, .f32⟩ : BufTy).Contents (Elt F) → (⟨S1x1x256x256, .f32⟩ : BufTy).Contents (Elt F)),
    reshape main_v119 main_v120 rfl shapeCasts_S1x1x256x256_S256x256,
    binary main_v118 main_v120 main_v121 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v122 ((extractStridedSlice S1x1x256 ![0, 2, 0] · slices_S2x8x256_S1x1x256_0_2_0) : (⟨S2x8x256, .f32⟩ : BufTy).Contents (Elt F) → (⟨S1x1x256, .f32⟩ : BufTy).Contents (Elt F)),
    reshape main_v122 main_v123 rfl shapeCasts_S1x1x256_S256,
    unary main_v123 main_v124 (broadcastInDim S1x256 ![1] bcast_S256_S1x256_1 : (⟨S256, .f32⟩ : BufTy).Contents (Elt F) → (⟨S1x256, .f32⟩ : BufTy).Contents (Elt F)),
    unary main_v124 main_v125 (broadcastInDim S65536x256 ![0, 1] bcast_S1x256_S65536x256_0_1 : (⟨S1x256, .f32⟩ : BufTy).Contents (Elt F) → (⟨S65536x256, .f32⟩ : BufTy).Contents (Elt F)),
    binary main_v121 main_v125 main_v126 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S65536x256, .f32⟩) main_call9_v0) (broadcastInDim S65536x256 ![] bcast_S_S65536x256),
    TRef.binary (TRef.of (T := ⟨S65536x256, .f32⟩) main_v126) (TRef.of (T := ⟨S65536x256, .f32⟩) main_call9_v0) (TRef.of (T := ⟨S65536x256, .f32⟩) main_v127) maximumf,
    unary main_arg7 main_v128 ((extractStridedSlice S1x1x256x256 ![1, 2, 0, 0] · slices_S2x8x256x256_S1x1x256x256_1_2_0_0) : (⟨S2x8x256x256, .f32⟩ : BufTy).Contents (Elt F) → (⟨S1x1x256x256, .f32⟩ : BufTy).Contents (Elt F)),
    reshape main_v128 main_v129 rfl shapeCasts_S1x1x256x256_S256x256,
    binary main_v127 main_v129 main_v130 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v131 ((extractStridedSlice S1x1x256 ![1, 2, 0] · slices_S2x8x256_S1x1x256_1_2_0) : (⟨S2x8x256, .f32⟩ : BufTy).Contents (Elt F) → (⟨S1x1x256, .f32⟩ : BufTy).Contents (Elt F)),
    reshape main_v131 main_v132 rfl shapeCasts_S1x1x256_S256,
    unary main_v132 main_v133 (broadcastInDim S1x256 ![1] bcast_S256_S1x256_1 : (⟨S256, .f32⟩ : BufTy).Contents (Elt F) → (⟨S1x256, .f32⟩ : BufTy).Contents (Elt F)),
    unary main_v133 main_v134 (broadcastInDim S65536x256 ![0, 1] bcast_S1x256_S65536x256_0_1 : (⟨S1x256, .f32⟩ : BufTy).Contents (Elt F) → (⟨S65536x256, .f32⟩ : BufTy).Contents (Elt F)),
    binary main_v130 main_v134 main_v135 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S65536x256, .f32⟩) main_call10_v0) (broadcastInDim S65536x256 ![] bcast_S_S65536x256),
    TRef.binary (TRef.of (T := ⟨S65536x256, .f32⟩) main_v135) (TRef.of (T := ⟨S65536x256, .f32⟩) main_call10_v0) (TRef.of (T := ⟨S65536x256, .f32⟩) main_v136) maximumf,
    unary main_arg9 main_v137 ((extractStridedSlice S1x256x1 ![2, 0, 0] · slices_S8x256x1_S1x256x1_2_0_0) : (⟨S8x256x1, .f32⟩ : BufTy).Contents (Elt F) → (⟨S1x256x1, .f32⟩ : BufTy).Contents (Elt F)),
    reshape main_v137 main_v138 rfl shapeCasts_S1x256x1_S256x1,
    binary main_v136 main_v138 main_v139 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v140 ((extractStridedSlice S1x1 ![2, 0] · slices_S8x1_S1x1_2_0) : (⟨S8x1, .f32⟩ : BufTy).Contents (Elt F) → (⟨S1x1, .f32⟩ : BufTy).Contents (Elt F)),
    reshape main_v140 main_v141 rfl shapeCasts_S1x1_S1,
    unary main_v141 main_v142 (broadcastInDim S1x1 ![1] bcast_S1_S1x1_1 : (⟨S1, .f32⟩ : BufTy).Contents (Elt F) → (⟨S1x1, .f32⟩ : BufTy).Contents (Elt F)),
    unary main_v142 main_v143 (broadcastInDim S65536x1 ![0, 1] bcast_S1x1_S65536x1_0_1 : (⟨S1x1, .f32⟩ : BufTy).Contents (Elt F) → (⟨S65536x1, .f32⟩ : BufTy).Contents (Elt F)),
    binary main_v139 main_v143 main_v144 (addf : (⟨S65536x1, .f32⟩ : BufTy).Contents (Elt F) → (⟨S65536x1, .f32⟩ : BufTy).Contents (Elt F) → (⟨S65536x1, .f32⟩ : BufTy).Contents (Elt F)),
    nullary main_c_12 (constantI S_ 32 2#32),
    unary main_c_12 main_v145 (broadcastInDim S65536 ![] bcast_S_S65536 : (⟨S_, .i32⟩ : BufTy).Contents (Elt F) → (⟨S65536, .i32⟩ : BufTy).Contents (Elt F)),
    binary main_arg1 main_v145 main_v146 (cmpi .eq : (⟨S65536, .i32⟩ : BufTy).Contents (Elt F) → (⟨S65536, .i32⟩ : BufTy).Contents (Elt F) → (⟨S65536, .i1⟩ : BufTy).Contents (Elt F)),
    unary main_v146 main_v147 (broadcastInDim S65536x1 ![0] bcast_S65536_S65536x1_0 : (⟨S65536, .i1⟩ : BufTy).Contents (Elt F) → (⟨S65536x1, .i1⟩ : BufTy).Contents (Elt F)),
    nullary main_cst_13 (constant S_ .f32 0x00000000#32),
    TRef.unary (TRef.of (T := ⟨S_, .f32⟩) main_cst_13) (TRef.of (T := ⟨S_, .f32⟩) main_call11_v0) id,
    TRef.unary (TRef.of (T := ⟨S_, .f32⟩) main_call11_v0) (TRef.of (T := ⟨S65536x1, .f32⟩) main_call11_v1) (broadcastInDim S65536x1 ![] bcast_S_S65536x1),
    TRef.ternary (TRef.of (T := ⟨S65536x1, .i1⟩) main_v147) (TRef.of (T := ⟨S65536x1, .f32⟩) main_v144) (TRef.of (T := ⟨S65536x1, .f32⟩) main_call11_v1) (TRef.of (T := ⟨S65536x1, .f32⟩) main_v148) select,
    binary main_v109 main_v148 main_v149 (addf : (⟨S65536x1, .f32⟩ : BufTy).Contents (Elt F) → (⟨S65536x1, .f32⟩ : BufTy).Contents (Elt F) → (⟨S65536x1, .f32⟩ : BufTy).Contents (Elt F)) ]

theorem expert2_sub : (expert2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert2_fresh : ∀ op ∈ (expert2 : List (HloOp τ sig (Elt F))), op.fresh = ∅ := by
  intro _ h; (repeat (cases h with | head => rfl | tail _ h => ?_)); exact nomatch h

/-- The stretch of expert 3: operations 191 to 240 of @main, in order. -/
abbrev expert3 : List (HloOp τ sig (Elt F)) :=
  [ unary main_arg5 main_v150 ((extractStridedSlice S1x67x256 ![3, 0, 0] · slices_S8x67x256_S1x67x256_3_0_0) : (⟨S8x67x256, .f32⟩ : BufTy).Contents (Elt F) → (⟨S1x67x256, .f32⟩ : BufTy).Contents (Elt F)),
    reshape main_v150 main_v151 rfl shapeCasts_S1x67x256_S67x256,
    binary main_v28 main_v151 main_v152 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v153 ((extractStridedSlice S1x256 ![3, 0] · slices_S8x256_S1x256_3_0) : (⟨S8x256, .f32⟩ : BufTy).Contents (Elt F) → (⟨S1x256, .f32⟩ : BufTy).Contents (Elt F)),
    reshape main_v153 main_v154 rfl shapeCasts_S1x256_S256,
    unary main_v154 main_v155 (broadcastInDim S1x256 ![1] bcast_S256_S1x256_1 : (⟨S256, .f32⟩ : BufTy).Contents (Elt F) → (⟨S1x256, .f32⟩ : BufTy).Contents (Elt F)),
    unary main_v155 main_v156 (broadcastInDim S65536x256 ![0, 1] bcast_S1x256_S65536x256_0_1 : (⟨S1x256, .f32⟩ : BufTy).Contents (Elt F) → (⟨S65536x256, .f32⟩ : BufTy).Contents (Elt F)),
    binary main_v152 main_v156 main_v157 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S65536x256, .f32⟩) main_call12_v0) (broadcastInDim S65536x256 ![] bcast_S_S65536x256),
    TRef.binary (TRef.of (T := ⟨S65536x256, .f32⟩) main_v157) (TRef.of (T := ⟨S65536x256, .f32⟩) main_call12_v0) (TRef.of (T := ⟨S65536x256, .f32⟩) main_v158) maximumf,
    unary main_arg7 main_v159 ((extractStridedSlice S1x1x256x256 ![0, 3, 0, 0] · slices_S2x8x256x256_S1x1x256x256_0_3_0_0) : (⟨S2x8x256x256, .f32⟩ : BufTy).Contents (Elt F) → (⟨S1x1x256x256, .f32⟩ : BufTy).Contents (Elt F)),
    reshape main_v159 main_v160 rfl shapeCasts_S1x1x256x256_S256x256,
    binary main_v158 main_v160 main_v161 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v162 ((extractStridedSlice S1x1x256 ![0, 3, 0] · slices_S2x8x256_S1x1x256_0_3_0) : (⟨S2x8x256, .f32⟩ : BufTy).Contents (Elt F) → (⟨S1x1x256, .f32⟩ : BufTy).Contents (Elt F)),
    reshape main_v162 main_v163 rfl shapeCasts_S1x1x256_S256,
    unary main_v163 main_v164 (broadcastInDim S1x256 ![1] bcast_S256_S1x256_1 : (⟨S256, .f32⟩ : BufTy).Contents (Elt F) → (⟨S1x256, .f32⟩ : BufTy).Contents (Elt F)),
    unary main_v164 main_v165 (broadcastInDim S65536x256 ![0, 1] bcast_S1x256_S65536x256_0_1 : (⟨S1x256, .f32⟩ : BufTy).Contents (Elt F) → (⟨S65536x256, .f32⟩ : BufTy).Contents (Elt F)),
    binary main_v161 main_v165 main_v166 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S65536x256, .f32⟩) main_call13_v0) (broadcastInDim S65536x256 ![] bcast_S_S65536x256),
    TRef.binary (TRef.of (T := ⟨S65536x256, .f32⟩) main_v166) (TRef.of (T := ⟨S65536x256, .f32⟩) main_call13_v0) (TRef.of (T := ⟨S65536x256, .f32⟩) main_v167) maximumf,
    unary main_arg7 main_v168 ((extractStridedSlice S1x1x256x256 ![1, 3, 0, 0] · slices_S2x8x256x256_S1x1x256x256_1_3_0_0) : (⟨S2x8x256x256, .f32⟩ : BufTy).Contents (Elt F) → (⟨S1x1x256x256, .f32⟩ : BufTy).Contents (Elt F)),
    reshape main_v168 main_v169 rfl shapeCasts_S1x1x256x256_S256x256,
    binary main_v167 main_v169 main_v170 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v171 ((extractStridedSlice S1x1x256 ![1, 3, 0] · slices_S2x8x256_S1x1x256_1_3_0) : (⟨S2x8x256, .f32⟩ : BufTy).Contents (Elt F) → (⟨S1x1x256, .f32⟩ : BufTy).Contents (Elt F)),
    reshape main_v171 main_v172 rfl shapeCasts_S1x1x256_S256,
    unary main_v172 main_v173 (broadcastInDim S1x256 ![1] bcast_S256_S1x256_1 : (⟨S256, .f32⟩ : BufTy).Contents (Elt F) → (⟨S1x256, .f32⟩ : BufTy).Contents (Elt F)),
    unary main_v173 main_v174 (broadcastInDim S65536x256 ![0, 1] bcast_S1x256_S65536x256_0_1 : (⟨S1x256, .f32⟩ : BufTy).Contents (Elt F) → (⟨S65536x256, .f32⟩ : BufTy).Contents (Elt F)),
    binary main_v170 main_v174 main_v175 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S65536x256, .f32⟩) main_call14_v0) (broadcastInDim S65536x256 ![] bcast_S_S65536x256),
    TRef.binary (TRef.of (T := ⟨S65536x256, .f32⟩) main_v175) (TRef.of (T := ⟨S65536x256, .f32⟩) main_call14_v0) (TRef.of (T := ⟨S65536x256, .f32⟩) main_v176) maximumf,
    unary main_arg9 main_v177 ((extractStridedSlice S1x256x1 ![3, 0, 0] · slices_S8x256x1_S1x256x1_3_0_0) : (⟨S8x256x1, .f32⟩ : BufTy).Contents (Elt F) → (⟨S1x256x1, .f32⟩ : BufTy).Contents (Elt F)),
    reshape main_v177 main_v178 rfl shapeCasts_S1x256x1_S256x1,
    binary main_v176 main_v178 main_v179 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v180 ((extractStridedSlice S1x1 ![3, 0] · slices_S8x1_S1x1_3_0) : (⟨S8x1, .f32⟩ : BufTy).Contents (Elt F) → (⟨S1x1, .f32⟩ : BufTy).Contents (Elt F)),
    reshape main_v180 main_v181 rfl shapeCasts_S1x1_S1,
    unary main_v181 main_v182 (broadcastInDim S1x1 ![1] bcast_S1_S1x1_1 : (⟨S1, .f32⟩ : BufTy).Contents (Elt F) → (⟨S1x1, .f32⟩ : BufTy).Contents (Elt F)),
    unary main_v182 main_v183 (broadcastInDim S65536x1 ![0, 1] bcast_S1x1_S65536x1_0_1 : (⟨S1x1, .f32⟩ : BufTy).Contents (Elt F) → (⟨S65536x1, .f32⟩ : BufTy).Contents (Elt F)),
    binary main_v179 main_v183 main_v184 (addf : (⟨S65536x1, .f32⟩ : BufTy).Contents (Elt F) → (⟨S65536x1, .f32⟩ : BufTy).Contents (Elt F) → (⟨S65536x1, .f32⟩ : BufTy).Contents (Elt F)),
    nullary main_c_14 (constantI S_ 32 3#32),
    unary main_c_14 main_v185 (broadcastInDim S65536 ![] bcast_S_S65536 : (⟨S_, .i32⟩ : BufTy).Contents (Elt F) → (⟨S65536, .i32⟩ : BufTy).Contents (Elt F)),
    binary main_arg1 main_v185 main_v186 (cmpi .eq : (⟨S65536, .i32⟩ : BufTy).Contents (Elt F) → (⟨S65536, .i32⟩ : BufTy).Contents (Elt F) → (⟨S65536, .i1⟩ : BufTy).Contents (Elt F)),
    unary main_v186 main_v187 (broadcastInDim S65536x1 ![0] bcast_S65536_S65536x1_0 : (⟨S65536, .i1⟩ : BufTy).Contents (Elt F) → (⟨S65536x1, .i1⟩ : BufTy).Contents (Elt F)),
    nullary main_cst_15 (constant S_ .f32 0x00000000#32),
    TRef.unary (TRef.of (T := ⟨S_, .f32⟩) main_cst_15) (TRef.of (T := ⟨S_, .f32⟩) main_call15_v0) id,
    TRef.unary (TRef.of (T := ⟨S_, .f32⟩) main_call15_v0) (TRef.of (T := ⟨S65536x1, .f32⟩) main_call15_v1) (broadcastInDim S65536x1 ![] bcast_S_S65536x1),
    TRef.ternary (TRef.of (T := ⟨S65536x1, .i1⟩) main_v187) (TRef.of (T := ⟨S65536x1, .f32⟩) main_v184) (TRef.of (T := ⟨S65536x1, .f32⟩) main_call15_v1) (TRef.of (T := ⟨S65536x1, .f32⟩) main_v188) select,
    binary main_v149 main_v188 main_v189 (addf : (⟨S65536x1, .f32⟩ : BufTy).Contents (Elt F) → (⟨S65536x1, .f32⟩ : BufTy).Contents (Elt F) → (⟨S65536x1, .f32⟩ : BufTy).Contents (Elt F)) ]

theorem expert3_sub : (expert3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert3_fresh : ∀ op ∈ (expert3 : List (HloOp τ sig (Elt F))), op.fresh = ∅ := by
  intro _ h; (repeat (cases h with | head => rfl | tail _ h => ?_)); exact nomatch h

/-- The stretch of expert 4: operations 241 to 290 of @main, in order. -/
abbrev expert4 : List (HloOp τ sig (Elt F)) :=
  [ unary main_arg5 main_v190 ((extractStridedSlice S1x67x256 ![4, 0, 0] · slices_S8x67x256_S1x67x256_4_0_0) : (⟨S8x67x256, .f32⟩ : BufTy).Contents (Elt F) → (⟨S1x67x256, .f32⟩ : BufTy).Contents (Elt F)),
    reshape main_v190 main_v191 rfl shapeCasts_S1x67x256_S67x256,
    binary main_v28 main_v191 main_v192 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v193 ((extractStridedSlice S1x256 ![4, 0] · slices_S8x256_S1x256_4_0) : (⟨S8x256, .f32⟩ : BufTy).Contents (Elt F) → (⟨S1x256, .f32⟩ : BufTy).Contents (Elt F)),
    reshape main_v193 main_v194 rfl shapeCasts_S1x256_S256,
    unary main_v194 main_v195 (broadcastInDim S1x256 ![1] bcast_S256_S1x256_1 : (⟨S256, .f32⟩ : BufTy).Contents (Elt F) → (⟨S1x256, .f32⟩ : BufTy).Contents (Elt F)),
    unary main_v195 main_v196 (broadcastInDim S65536x256 ![0, 1] bcast_S1x256_S65536x256_0_1 : (⟨S1x256, .f32⟩ : BufTy).Contents (Elt F) → (⟨S65536x256, .f32⟩ : BufTy).Contents (Elt F)),
    binary main_v192 main_v196 main_v197 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S65536x256, .f32⟩) main_call16_v0) (broadcastInDim S65536x256 ![] bcast_S_S65536x256),
    TRef.binary (TRef.of (T := ⟨S65536x256, .f32⟩) main_v197) (TRef.of (T := ⟨S65536x256, .f32⟩) main_call16_v0) (TRef.of (T := ⟨S65536x256, .f32⟩) main_v198) maximumf,
    unary main_arg7 main_v199 ((extractStridedSlice S1x1x256x256 ![0, 4, 0, 0] · slices_S2x8x256x256_S1x1x256x256_0_4_0_0) : (⟨S2x8x256x256, .f32⟩ : BufTy).Contents (Elt F) → (⟨S1x1x256x256, .f32⟩ : BufTy).Contents (Elt F)),
    reshape main_v199 main_v200 rfl shapeCasts_S1x1x256x256_S256x256,
    binary main_v198 main_v200 main_v201 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v202 ((extractStridedSlice S1x1x256 ![0, 4, 0] · slices_S2x8x256_S1x1x256_0_4_0) : (⟨S2x8x256, .f32⟩ : BufTy).Contents (Elt F) → (⟨S1x1x256, .f32⟩ : BufTy).Contents (Elt F)),
    reshape main_v202 main_v203 rfl shapeCasts_S1x1x256_S256,
    unary main_v203 main_v204 (broadcastInDim S1x256 ![1] bcast_S256_S1x256_1 : (⟨S256, .f32⟩ : BufTy).Contents (Elt F) → (⟨S1x256, .f32⟩ : BufTy).Contents (Elt F)),
    unary main_v204 main_v205 (broadcastInDim S65536x256 ![0, 1] bcast_S1x256_S65536x256_0_1 : (⟨S1x256, .f32⟩ : BufTy).Contents (Elt F) → (⟨S65536x256, .f32⟩ : BufTy).Contents (Elt F)),
    binary main_v201 main_v205 main_v206 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S65536x256, .f32⟩) main_call17_v0) (broadcastInDim S65536x256 ![] bcast_S_S65536x256),
    TRef.binary (TRef.of (T := ⟨S65536x256, .f32⟩) main_v206) (TRef.of (T := ⟨S65536x256, .f32⟩) main_call17_v0) (TRef.of (T := ⟨S65536x256, .f32⟩) main_v207) maximumf,
    unary main_arg7 main_v208 ((extractStridedSlice S1x1x256x256 ![1, 4, 0, 0] · slices_S2x8x256x256_S1x1x256x256_1_4_0_0) : (⟨S2x8x256x256, .f32⟩ : BufTy).Contents (Elt F) → (⟨S1x1x256x256, .f32⟩ : BufTy).Contents (Elt F)),
    reshape main_v208 main_v209 rfl shapeCasts_S1x1x256x256_S256x256,
    binary main_v207 main_v209 main_v210 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v211 ((extractStridedSlice S1x1x256 ![1, 4, 0] · slices_S2x8x256_S1x1x256_1_4_0) : (⟨S2x8x256, .f32⟩ : BufTy).Contents (Elt F) → (⟨S1x1x256, .f32⟩ : BufTy).Contents (Elt F)),
    reshape main_v211 main_v212 rfl shapeCasts_S1x1x256_S256,
    unary main_v212 main_v213 (broadcastInDim S1x256 ![1] bcast_S256_S1x256_1 : (⟨S256, .f32⟩ : BufTy).Contents (Elt F) → (⟨S1x256, .f32⟩ : BufTy).Contents (Elt F)),
    unary main_v213 main_v214 (broadcastInDim S65536x256 ![0, 1] bcast_S1x256_S65536x256_0_1 : (⟨S1x256, .f32⟩ : BufTy).Contents (Elt F) → (⟨S65536x256, .f32⟩ : BufTy).Contents (Elt F)),
    binary main_v210 main_v214 main_v215 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S65536x256, .f32⟩) main_call18_v0) (broadcastInDim S65536x256 ![] bcast_S_S65536x256),
    TRef.binary (TRef.of (T := ⟨S65536x256, .f32⟩) main_v215) (TRef.of (T := ⟨S65536x256, .f32⟩) main_call18_v0) (TRef.of (T := ⟨S65536x256, .f32⟩) main_v216) maximumf,
    unary main_arg9 main_v217 ((extractStridedSlice S1x256x1 ![4, 0, 0] · slices_S8x256x1_S1x256x1_4_0_0) : (⟨S8x256x1, .f32⟩ : BufTy).Contents (Elt F) → (⟨S1x256x1, .f32⟩ : BufTy).Contents (Elt F)),
    reshape main_v217 main_v218 rfl shapeCasts_S1x256x1_S256x1,
    binary main_v216 main_v218 main_v219 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v220 ((extractStridedSlice S1x1 ![4, 0] · slices_S8x1_S1x1_4_0) : (⟨S8x1, .f32⟩ : BufTy).Contents (Elt F) → (⟨S1x1, .f32⟩ : BufTy).Contents (Elt F)),
    reshape main_v220 main_v221 rfl shapeCasts_S1x1_S1,
    unary main_v221 main_v222 (broadcastInDim S1x1 ![1] bcast_S1_S1x1_1 : (⟨S1, .f32⟩ : BufTy).Contents (Elt F) → (⟨S1x1, .f32⟩ : BufTy).Contents (Elt F)),
    unary main_v222 main_v223 (broadcastInDim S65536x1 ![0, 1] bcast_S1x1_S65536x1_0_1 : (⟨S1x1, .f32⟩ : BufTy).Contents (Elt F) → (⟨S65536x1, .f32⟩ : BufTy).Contents (Elt F)),
    binary main_v219 main_v223 main_v224 (addf : (⟨S65536x1, .f32⟩ : BufTy).Contents (Elt F) → (⟨S65536x1, .f32⟩ : BufTy).Contents (Elt F) → (⟨S65536x1, .f32⟩ : BufTy).Contents (Elt F)),
    nullary main_c_16 (constantI S_ 32 4#32),
    unary main_c_16 main_v225 (broadcastInDim S65536 ![] bcast_S_S65536 : (⟨S_, .i32⟩ : BufTy).Contents (Elt F) → (⟨S65536, .i32⟩ : BufTy).Contents (Elt F)),
    binary main_arg1 main_v225 main_v226 (cmpi .eq : (⟨S65536, .i32⟩ : BufTy).Contents (Elt F) → (⟨S65536, .i32⟩ : BufTy).Contents (Elt F) → (⟨S65536, .i1⟩ : BufTy).Contents (Elt F)),
    unary main_v226 main_v227 (broadcastInDim S65536x1 ![0] bcast_S65536_S65536x1_0 : (⟨S65536, .i1⟩ : BufTy).Contents (Elt F) → (⟨S65536x1, .i1⟩ : BufTy).Contents (Elt F)),
    nullary main_cst_17 (constant S_ .f32 0x00000000#32),
    TRef.unary (TRef.of (T := ⟨S_, .f32⟩) main_cst_17) (TRef.of (T := ⟨S_, .f32⟩) main_call19_v0) id,
    TRef.unary (TRef.of (T := ⟨S_, .f32⟩) main_call19_v0) (TRef.of (T := ⟨S65536x1, .f32⟩) main_call19_v1) (broadcastInDim S65536x1 ![] bcast_S_S65536x1),
    TRef.ternary (TRef.of (T := ⟨S65536x1, .i1⟩) main_v227) (TRef.of (T := ⟨S65536x1, .f32⟩) main_v224) (TRef.of (T := ⟨S65536x1, .f32⟩) main_call19_v1) (TRef.of (T := ⟨S65536x1, .f32⟩) main_v228) select,
    binary main_v189 main_v228 main_v229 (addf : (⟨S65536x1, .f32⟩ : BufTy).Contents (Elt F) → (⟨S65536x1, .f32⟩ : BufTy).Contents (Elt F) → (⟨S65536x1, .f32⟩ : BufTy).Contents (Elt F)) ]

theorem expert4_sub : (expert4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert4_fresh : ∀ op ∈ (expert4 : List (HloOp τ sig (Elt F))), op.fresh = ∅ := by
  intro _ h; (repeat (cases h with | head => rfl | tail _ h => ?_)); exact nomatch h

/-- The stretch of expert 5: operations 291 to 340 of @main, in order. -/
abbrev expert5 : List (HloOp τ sig (Elt F)) :=
  [ unary main_arg5 main_v230 ((extractStridedSlice S1x67x256 ![5, 0, 0] · slices_S8x67x256_S1x67x256_5_0_0) : (⟨S8x67x256, .f32⟩ : BufTy).Contents (Elt F) → (⟨S1x67x256, .f32⟩ : BufTy).Contents (Elt F)),
    reshape main_v230 main_v231 rfl shapeCasts_S1x67x256_S67x256,
    binary main_v28 main_v231 main_v232 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v233 ((extractStridedSlice S1x256 ![5, 0] · slices_S8x256_S1x256_5_0) : (⟨S8x256, .f32⟩ : BufTy).Contents (Elt F) → (⟨S1x256, .f32⟩ : BufTy).Contents (Elt F)),
    reshape main_v233 main_v234 rfl shapeCasts_S1x256_S256,
    unary main_v234 main_v235 (broadcastInDim S1x256 ![1] bcast_S256_S1x256_1 : (⟨S256, .f32⟩ : BufTy).Contents (Elt F) → (⟨S1x256, .f32⟩ : BufTy).Contents (Elt F)),
    unary main_v235 main_v236 (broadcastInDim S65536x256 ![0, 1] bcast_S1x256_S65536x256_0_1 : (⟨S1x256, .f32⟩ : BufTy).Contents (Elt F) → (⟨S65536x256, .f32⟩ : BufTy).Contents (Elt F)),
    binary main_v232 main_v236 main_v237 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S65536x256, .f32⟩) main_call20_v0) (broadcastInDim S65536x256 ![] bcast_S_S65536x256),
    TRef.binary (TRef.of (T := ⟨S65536x256, .f32⟩) main_v237) (TRef.of (T := ⟨S65536x256, .f32⟩) main_call20_v0) (TRef.of (T := ⟨S65536x256, .f32⟩) main_v238) maximumf,
    unary main_arg7 main_v239 ((extractStridedSlice S1x1x256x256 ![0, 5, 0, 0] · slices_S2x8x256x256_S1x1x256x256_0_5_0_0) : (⟨S2x8x256x256, .f32⟩ : BufTy).Contents (Elt F) → (⟨S1x1x256x256, .f32⟩ : BufTy).Contents (Elt F)),
    reshape main_v239 main_v240 rfl shapeCasts_S1x1x256x256_S256x256,
    binary main_v238 main_v240 main_v241 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v242 ((extractStridedSlice S1x1x256 ![0, 5, 0] · slices_S2x8x256_S1x1x256_0_5_0) : (⟨S2x8x256, .f32⟩ : BufTy).Contents (Elt F) → (⟨S1x1x256, .f32⟩ : BufTy).Contents (Elt F)),
    reshape main_v242 main_v243 rfl shapeCasts_S1x1x256_S256,
    unary main_v243 main_v244 (broadcastInDim S1x256 ![1] bcast_S256_S1x256_1 : (⟨S256, .f32⟩ : BufTy).Contents (Elt F) → (⟨S1x256, .f32⟩ : BufTy).Contents (Elt F)),
    unary main_v244 main_v245 (broadcastInDim S65536x256 ![0, 1] bcast_S1x256_S65536x256_0_1 : (⟨S1x256, .f32⟩ : BufTy).Contents (Elt F) → (⟨S65536x256, .f32⟩ : BufTy).Contents (Elt F)),
    binary main_v241 main_v245 main_v246 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S65536x256, .f32⟩) main_call21_v0) (broadcastInDim S65536x256 ![] bcast_S_S65536x256),
    TRef.binary (TRef.of (T := ⟨S65536x256, .f32⟩) main_v246) (TRef.of (T := ⟨S65536x256, .f32⟩) main_call21_v0) (TRef.of (T := ⟨S65536x256, .f32⟩) main_v247) maximumf,
    unary main_arg7 main_v248 ((extractStridedSlice S1x1x256x256 ![1, 5, 0, 0] · slices_S2x8x256x256_S1x1x256x256_1_5_0_0) : (⟨S2x8x256x256, .f32⟩ : BufTy).Contents (Elt F) → (⟨S1x1x256x256, .f32⟩ : BufTy).Contents (Elt F)),
    reshape main_v248 main_v249 rfl shapeCasts_S1x1x256x256_S256x256,
    binary main_v247 main_v249 main_v250 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v251 ((extractStridedSlice S1x1x256 ![1, 5, 0] · slices_S2x8x256_S1x1x256_1_5_0) : (⟨S2x8x256, .f32⟩ : BufTy).Contents (Elt F) → (⟨S1x1x256, .f32⟩ : BufTy).Contents (Elt F)),
    reshape main_v251 main_v252 rfl shapeCasts_S1x1x256_S256,
    unary main_v252 main_v253 (broadcastInDim S1x256 ![1] bcast_S256_S1x256_1 : (⟨S256, .f32⟩ : BufTy).Contents (Elt F) → (⟨S1x256, .f32⟩ : BufTy).Contents (Elt F)),
    unary main_v253 main_v254 (broadcastInDim S65536x256 ![0, 1] bcast_S1x256_S65536x256_0_1 : (⟨S1x256, .f32⟩ : BufTy).Contents (Elt F) → (⟨S65536x256, .f32⟩ : BufTy).Contents (Elt F)),
    binary main_v250 main_v254 main_v255 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call22_cst) (constant S_ .f32 0x00000000#32),
    TRef.unary (TRef.of (T := ⟨S_, .f32⟩) main_call22_cst) (TRef.of (T := ⟨S65536x256, .f32⟩) main_call22_v0) (broadcastInDim S65536x256 ![] bcast_S_S65536x256),
    TRef.binary (TRef.of (T := ⟨S65536x256, .f32⟩) main_v255) (TRef.of (T := ⟨S65536x256, .f32⟩) main_call22_v0) (TRef.of (T := ⟨S65536x256, .f32⟩) main_v256) maximumf,
    unary main_arg9 main_v257 ((extractStridedSlice S1x256x1 ![5, 0, 0] · slices_S8x256x1_S1x256x1_5_0_0) : (⟨S8x256x1, .f32⟩ : BufTy).Contents (Elt F) → (⟨S1x256x1, .f32⟩ : BufTy).Contents (Elt F)),
    reshape main_v257 main_v258 rfl shapeCasts_S1x256x1_S256x1,
    binary main_v256 main_v258 main_v259 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v260 ((extractStridedSlice S1x1 ![5, 0] · slices_S8x1_S1x1_5_0) : (⟨S8x1, .f32⟩ : BufTy).Contents (Elt F) → (⟨S1x1, .f32⟩ : BufTy).Contents (Elt F)),
    reshape main_v260 main_v261 rfl shapeCasts_S1x1_S1,
    unary main_v261 main_v262 (broadcastInDim S1x1 ![1] bcast_S1_S1x1_1 : (⟨S1, .f32⟩ : BufTy).Contents (Elt F) → (⟨S1x1, .f32⟩ : BufTy).Contents (Elt F)),
    unary main_v262 main_v263 (broadcastInDim S65536x1 ![0, 1] bcast_S1x1_S65536x1_0_1 : (⟨S1x1, .f32⟩ : BufTy).Contents (Elt F) → (⟨S65536x1, .f32⟩ : BufTy).Contents (Elt F)),
    binary main_v259 main_v263 main_v264 (addf : (⟨S65536x1, .f32⟩ : BufTy).Contents (Elt F) → (⟨S65536x1, .f32⟩ : BufTy).Contents (Elt F) → (⟨S65536x1, .f32⟩ : BufTy).Contents (Elt F)),
    nullary main_c_18 (constantI S_ 32 5#32),
    unary main_c_18 main_v265 (broadcastInDim S65536 ![] bcast_S_S65536 : (⟨S_, .i32⟩ : BufTy).Contents (Elt F) → (⟨S65536, .i32⟩ : BufTy).Contents (Elt F)),
    binary main_arg1 main_v265 main_v266 (cmpi .eq : (⟨S65536, .i32⟩ : BufTy).Contents (Elt F) → (⟨S65536, .i32⟩ : BufTy).Contents (Elt F) → (⟨S65536, .i1⟩ : BufTy).Contents (Elt F)),
    unary main_v266 main_v267 (broadcastInDim S65536x1 ![0] bcast_S65536_S65536x1_0 : (⟨S65536, .i1⟩ : BufTy).Contents (Elt F) → (⟨S65536x1, .i1⟩ : BufTy).Contents (Elt F)),
    nullary main_cst_19 (constant S_ .f32 0x00000000#32),
    TRef.unary (TRef.of (T := ⟨S_, .f32⟩) main_cst_19) (TRef.of (T := ⟨S_, .f32⟩) main_call23_v0) id,
    TRef.unary (TRef.of (T := ⟨S_, .f32⟩) main_call23_v0) (TRef.of (T := ⟨S65536x1, .f32⟩) main_call23_v1) (broadcastInDim S65536x1 ![] bcast_S_S65536x1),
    TRef.ternary (TRef.of (T := ⟨S65536x1, .i1⟩) main_v267) (TRef.of (T := ⟨S65536x1, .f32⟩) main_v264) (TRef.of (T := ⟨S65536x1, .f32⟩) main_call23_v1) (TRef.of (T := ⟨S65536x1, .f32⟩) main_v268) select,
    binary main_v229 main_v268 main_v269 (addf : (⟨S65536x1, .f32⟩ : BufTy).Contents (Elt F) → (⟨S65536x1, .f32⟩ : BufTy).Contents (Elt F) → (⟨S65536x1, .f32⟩ : BufTy).Contents (Elt F)) ]

theorem expert5_sub : (expert5 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert5_fresh : ∀ op ∈ (expert5 : List (HloOp τ sig (Elt F))), op.fresh = ∅ := by
  intro _ h; (repeat (cases h with | head => rfl | tail _ h => ?_)); exact nomatch h

/-- The stretch of expert 6: operations 341 to 390 of @main, in order. -/
abbrev expert6 : List (HloOp τ sig (Elt F)) :=
  [ unary main_arg5 main_v270 ((extractStridedSlice S1x67x256 ![6, 0, 0] · slices_S8x67x256_S1x67x256_6_0_0) : (⟨S8x67x256, .f32⟩ : BufTy).Contents (Elt F) → (⟨S1x67x256, .f32⟩ : BufTy).Contents (Elt F)),
    reshape main_v270 main_v271 rfl shapeCasts_S1x67x256_S67x256,
    binary main_v28 main_v271 main_v272 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v273 ((extractStridedSlice S1x256 ![6, 0] · slices_S8x256_S1x256_6_0) : (⟨S8x256, .f32⟩ : BufTy).Contents (Elt F) → (⟨S1x256, .f32⟩ : BufTy).Contents (Elt F)),
    reshape main_v273 main_v274 rfl shapeCasts_S1x256_S256,
    unary main_v274 main_v275 (broadcastInDim S1x256 ![1] bcast_S256_S1x256_1 : (⟨S256, .f32⟩ : BufTy).Contents (Elt F) → (⟨S1x256, .f32⟩ : BufTy).Contents (Elt F)),
    unary main_v275 main_v276 (broadcastInDim S65536x256 ![0, 1] bcast_S1x256_S65536x256_0_1 : (⟨S1x256, .f32⟩ : BufTy).Contents (Elt F) → (⟨S65536x256, .f32⟩ : BufTy).Contents (Elt F)),
    binary main_v272 main_v276 main_v277 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call24_cst) (constant S_ .f32 0x00000000#32),
    TRef.unary (TRef.of (T := ⟨S_, .f32⟩) main_call24_cst) (TRef.of (T := ⟨S65536x256, .f32⟩) main_call24_v0) (broadcastInDim S65536x256 ![] bcast_S_S65536x256),
    TRef.binary (TRef.of (T := ⟨S65536x256, .f32⟩) main_v277) (TRef.of (T := ⟨S65536x256, .f32⟩) main_call24_v0) (TRef.of (T := ⟨S65536x256, .f32⟩) main_v278) maximumf,
    unary main_arg7 main_v279 ((extractStridedSlice S1x1x256x256 ![0, 6, 0, 0] · slices_S2x8x256x256_S1x1x256x256_0_6_0_0) : (⟨S2x8x256x256, .f32⟩ : BufTy).Contents (Elt F) → (⟨S1x1x256x256, .f32⟩ : BufTy).Contents (Elt F)),
    reshape main_v279 main_v280 rfl shapeCasts_S1x1x256x256_S256x256,
    binary main_v278 main_v280 main_v281 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v282 ((extractStridedSlice S1x1x256 ![0, 6, 0] · slices_S2x8x256_S1x1x256_0_6_0) : (⟨S2x8x256, .f32⟩ : BufTy).Contents (Elt F) → (⟨S1x1x256, .f32⟩ : BufTy).Contents (Elt F)),
    reshape main_v282 main_v283 rfl shapeCasts_S1x1x256_S256,
    unary main_v283 main_v284 (broadcastInDim S1x256 ![1] bcast_S256_S1x256_1 : (⟨S256, .f32⟩ : BufTy).Contents (Elt F) → (⟨S1x256, .f32⟩ : BufTy).Contents (Elt F)),
    unary main_v284 main_v285 (broadcastInDim S65536x256 ![0, 1] bcast_S1x256_S65536x256_0_1 : (⟨S1x256, .f32⟩ : BufTy).Contents (Elt F) → (⟨S65536x256, .f32⟩ : BufTy).Contents (Elt F)),
    binary main_v281 main_v285 main_v286 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S65536x256, .f32⟩) main_call25_v0) (broadcastInDim S65536x256 ![] bcast_S_S65536x256),
    TRef.binary (TRef.of (T := ⟨S65536x256, .f32⟩) main_v286) (TRef.of (T := ⟨S65536x256, .f32⟩) main_call25_v0) (TRef.of (T := ⟨S65536x256, .f32⟩) main_v287) maximumf,
    unary main_arg7 main_v288 ((extractStridedSlice S1x1x256x256 ![1, 6, 0, 0] · slices_S2x8x256x256_S1x1x256x256_1_6_0_0) : (⟨S2x8x256x256, .f32⟩ : BufTy).Contents (Elt F) → (⟨S1x1x256x256, .f32⟩ : BufTy).Contents (Elt F)),
    reshape main_v288 main_v289 rfl shapeCasts_S1x1x256x256_S256x256,
    binary main_v287 main_v289 main_v290 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v291 ((extractStridedSlice S1x1x256 ![1, 6, 0] · slices_S2x8x256_S1x1x256_1_6_0) : (⟨S2x8x256, .f32⟩ : BufTy).Contents (Elt F) → (⟨S1x1x256, .f32⟩ : BufTy).Contents (Elt F)),
    reshape main_v291 main_v292 rfl shapeCasts_S1x1x256_S256,
    unary main_v292 main_v293 (broadcastInDim S1x256 ![1] bcast_S256_S1x256_1 : (⟨S256, .f32⟩ : BufTy).Contents (Elt F) → (⟨S1x256, .f32⟩ : BufTy).Contents (Elt F)),
    unary main_v293 main_v294 (broadcastInDim S65536x256 ![0, 1] bcast_S1x256_S65536x256_0_1 : (⟨S1x256, .f32⟩ : BufTy).Contents (Elt F) → (⟨S65536x256, .f32⟩ : BufTy).Contents (Elt F)),
    binary main_v290 main_v294 main_v295 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S65536x256, .f32⟩) main_call26_v0) (broadcastInDim S65536x256 ![] bcast_S_S65536x256),
    TRef.binary (TRef.of (T := ⟨S65536x256, .f32⟩) main_v295) (TRef.of (T := ⟨S65536x256, .f32⟩) main_call26_v0) (TRef.of (T := ⟨S65536x256, .f32⟩) main_v296) maximumf,
    unary main_arg9 main_v297 ((extractStridedSlice S1x256x1 ![6, 0, 0] · slices_S8x256x1_S1x256x1_6_0_0) : (⟨S8x256x1, .f32⟩ : BufTy).Contents (Elt F) → (⟨S1x256x1, .f32⟩ : BufTy).Contents (Elt F)),
    reshape main_v297 main_v298 rfl shapeCasts_S1x256x1_S256x1,
    binary main_v296 main_v298 main_v299 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v300 ((extractStridedSlice S1x1 ![6, 0] · slices_S8x1_S1x1_6_0) : (⟨S8x1, .f32⟩ : BufTy).Contents (Elt F) → (⟨S1x1, .f32⟩ : BufTy).Contents (Elt F)),
    reshape main_v300 main_v301 rfl shapeCasts_S1x1_S1,
    unary main_v301 main_v302 (broadcastInDim S1x1 ![1] bcast_S1_S1x1_1 : (⟨S1, .f32⟩ : BufTy).Contents (Elt F) → (⟨S1x1, .f32⟩ : BufTy).Contents (Elt F)),
    unary main_v302 main_v303 (broadcastInDim S65536x1 ![0, 1] bcast_S1x1_S65536x1_0_1 : (⟨S1x1, .f32⟩ : BufTy).Contents (Elt F) → (⟨S65536x1, .f32⟩ : BufTy).Contents (Elt F)),
    binary main_v299 main_v303 main_v304 (addf : (⟨S65536x1, .f32⟩ : BufTy).Contents (Elt F) → (⟨S65536x1, .f32⟩ : BufTy).Contents (Elt F) → (⟨S65536x1, .f32⟩ : BufTy).Contents (Elt F)),
    nullary main_c_20 (constantI S_ 32 6#32),
    unary main_c_20 main_v305 (broadcastInDim S65536 ![] bcast_S_S65536 : (⟨S_, .i32⟩ : BufTy).Contents (Elt F) → (⟨S65536, .i32⟩ : BufTy).Contents (Elt F)),
    binary main_arg1 main_v305 main_v306 (cmpi .eq : (⟨S65536, .i32⟩ : BufTy).Contents (Elt F) → (⟨S65536, .i32⟩ : BufTy).Contents (Elt F) → (⟨S65536, .i1⟩ : BufTy).Contents (Elt F)),
    unary main_v306 main_v307 (broadcastInDim S65536x1 ![0] bcast_S65536_S65536x1_0 : (⟨S65536, .i1⟩ : BufTy).Contents (Elt F) → (⟨S65536x1, .i1⟩ : BufTy).Contents (Elt F)),
    nullary main_cst_21 (constant S_ .f32 0x00000000#32),
    TRef.unary (TRef.of (T := ⟨S_, .f32⟩) main_cst_21) (TRef.of (T := ⟨S_, .f32⟩) main_call27_v0) id,
    TRef.unary (TRef.of (T := ⟨S_, .f32⟩) main_call27_v0) (TRef.of (T := ⟨S65536x1, .f32⟩) main_call27_v1) (broadcastInDim S65536x1 ![] bcast_S_S65536x1),
    TRef.ternary (TRef.of (T := ⟨S65536x1, .i1⟩) main_v307) (TRef.of (T := ⟨S65536x1, .f32⟩) main_v304) (TRef.of (T := ⟨S65536x1, .f32⟩) main_call27_v1) (TRef.of (T := ⟨S65536x1, .f32⟩) main_v308) select,
    binary main_v269 main_v308 main_v309 (addf : (⟨S65536x1, .f32⟩ : BufTy).Contents (Elt F) → (⟨S65536x1, .f32⟩ : BufTy).Contents (Elt F) → (⟨S65536x1, .f32⟩ : BufTy).Contents (Elt F)) ]

theorem expert6_sub : (expert6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert6_fresh : ∀ op ∈ (expert6 : List (HloOp τ sig (Elt F))), op.fresh = ∅ := by
  intro _ h; (repeat (cases h with | head => rfl | tail _ h => ?_)); exact nomatch h

/-- The stretch of expert 7: operations 391 to 440 of @main, in order. -/
abbrev expert7 : List (HloOp τ sig (Elt F)) :=
  [ unary main_arg5 main_v310 ((extractStridedSlice S1x67x256 ![7, 0, 0] · slices_S8x67x256_S1x67x256_7_0_0) : (⟨S8x67x256, .f32⟩ : BufTy).Contents (Elt F) → (⟨S1x67x256, .f32⟩ : BufTy).Contents (Elt F)),
    reshape main_v310 main_v311 rfl shapeCasts_S1x67x256_S67x256,
    binary main_v28 main_v311 main_v312 ((fun l r => Host.dotGeneral dot_S65536x67_S67x256_S65536x256_1_0_0_1_n_n none l r) : (⟨S65536x67, .f32⟩ : BufTy).Contents (Elt F) → (⟨S67x256, .f32⟩ : BufTy).Contents (Elt F) → (⟨S65536x256, .f32⟩ : BufTy).Contents (Elt F)),
    unary main_arg6 main_v313 ((extractStridedSlice S1x256 ![7, 0] · slices_S8x256_S1x256_7_0) : (⟨S8x256, .f32⟩ : BufTy).Contents (Elt F) → (⟨S1x256, .f32⟩ : BufTy).Contents (Elt F)),
    reshape main_v313 main_v314 rfl shapeCasts_S1x256_S256,
    unary main_v314 main_v315 (broadcastInDim S1x256 ![1] bcast_S256_S1x256_1 : (⟨S256, .f32⟩ : BufTy).Contents (Elt F) → (⟨S1x256, .f32⟩ : BufTy).Contents (Elt F)),
    unary main_v315 main_v316 (broadcastInDim S65536x256 ![0, 1] bcast_S1x256_S65536x256_0_1 : (⟨S1x256, .f32⟩ : BufTy).Contents (Elt F) → (⟨S65536x256, .f32⟩ : BufTy).Contents (Elt F)),
    binary main_v312 main_v316 main_v317 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S65536x256, .f32⟩) main_call28_v0) (broadcastInDim S65536x256 ![] bcast_S_S65536x256),
    TRef.binary (TRef.of (T := ⟨S65536x256, .f32⟩) main_v317) (TRef.of (T := ⟨S65536x256, .f32⟩) main_call28_v0) (TRef.of (T := ⟨S65536x256, .f32⟩) main_v318) maximumf,
    unary main_arg7 main_v319 ((extractStridedSlice S1x1x256x256 ![0, 7, 0, 0] · slices_S2x8x256x256_S1x1x256x256_0_7_0_0) : (⟨S2x8x256x256, .f32⟩ : BufTy).Contents (Elt F) → (⟨S1x1x256x256, .f32⟩ : BufTy).Contents (Elt F)),
    reshape main_v319 main_v320 rfl shapeCasts_S1x1x256x256_S256x256,
    binary main_v318 main_v320 main_v321 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v322 ((extractStridedSlice S1x1x256 ![0, 7, 0] · slices_S2x8x256_S1x1x256_0_7_0) : (⟨S2x8x256, .f32⟩ : BufTy).Contents (Elt F) → (⟨S1x1x256, .f32⟩ : BufTy).Contents (Elt F)),
    reshape main_v322 main_v323 rfl shapeCasts_S1x1x256_S256,
    unary main_v323 main_v324 (broadcastInDim S1x256 ![1] bcast_S256_S1x256_1 : (⟨S256, .f32⟩ : BufTy).Contents (Elt F) → (⟨S1x256, .f32⟩ : BufTy).Contents (Elt F)),
    unary main_v324 main_v325 (broadcastInDim S65536x256 ![0, 1] bcast_S1x256_S65536x256_0_1 : (⟨S1x256, .f32⟩ : BufTy).Contents (Elt F) → (⟨S65536x256, .f32⟩ : BufTy).Contents (Elt F)),
    binary main_v321 main_v325 main_v326 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S65536x256, .f32⟩) main_call29_v0) (broadcastInDim S65536x256 ![] bcast_S_S65536x256),
    TRef.binary (TRef.of (T := ⟨S65536x256, .f32⟩) main_v326) (TRef.of (T := ⟨S65536x256, .f32⟩) main_call29_v0) (TRef.of (T := ⟨S65536x256, .f32⟩) main_v327) maximumf,
    unary main_arg7 main_v328 ((extractStridedSlice S1x1x256x256 ![1, 7, 0, 0] · slices_S2x8x256x256_S1x1x256x256_1_7_0_0) : (⟨S2x8x256x256, .f32⟩ : BufTy).Contents (Elt F) → (⟨S1x1x256x256, .f32⟩ : BufTy).Contents (Elt F)),
    reshape main_v328 main_v329 rfl shapeCasts_S1x1x256x256_S256x256,
    binary main_v327 main_v329 main_v330 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg8 main_v331 ((extractStridedSlice S1x1x256 ![1, 7, 0] · slices_S2x8x256_S1x1x256_1_7_0) : (⟨S2x8x256, .f32⟩ : BufTy).Contents (Elt F) → (⟨S1x1x256, .f32⟩ : BufTy).Contents (Elt F)),
    reshape main_v331 main_v332 rfl shapeCasts_S1x1x256_S256,
    unary main_v332 main_v333 (broadcastInDim S1x256 ![1] bcast_S256_S1x256_1 : (⟨S256, .f32⟩ : BufTy).Contents (Elt F) → (⟨S1x256, .f32⟩ : BufTy).Contents (Elt F)),
    unary main_v333 main_v334 (broadcastInDim S65536x256 ![0, 1] bcast_S1x256_S65536x256_0_1 : (⟨S1x256, .f32⟩ : BufTy).Contents (Elt F) → (⟨S65536x256, .f32⟩ : BufTy).Contents (Elt F)),
    binary main_v330 main_v334 main_v335 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call30_cst) (constant S_ .f32 0x00000000#32),
    TRef.unary (TRef.of (T := ⟨S_, .f32⟩) main_call30_cst) (TRef.of (T := ⟨S65536x256, .f32⟩) main_call30_v0) (broadcastInDim S65536x256 ![] bcast_S_S65536x256),
    TRef.binary (TRef.of (T := ⟨S65536x256, .f32⟩) main_v335) (TRef.of (T := ⟨S65536x256, .f32⟩) main_call30_v0) (TRef.of (T := ⟨S65536x256, .f32⟩) main_v336) maximumf,
    unary main_arg9 main_v337 ((extractStridedSlice S1x256x1 ![7, 0, 0] · slices_S8x256x1_S1x256x1_7_0_0) : (⟨S8x256x1, .f32⟩ : BufTy).Contents (Elt F) → (⟨S1x256x1, .f32⟩ : BufTy).Contents (Elt F)),
    reshape main_v337 main_v338 rfl shapeCasts_S1x256x1_S256x1,
    binary main_v336 main_v338 main_v339 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    unary main_arg10 main_v340 ((extractStridedSlice S1x1 ![7, 0] · slices_S8x1_S1x1_7_0) : (⟨S8x1, .f32⟩ : BufTy).Contents (Elt F) → (⟨S1x1, .f32⟩ : BufTy).Contents (Elt F)),
    reshape main_v340 main_v341 rfl shapeCasts_S1x1_S1,
    unary main_v341 main_v342 (broadcastInDim S1x1 ![1] bcast_S1_S1x1_1 : (⟨S1, .f32⟩ : BufTy).Contents (Elt F) → (⟨S1x1, .f32⟩ : BufTy).Contents (Elt F)),
    unary main_v342 main_v343 (broadcastInDim S65536x1 ![0, 1] bcast_S1x1_S65536x1_0_1 : (⟨S1x1, .f32⟩ : BufTy).Contents (Elt F) → (⟨S65536x1, .f32⟩ : BufTy).Contents (Elt F)),
    binary main_v339 main_v343 main_v344 (addf : (⟨S65536x1, .f32⟩ : BufTy).Contents (Elt F) → (⟨S65536x1, .f32⟩ : BufTy).Contents (Elt F) → (⟨S65536x1, .f32⟩ : BufTy).Contents (Elt F)),
    nullary main_c_22 (constantI S_ 32 7#32),
    unary main_c_22 main_v345 (broadcastInDim S65536 ![] bcast_S_S65536 : (⟨S_, .i32⟩ : BufTy).Contents (Elt F) → (⟨S65536, .i32⟩ : BufTy).Contents (Elt F)),
    binary main_arg1 main_v345 main_v346 (cmpi .eq : (⟨S65536, .i32⟩ : BufTy).Contents (Elt F) → (⟨S65536, .i32⟩ : BufTy).Contents (Elt F) → (⟨S65536, .i1⟩ : BufTy).Contents (Elt F)),
    unary main_v346 main_v347 (broadcastInDim S65536x1 ![0] bcast_S65536_S65536x1_0 : (⟨S65536, .i1⟩ : BufTy).Contents (Elt F) → (⟨S65536x1, .i1⟩ : BufTy).Contents (Elt F)),
    nullary main_cst_23 (constant S_ .f32 0x00000000#32),
    TRef.unary (TRef.of (T := ⟨S_, .f32⟩) main_cst_23) (TRef.of (T := ⟨S_, .f32⟩) main_call31_v0) id,
    TRef.unary (TRef.of (T := ⟨S_, .f32⟩) main_call31_v0) (TRef.of (T := ⟨S65536x1, .f32⟩) main_call31_v1) (broadcastInDim S65536x1 ![] bcast_S_S65536x1),
    TRef.ternary (TRef.of (T := ⟨S65536x1, .i1⟩) main_v347) (TRef.of (T := ⟨S65536x1, .f32⟩) main_v344) (TRef.of (T := ⟨S65536x1, .f32⟩) main_call31_v1) (TRef.of (T := ⟨S65536x1, .f32⟩) main_v348) select,
    binary main_v309 main_v348 main_v349 (addf : (⟨S65536x1, .f32⟩ : BufTy).Contents (Elt F) → (⟨S65536x1, .f32⟩ : BufTy).Contents (Elt F) → (⟨S65536x1, .f32⟩ : BufTy).Contents (Elt F)) ]

theorem expert7_sub : (expert7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩

theorem expert7_fresh : ∀ op ∈ (expert7 : List (HloOp τ sig (Elt F))), op.fresh = ∅ := by
  intro _ h; (repeat (cases h with | head => rfl | tail _ h => ?_)); exact nomatch h

/-- The whole line: the nine stretches one after the other. -/
abbrev ops : List (HloOp τ sig (Elt F)) :=
  glue ++ (expert0 ++ (expert1 ++ (expert2 ++ (expert3 ++ (expert4 ++ (expert5 ++ (expert6 ++ (expert7))))))))

theorem ops_sub : (ops : List (HloOp τ sig (Elt F))).Forall fun op => op.bufs ⊆ tcRefs τ sig :=
  Stretches.forall_append _ _ glue_sub (Stretches.forall_append _ _ expert0_sub (Stretches.forall_append _ _ expert1_sub (Stretches.forall_append _ _ expert2_sub (Stretches.forall_append _ _ expert3_sub (Stretches.forall_append _ _ expert4_sub (Stretches.forall_append _ _ expert5_sub (Stretches.forall_append _ _ expert6_sub (expert7_sub))))))))

theorem ops_fresh : ∀ op ∈ (ops : List (HloOp τ sig (Elt F))), op.fresh = ∅ := by
  intro op h
  simp only [ops, List.mem_append] at h
  rcases h with h | h | h | h | h | h | h | h | h
  · exact glue_fresh op h
  · exact expert0_fresh op h
  · exact expert1_fresh op h
  · exact expert2_fresh op h
  · exact expert3_fresh op h
  · exact expert4_fresh op h
  · exact expert5_fresh op h
  · exact expert6_fresh op h
  · exact expert7_fresh op h

end Cert.ReferenceIdeal.Stretch

end
-- ==== Proof.RefMain.lean ====
/-
  The reference program's @main is the line of its host operations: its seven printed windows, run one after the
  other with each outlined function's body in its call's place, are the nine stretches run in order.
-/
import proofs.«162275_j30107720745799_1_alg».proof.Proof.RefOps

noncomputable section

namespace Cert.ReferenceIdeal.Stretch

open Cert.ReferenceIdeal Cert.ReferenceIdeal.Gen Idealize.ShloMosaic Idealize.ShloMosaic.TcCoe Idealize.SL.Sem Idealize.ShloMosaic.StableHlo

variable {F : FTy → Type} [FloatOps F]

set_option maxRecDepth 200000 in
set_option maxHeartbeats 16000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, and every buffer ends at the fold of the operations'
    results over the memory the program was launched with. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Stretch

end
-- ==== Proof.RefTerm.lean ====
/-
  The reference program's host operations as whole-array functions of the arguments.

  batchInput is the network's input: the batch x beside the reparametrised latent
  z = mu_table[labels] + eps · exp(0.5 · logvar_table[labels]), the labels read as indices into the two tables the
  way a gather reads them. klTerm is the KL scalar −0.5 · Σ (1 + logvar − mu² − exp(logvar)) / 65536. expertStep is
  one expert's stretch: the running sum plus, where the label is e, the output of expert e's four dense layers on
  the batch input, its parameters sliced from the six shared arrays at expert number e.
-/
import proofs.«162275_j30107720745799_1_alg».proof.ReferenceIdeal
import proofs.«162275_j30107720745799_1_alg».proof.Proof.Gen.ReferenceIdeal
import Idealize.ShloMosaic.PureOps.Ideal

noncomputable section

namespace Cert.ReferenceIdeal.Stretch

open Cert.ReferenceIdeal Cert.ReferenceIdeal.Gen Idealize.ShloMosaic Idealize.ShloMosaic.TcCoe

/-- The labels as a gather reads them: a negative label counted from the end of the table. -/
def tableIndex (lab : IVec S65536 32) : IVec S65536x1 32 :=
  broadcastInDim S65536x1 ![0] bcast_S65536_S65536x1_0
    (select (cmpi .slt lab (broadcastInDim S65536 ![] bcast_S_S65536 (constantI S_ 32 0#32)))
      (addi lab (broadcastInDim S65536 ![] bcast_S_S65536 (constantI S_ 32 8#32))) lab)

/-- The rows of a table [8, 64] looked up by label. -/
def lookup (table : FVec Ideal S8x64 .f32) (lab : IVec S65536 32) : FVec Ideal S65536x64 .f32 :=
  Host.gather gather_S8x64_S65536x1_S65536x64_1_0_n_n_0_1_164 table (tableIndex lab)

/-- The network's input [65536, 67]: x beside z = mu + eps · exp(0.5 · logvar). -/
def batchInput (x : FVec Ideal S65536x3 .f32) (lab : IVec S65536 32) (eps : FVec Ideal S65536x64 .f32)
    (mu lv : FVec Ideal S8x64 .f32) : FVec Ideal S65536x67 .f32 :=
  concatenate S65536x67 1 [⟨S65536x3, x⟩, ⟨S65536x64,
    addf (lookup mu lab) (mulf eps (Host.exp (mulf (broadcastInDim S65536x64 ![] bcast_S_S65536x64 (constant S_ .f32 0x3F000000#32)) (lookup lv lab))))⟩]
    concatenates_S65536x3_S65536x64_S65536x67_d1

/-- The KL scalar. -/
def klTerm (lab : IVec S65536 32) (mu lv : FVec Ideal S8x64 .f32) : FVec Ideal S_ .f32 :=
  Host.divf (mulf (constant S_ .f32 0xBF000000#32)
    (Host.reduceAdd (subf (subf (addf (broadcastInDim S65536x64 ![] bcast_S_S65536x64 (constant S_ .f32 0x3F800000#32)) (lookup lv lab))
        (mulf (lookup mu lab) (lookup mu lab))) (Host.exp (lookup lv lab)))
      (constant S_ .f32 0x00000000#32) reducesTo_S65536x64_S_d0_1 h_S_))
    (constant S_ .f32 0x47800000#32)

/-- The accumulator the experts' outputs are added to: zero on every row. -/
def zeroAcc : FVec Ideal S65536x1 .f32 :=
  broadcastInDim S65536x1 ![] bcast_S_S65536x1 (constant S_ .f32 0x00000000#32)

/-- The zero a rectifier compares with, spread over a hidden layer. -/
def zeroHidden : FVec Ideal S65536x256 .f32 :=
  broadcastInDim S65536x256 ![] bcast_S_S65536x256 (constant S_ .f32 0x00000000#32)

/-- A bias vector [256] as a row spread down the batch. -/
def biasRows (b : FVec Ideal S256 .f32) : FVec Ideal S65536x256 .f32 :=
  broadcastInDim S65536x256 ![0, 1] bcast_S1x256_S65536x256_0_1 (broadcastInDim S1x256 ![1] bcast_S256_S1x256_1 b)

/-- Expert e's output on the whole batch: three rectified dense layers and the output layer, the parameters sliced
    at expert number e (the eight conditions say each slice lies inside its array). -/
def expertNet (X : FVec Ideal S65536x67 .f32) (W0 : FVec Ideal S8x67x256 .f32) (b0 : FVec Ideal S8x256 .f32)
    (Wh : FVec Ideal S2x8x256x256 .f32) (bh : FVec Ideal S2x8x256 .f32) (Wo : FVec Ideal S8x256x1 .f32) (bo : FVec Ideal S8x1 .f32)
    (e : ℕ) (h0 : S8x67x256.Slices ![e, 0, 0] S1x67x256) (h1 : S8x256.Slices ![e, 0] S1x256)
    (h2 : S2x8x256x256.Slices ![0, e, 0, 0] S1x1x256x256) (h3 : S2x8x256.Slices ![0, e, 0] S1x1x256)
    (h4 : S2x8x256x256.Slices ![1, e, 0, 0] S1x1x256x256) (h5 : S2x8x256.Slices ![1, e, 0] S1x1x256)
    (h6 : S8x256x1.Slices ![e, 0, 0] S1x256x1) (h7 : S8x1.Slices ![e, 0] S1x1) : FVec Ideal S65536x1 .f32 :=
  addf (Host.dotGeneral dot_S65536x256_S256x1_S65536x1_1_0_0_1_n_n none
      (maximumf (addf (Host.dotGeneral dot_S65536x256_S256x256_S65536x256_1_0_0_1_n_n none
          (maximumf (addf (Host.dotGeneral dot_S65536x256_S256x256_S65536x256_1_0_0_1_n_n none
              (maximumf (addf (Host.dotGeneral dot_S65536x67_S67x256_S65536x256_1_0_0_1_n_n none X
                    (shapeCast S67x256 (extractStridedSlice S1x67x256 ![e, 0, 0] W0 h0) shapeCasts_S1x67x256_S67x256))
                  (biasRows (shapeCast S256 (extractStridedSlice S1x256 ![e, 0] b0 h1) shapeCasts_S1x256_S256))) zeroHidden)
              (shapeCast S256x256 (extractStridedSlice S1x1x256x256 ![0, e, 0, 0] Wh h2) shapeCasts_S1x1x256x256_S256x256))
            (biasRows (shapeCast S256 (extractStridedSlice S1x1x256 ![0, e, 0] bh h3) shapeCasts_S1x1x256_S256))) zeroHidden)
          (shapeCast S256x256 (extractStridedSlice S1x1x256x256 ![1, e, 0, 0] Wh h4) shapeCasts_S1x1x256x256_S256x256))
        (biasRows (shapeCast S256 (extractStridedSlice S1x1x256 ![1, e, 0] bh h5) shapeCasts_S1x1x256_S256))) zeroHidden)
      (shapeCast S256x1 (extractStridedSlice S1x256x1 ![e, 0, 0] Wo h6) shapeCasts_S1x256x1_S256x1))
    (broadcastInDim S65536x1 ![0, 1] bcast_S1x1_S65536x1_0_1 (broadcastInDim S1x1 ![1] bcast_S1_S1x1_1
      (shapeCast S1 (extractStridedSlice S1x1 ![e, 0] bo h7) shapeCasts_S1x1_S1)))

/-- One expert's stretch: the running sum plus the expert's output where the label is e, zero elsewhere. -/
def expertStep (acc : FVec Ideal S65536x1 .f32) (lab : IVec S65536 32) (net : FVec Ideal S65536x1 .f32) (e : ℕ) : FVec Ideal S65536x1 .f32 :=
  addf acc (select (broadcastInDim S65536x1 ![0] bcast_S65536_S65536x1_0
      (cmpi .eq lab (broadcastInDim S65536 ![] bcast_S_S65536 (constantI S_ 32 (BitVec.ofNat 32 e)))))
    net (broadcastInDim S65536x1 ![] bcast_S_S65536x1 (id (constant S_ .f32 0x00000000#32))))

end Cert.ReferenceIdeal.Stretch

end
-- ==== Proof.RefMix.lean ====
/-
  The reference's first result as one term: the eight accumulation steps nested, expert 0 innermost, over the zero
  accumulator, each expert's network applied to the same batch input.
-/
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe

/-- The eight steps nested, expert 0 innermost. -/
def refMix (X : FVec Ideal S65536x67 .f32) (lab : IVec S65536 32) (W0 : FVec Ideal S8x67x256 .f32) (b0 : FVec Ideal S8x256 .f32)
    (Wh : FVec Ideal S2x8x256x256 .f32) (bh : FVec Ideal S2x8x256 .f32) (Wo : FVec Ideal S8x256x1 .f32) (bo : FVec Ideal S8x1 .f32) :
    FVec Ideal S65536x1 .f32 :=
  expertStep (expertStep (expertStep (expertStep (expertStep (expertStep (expertStep (expertStep (zeroAcc) lab
      (expertNet X W0 b0 Wh bh Wo bo 0 (by decide) (by decide) (by decide) (by decide) (by decide) (by decide) (by decide) (by decide)) 0) lab
      (expertNet X W0 b0 Wh bh Wo bo 1 (by decide) (by decide) (by decide) (by decide) (by decide) (by decide) (by decide) (by decide)) 1) lab
      (expertNet X W0 b0 Wh bh Wo bo 2 (by decide) (by decide) (by decide) (by decide) (by decide) (by decide) (by decide) (by decide)) 2) lab
      (expertNet X W0 b0 Wh bh Wo bo 3 (by decide) (by decide) (by decide) (by decide) (by decide) (by decide) (by decide) (by decide)) 3) lab
      (expertNet X W0 b0 Wh bh Wo bo 4 (by decide) (by decide) (by decide) (by decide) (by decide) (by decide) (by decide) (by decide)) 4) lab
      (expertNet X W0 b0 Wh bh Wo bo 5 (by decide) (by decide) (by decide) (by decide) (by decide) (by decide) (by decide) (by decide)) 5) lab
      (expertNet X W0 b0 Wh bh Wo bo 6 (by decide) (by decide) (by decide) (by decide) (by decide) (by decide) (by decide) (by decide)) 6) lab
      (expertNet X W0 b0 Wh bh Wo bo 7 (by decide) (by decide) (by decide) (by decide) (by decide) (by decide) (by decide) (by decide)) 7

end Cert.ReferenceIdeal.Stretch

end
-- ==== Proof.RefStretchG.lean ====
/-
  The glue stretch of the reference, evaluated from any memory: the batch input, the zero accumulator and the KL
  scalar as functions of the arguments that memory holds; the arguments are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
theorem glue_input :
    after (glue (F := Ideal)) W (Proc.devRef .tc main_v28) = batchInput (W (Proc.devRef .tc main_arg0)) (W (Proc.devRef .tc main_arg1)) (W (Proc.devRef .tc main_arg2)) (W (Proc.devRef .tc main_arg3)) (W (Proc.devRef .tc main_arg4)) := by
  after_results_simp
  rfl

set_option maxRecDepth 8192 in
set_option maxHeartbeats 4000000 in
theorem glue_zero : after (glue (F := Ideal)) W (Proc.devRef .tc main_v29) = zeroAcc := by
  after_results_simp
  rfl

set_option maxRecDepth 8192 in
set_option maxHeartbeats 4000000 in
theorem glue_kl :
    after (glue (F := Ideal)) W (Proc.devRef .tc main_v27) = klTerm (W (Proc.devRef .tc main_arg1)) (W (Proc.devRef .tc main_arg3)) (W (Proc.devRef .tc main_arg4)) := by
  after_results_simp
  rfl

set_option maxRecDepth 8192 in
set_option maxHeartbeats 4000000 in
theorem glue_keeps_main_arg0 : after (glue (F := Ideal)) W (Proc.devRef .tc main_arg0) = W (Proc.devRef .tc main_arg0) := by
  after_results_simp

set_option maxRecDepth 8192 in
set_option maxHeartbeats 4000000 in
theorem glue_keeps_main_arg1 : after (glue (F := Ideal)) W (Proc.devRef .tc main_arg1) = W (Proc.devRef .tc main_arg1) := by
  after_results_simp

set_option maxRecDepth 8192 in
set_option maxHeartbeats 4000000 in
theorem glue_keeps_main_arg2 : after (glue (F := Ideal)) W (Proc.devRef .tc main_arg2) = W (Proc.devRef .tc main_arg2) := by
  after_results_simp

set_option maxRecDepth 8192 in
set_option maxHeartbeats 4000000 in
theorem glue_keeps_main_arg3 : after (glue (F := Ideal)) W (Proc.devRef .tc main_arg3) = W (Proc.devRef .tc main_arg3) := by
  after_results_simp

set_option maxRecDepth 8192 in
set_option maxHeartbeats 4000000 in
theorem glue_keeps_main_arg4 : after (glue (F := Ideal)) W (Proc.devRef .tc main_arg4) = W (Proc.devRef .tc main_arg4) := by
  after_results_simp

set_option maxRecDepth 8192 in
set_option maxHeartbeats 4000000 in
theorem glue_keeps_main_arg5 : after (glue (F := Ideal)) W (Proc.devRef .tc main_arg5) = W (Proc.devRef .tc main_arg5) := by
  after_results_simp

set_option maxRecDepth 8192 in
set_option maxHeartbeats 4000000 in
theorem glue_keeps_main_arg6 : after (glue (F := Ideal)) W (Proc.devRef .tc main_arg6) = W (Proc.devRef .tc main_arg6) := by
  after_results_simp

set_option maxRecDepth 8192 in
set_option maxHeartbeats 4000000 in
theorem glue_keeps_main_arg7 : after (glue (F := Ideal)) W (Proc.devRef .tc main_arg7) = W (Proc.devRef .tc main_arg7) := by
  after_results_simp

set_option maxRecDepth 8192 in
set_option maxHeartbeats 4000000 in
theorem glue_keeps_main_arg8 : after (glue (F := Ideal)) W (Proc.devRef .tc main_arg8) = W (Proc.devRef .tc main_arg8) := by
  after_results_simp

set_option maxRecDepth 8192 in
set_option maxHeartbeats 4000000 in
theorem glue_keeps_main_arg9 : after (glue (F := Ideal)) W (Proc.devRef .tc main_arg9) = W (Proc.devRef .tc main_arg9) := by
  after_results_simp

set_option maxRecDepth 8192 in
set_option maxHeartbeats 4000000 in
theorem glue_keeps_main_arg10 : after (glue (F := Ideal)) W (Proc.devRef .tc main_arg10) = W (Proc.devRef .tc main_arg10) := by
  after_results_simp

end Cert.ReferenceIdeal.Stretch

end
-- ==== Proof.RefStretch0.lean ====
/-
  Expert 0's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert0_out :
    after (expert0 (F := Ideal)) W (Proc.devRef .tc main_v69) = expertStep (W (Proc.devRef .tc main_v29)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 0
        (by decide) (by decide) (by decide) (by decide) (by decide) (by decide) (by decide) (by decide)) 0 := by
  after_results_simp
  rfl

set_option maxRecDepth 8192 in
set_option maxHeartbeats 4000000 in
theorem expert0_keeps_main_arg0 : after (expert0 (F := Ideal)) W (Proc.devRef .tc main_arg0) = W (Proc.devRef .tc main_arg0) := by
  after_results_simp

set_option maxRecDepth 8192 in
set_option maxHeartbeats 4000000 in
theorem expert0_keeps_main_arg1 : after (expert0 (F := Ideal)) W (Proc.devRef .tc main_arg1) = W (Proc.devRef .tc main_arg1) := by
  after_results_simp

set_option maxRecDepth 8192 in
set_option maxHeartbeats 4000000 in
theorem expert0_keeps_main_arg2 : after (expert0 (F := Ideal)) W (Proc.devRef .tc main_arg2) = W (Proc.devRef .tc main_arg2) := by
  after_results_simp

set_option maxRecDepth 8192 in
set_option maxHeartbeats 4000000 in
theorem expert0_keeps_main_arg3 : after (expert0 (F := Ideal)) W (Proc.devRef .tc main_arg3) = W (Proc.devRef .tc main_arg3) := by
  after_results_simp

set_option maxRecDepth 8192 in
set_option maxHeartbeats 4000000 in
theorem expert0_keeps_main_arg4 : after (expert0 (F := Ideal)) W (Proc.devRef .tc main_arg4) = W (Proc.devRef .tc main_arg4) := by
  after_results_simp

set_option maxRecDepth 8192 in
set_option maxHeartbeats 4000000 in
theorem expert0_keeps_main_arg5 : after (expert0 (F := Ideal)) W (Proc.devRef .tc main_arg5) = W (Proc.devRef .tc main_arg5) := by
  after_results_simp

set_option maxRecDepth 8192 in
set_option maxHeartbeats 4000000 in
theorem expert0_keeps_main_arg6 : after (expert0 (F := Ideal)) W (Proc.devRef .tc main_arg6) = W (Proc.devRef .tc main_arg6) := by
  after_results_simp

set_option maxRecDepth 8192 in
set_option maxHeartbeats 4000000 in
theorem expert0_keeps_main_arg7 : after (expert0 (F := Ideal)) W (Proc.devRef .tc main_arg7) = W (Proc.devRef .tc main_arg7) := by
  after_results_simp

set_option maxRecDepth 8192 in
set_option maxHeartbeats 4000000 in
theorem expert0_keeps_main_arg8 : after (expert0 (F := Ideal)) W (Proc.devRef .tc main_arg8) = W (Proc.devRef .tc main_arg8) := by
  after_results_simp

set_option maxRecDepth 8192 in
set_option maxHeartbeats 4000000 in
theorem expert0_keeps_main_arg9 : after (expert0 (F := Ideal)) W (Proc.devRef .tc main_arg9) = W (Proc.devRef .tc main_arg9) := by
  after_results_simp

set_option maxRecDepth 8192 in
set_option maxHeartbeats 4000000 in
theorem expert0_keeps_main_arg10 : after (expert0 (F := Ideal)) W (Proc.devRef .tc main_arg10) = W (Proc.devRef .tc main_arg10) := by
  after_results_simp

set_option maxRecDepth 8192 in
set_option maxHeartbeats 4000000 in
theorem expert0_keeps_main_v27 : after (expert0 (F := Ideal)) W (Proc.devRef .tc main_v27) = W (Proc.devRef .tc main_v27) := by
  after_results_simp

set_option maxRecDepth 8192 in
set_option maxHeartbeats 4000000 in
theorem expert0_keeps_main_v28 : after (expert0 (F := Ideal)) W (Proc.devRef .tc main_v28) = W (Proc.devRef .tc main_v28) := by
  after_results_simp

end Cert.ReferenceIdeal.Stretch

end
-- ==== Proof.RefStretch1.lean ====
/-
  Expert 1's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert1_out :
    after (expert1 (F := Ideal)) W (Proc.devRef .tc main_v109) = expertStep (W (Proc.devRef .tc main_v69)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 1
        (by decide) (by decide) (by decide) (by decide) (by decide) (by decide) (by decide) (by decide)) 1 := by
  after_results_simp
  rfl

set_option maxRecDepth 8192 in
set_option maxHeartbeats 4000000 in
theorem expert1_keeps_main_arg0 : after (expert1 (F := Ideal)) W (Proc.devRef .tc main_arg0) = W (Proc.devRef .tc main_arg0) := by
  after_results_simp

set_option maxRecDepth 8192 in
set_option maxHeartbeats 4000000 in
theorem expert1_keeps_main_arg1 : after (expert1 (F := Ideal)) W (Proc.devRef .tc main_arg1) = W (Proc.devRef .tc main_arg1) := by
  after_results_simp

set_option maxRecDepth 8192 in
set_option maxHeartbeats 4000000 in
theorem expert1_keeps_main_arg2 : after (expert1 (F := Ideal)) W (Proc.devRef .tc main_arg2) = W (Proc.devRef .tc main_arg2) := by
  after_results_simp

set_option maxRecDepth 8192 in
set_option maxHeartbeats 4000000 in
theorem expert1_keeps_main_arg3 : after (expert1 (F := Ideal)) W (Proc.devRef .tc main_arg3) = W (Proc.devRef .tc main_arg3) := by
  after_results_simp

set_option maxRecDepth 8192 in
set_option maxHeartbeats 4000000 in
theorem expert1_keeps_main_arg4 : after (expert1 (F := Ideal)) W (Proc.devRef .tc main_arg4) = W (Proc.devRef .tc main_arg4) := by
  after_results_simp

set_option maxRecDepth 8192 in
set_option maxHeartbeats 4000000 in
theorem expert1_keeps_main_arg5 : after (expert1 (F := Ideal)) W (Proc.devRef .tc main_arg5) = W (Proc.devRef .tc main_arg5) := by
  after_results_simp

set_option maxRecDepth 8192 in
set_option maxHeartbeats 4000000 in
theorem expert1_keeps_main_arg6 : after (expert1 (F := Ideal)) W (Proc.devRef .tc main_arg6) = W (Proc.devRef .tc main_arg6) := by
  after_results_simp

set_option maxRecDepth 8192 in
set_option maxHeartbeats 4000000 in
theorem expert1_keeps_main_arg7 : after (expert1 (F := Ideal)) W (Proc.devRef .tc main_arg7) = W (Proc.devRef .tc main_arg7) := by
  after_results_simp

set_option maxRecDepth 8192 in
set_option maxHeartbeats 4000000 in
theorem expert1_keeps_main_arg8 : after (expert1 (F := Ideal)) W (Proc.devRef .tc main_arg8) = W (Proc.devRef .tc main_arg8) := by
  after_results_simp

set_option maxRecDepth 8192 in
set_option maxHeartbeats 4000000 in
theorem expert1_keeps_main_arg9 : after (expert1 (F := Ideal)) W (Proc.devRef .tc main_arg9) = W (Proc.devRef .tc main_arg9) := by
  after_results_simp

set_option maxRecDepth 8192 in
set_option maxHeartbeats 4000000 in
theorem expert1_keeps_main_arg10 : after (expert1 (F := Ideal)) W (Proc.devRef .tc main_arg10) = W (Proc.devRef .tc main_arg10) := by
  after_results_simp

set_option maxRecDepth 8192 in
set_option maxHeartbeats 4000000 in
theorem expert1_keeps_main_v27 : after (expert1 (F := Ideal)) W (Proc.devRef .tc main_v27) = W (Proc.devRef .tc main_v27) := by
  after_results_simp

set_option maxRecDepth 8192 in
set_option maxHeartbeats 4000000 in
theorem expert1_keeps_main_v28 : after (expert1 (F := Ideal)) W (Proc.devRef .tc main_v28) = W (Proc.devRef .tc main_v28) := by
  after_results_simp

end Cert.ReferenceIdeal.Stretch

end
-- ==== Proof.RefStretch2.lean ====
/-
  Expert 2's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert2_out :
    after (expert2 (F := Ideal)) W (Proc.devRef .tc main_v149) = expertStep (W (Proc.devRef .tc main_v109)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 2
        (by decide) (by decide) (by decide) (by decide) (by decide) (by decide) (by decide) (by decide)) 2 := by
  after_results_simp
  rfl

set_option maxRecDepth 8192 in
set_option maxHeartbeats 4000000 in
theorem expert2_keeps_main_arg0 : after (expert2 (F := Ideal)) W (Proc.devRef .tc main_arg0) = W (Proc.devRef .tc main_arg0) := by
  after_results_simp

set_option maxRecDepth 8192 in
set_option maxHeartbeats 4000000 in
theorem expert2_keeps_main_arg1 : after (expert2 (F := Ideal)) W (Proc.devRef .tc main_arg1) = W (Proc.devRef .tc main_arg1) := by
  after_results_simp

set_option maxRecDepth 8192 in
set_option maxHeartbeats 4000000 in
theorem expert2_keeps_main_arg2 : after (expert2 (F := Ideal)) W (Proc.devRef .tc main_arg2) = W (Proc.devRef .tc main_arg2) := by
  after_results_simp

set_option maxRecDepth 8192 in
set_option maxHeartbeats 4000000 in
theorem expert2_keeps_main_arg3 : after (expert2 (F := Ideal)) W (Proc.devRef .tc main_arg3) = W (Proc.devRef .tc main_arg3) := by
  after_results_simp

set_option maxRecDepth 8192 in
set_option maxHeartbeats 4000000 in
theorem expert2_keeps_main_arg4 : after (expert2 (F := Ideal)) W (Proc.devRef .tc main_arg4) = W (Proc.devRef .tc main_arg4) := by
  after_results_simp

set_option maxRecDepth 8192 in
set_option maxHeartbeats 4000000 in
theorem expert2_keeps_main_arg5 : after (expert2 (F := Ideal)) W (Proc.devRef .tc main_arg5) = W (Proc.devRef .tc main_arg5) := by
  after_results_simp

set_option maxRecDepth 8192 in
set_option maxHeartbeats 4000000 in
theorem expert2_keeps_main_arg6 : after (expert2 (F := Ideal)) W (Proc.devRef .tc main_arg6) = W (Proc.devRef .tc main_arg6) := by
  after_results_simp

set_option maxRecDepth 8192 in
set_option maxHeartbeats 4000000 in
theorem expert2_keeps_main_arg7 : after (expert2 (F := Ideal)) W (Proc.devRef .tc main_arg7) = W (Proc.devRef .tc main_arg7) := by
  after_results_simp

set_option maxRecDepth 8192 in
set_option maxHeartbeats 4000000 in
theorem expert2_keeps_main_arg8 : after (expert2 (F := Ideal)) W (Proc.devRef .tc main_arg8) = W (Proc.devRef .tc main_arg8) := by
  after_results_simp

set_option maxRecDepth 8192 in
set_option maxHeartbeats 4000000 in
theorem expert2_keeps_main_arg9 : after (expert2 (F := Ideal)) W (Proc.devRef .tc main_arg9) = W (Proc.devRef .tc main_arg9) := by
  after_results_simp

set_option maxRecDepth 8192 in
set_option maxHeartbeats 4000000 in
theorem expert2_keeps_main_arg10 : after (expert2 (F := Ideal)) W (Proc.devRef .tc main_arg10) = W (Proc.devRef .tc main_arg10) := by
  after_results_simp

set_option maxRecDepth 8192 in
set_option maxHeartbeats 4000000 in
theorem expert2_keeps_main_v27 : after (expert2 (F := Ideal)) W (Proc.devRef .tc main_v27) = W (Proc.devRef .tc main_v27) := by
  after_results_simp

set_option maxRecDepth 8192 in
set_option maxHeartbeats 4000000 in
theorem expert2_keeps_main_v28 : after (expert2 (F := Ideal)) W (Proc.devRef .tc main_v28) = W (Proc.devRef .tc main_v28) := by
  after_results_simp

end Cert.ReferenceIdeal.Stretch

end
-- ==== Proof.RefStretch3.lean ====
/-
  Expert 3's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert3_out :
    after (expert3 (F := Ideal)) W (Proc.devRef .tc main_v189) = expertStep (W (Proc.devRef .tc main_v149)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 3
        (by decide) (by decide) (by decide) (by decide) (by decide) (by decide) (by decide) (by decide)) 3 := by
  after_results_simp
  rfl

set_option maxRecDepth 8192 in
set_option maxHeartbeats 4000000 in
theorem expert3_keeps_main_arg0 : after (expert3 (F := Ideal)) W (Proc.devRef .tc main_arg0) = W (Proc.devRef .tc main_arg0) := by
  after_results_simp

set_option maxRecDepth 8192 in
set_option maxHeartbeats 4000000 in
theorem expert3_keeps_main_arg1 : after (expert3 (F := Ideal)) W (Proc.devRef .tc main_arg1) = W (Proc.devRef .tc main_arg1) := by
  after_results_simp

set_option maxRecDepth 8192 in
set_option maxHeartbeats 4000000 in
theorem expert3_keeps_main_arg2 : after (expert3 (F := Ideal)) W (Proc.devRef .tc main_arg2) = W (Proc.devRef .tc main_arg2) := by
  after_results_simp

set_option maxRecDepth 8192 in
set_option maxHeartbeats 4000000 in
theorem expert3_keeps_main_arg3 : after (expert3 (F := Ideal)) W (Proc.devRef .tc main_arg3) = W (Proc.devRef .tc main_arg3) := by
  after_results_simp

set_option maxRecDepth 8192 in
set_option maxHeartbeats 4000000 in
theorem expert3_keeps_main_arg4 : after (expert3 (F := Ideal)) W (Proc.devRef .tc main_arg4) = W (Proc.devRef .tc main_arg4) := by
  after_results_simp

set_option maxRecDepth 8192 in
set_option maxHeartbeats 4000000 in
theorem expert3_keeps_main_arg5 : after (expert3 (F := Ideal)) W (Proc.devRef .tc main_arg5) = W (Proc.devRef .tc main_arg5) := by
  after_results_simp

set_option maxRecDepth 8192 in
set_option maxHeartbeats 4000000 in
theorem expert3_keeps_main_arg6 : after (expert3 (F := Ideal)) W (Proc.devRef .tc main_arg6) = W (Proc.devRef .tc main_arg6) := by
  after_results_simp

set_option maxRecDepth 8192 in
set_option maxHeartbeats 4000000 in
theorem expert3_keeps_main_arg7 : after (expert3 (F := Ideal)) W (Proc.devRef .tc main_arg7) = W (Proc.devRef .tc main_arg7) := by
  after_results_simp

set_option maxRecDepth 8192 in
set_option maxHeartbeats 4000000 in
theorem expert3_keeps_main_arg8 : after (expert3 (F := Ideal)) W (Proc.devRef .tc main_arg8) = W (Proc.devRef .tc main_arg8) := by
  after_results_simp

set_option maxRecDepth 8192 in
set_option maxHeartbeats 4000000 in
theorem expert3_keeps_main_arg9 : after (expert3 (F := Ideal)) W (Proc.devRef .tc main_arg9) = W (Proc.devRef .tc main_arg9) := by
  after_results_simp

set_option maxRecDepth 8192 in
set_option maxHeartbeats 4000000 in
theorem expert3_keeps_main_arg10 : after (expert3 (F := Ideal)) W (Proc.devRef .tc main_arg10) = W (Proc.devRef .tc main_arg10) := by
  after_results_simp

set_option maxRecDepth 8192 in
set_option maxHeartbeats 4000000 in
theorem expert3_keeps_main_v27 : after (expert3 (F := Ideal)) W (Proc.devRef .tc main_v27) = W (Proc.devRef .tc main_v27) := by
  after_results_simp

set_option maxRecDepth 8192 in
set_option maxHeartbeats 4000000 in
theorem expert3_keeps_main_v28 : after (expert3 (F := Ideal)) W (Proc.devRef .tc main_v28) = W (Proc.devRef .tc main_v28) := by
  after_results_simp

end Cert.ReferenceIdeal.Stretch

end
-- ==== Proof.RefStretch4.lean ====
/-
  Expert 4's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert4_out :
    after (expert4 (F := Ideal)) W (Proc.devRef .tc main_v229) = expertStep (W (Proc.devRef .tc main_v189)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 4
        (by decide) (by decide) (by decide) (by decide) (by decide) (by decide) (by decide) (by decide)) 4 := by
  after_results_simp
  rfl

set_option maxRecDepth 8192 in
set_option maxHeartbeats 4000000 in
theorem expert4_keeps_main_arg0 : after (expert4 (F := Ideal)) W (Proc.devRef .tc main_arg0) = W (Proc.devRef .tc main_arg0) := by
  after_results_simp

set_option maxRecDepth 8192 in
set_option maxHeartbeats 4000000 in
theorem expert4_keeps_main_arg1 : after (expert4 (F := Ideal)) W (Proc.devRef .tc main_arg1) = W (Proc.devRef .tc main_arg1) := by
  after_results_simp

set_option maxRecDepth 8192 in
set_option maxHeartbeats 4000000 in
theorem expert4_keeps_main_arg2 : after (expert4 (F := Ideal)) W (Proc.devRef .tc main_arg2) = W (Proc.devRef .tc main_arg2) := by
  after_results_simp

set_option maxRecDepth 8192 in
set_option maxHeartbeats 4000000 in
theorem expert4_keeps_main_arg3 : after (expert4 (F := Ideal)) W (Proc.devRef .tc main_arg3) = W (Proc.devRef .tc main_arg3) := by
  after_results_simp

set_option maxRecDepth 8192 in
set_option maxHeartbeats 4000000 in
theorem expert4_keeps_main_arg4 : after (expert4 (F := Ideal)) W (Proc.devRef .tc main_arg4) = W (Proc.devRef .tc main_arg4) := by
  after_results_simp

set_option maxRecDepth 8192 in
set_option maxHeartbeats 4000000 in
theorem expert4_keeps_main_arg5 : after (expert4 (F := Ideal)) W (Proc.devRef .tc main_arg5) = W (Proc.devRef .tc main_arg5) := by
  after_results_simp

set_option maxRecDepth 8192 in
set_option maxHeartbeats 4000000 in
theorem expert4_keeps_main_arg6 : after (expert4 (F := Ideal)) W (Proc.devRef .tc main_arg6) = W (Proc.devRef .tc main_arg6) := by
  after_results_simp

set_option maxRecDepth 8192 in
set_option maxHeartbeats 4000000 in
theorem expert4_keeps_main_arg7 : after (expert4 (F := Ideal)) W (Proc.devRef .tc main_arg7) = W (Proc.devRef .tc main_arg7) := by
  after_results_simp

set_option maxRecDepth 8192 in
set_option maxHeartbeats 4000000 in
theorem expert4_keeps_main_arg8 : after (expert4 (F := Ideal)) W (Proc.devRef .tc main_arg8) = W (Proc.devRef .tc main_arg8) := by
  after_results_simp

set_option maxRecDepth 8192 in
set_option maxHeartbeats 4000000 in
theorem expert4_keeps_main_arg9 : after (expert4 (F := Ideal)) W (Proc.devRef .tc main_arg9) = W (Proc.devRef .tc main_arg9) := by
  after_results_simp

set_option maxRecDepth 8192 in
set_option maxHeartbeats 4000000 in
theorem expert4_keeps_main_arg10 : after (expert4 (F := Ideal)) W (Proc.devRef .tc main_arg10) = W (Proc.devRef .tc main_arg10) := by
  after_results_simp

set_option maxRecDepth 8192 in
set_option maxHeartbeats 4000000 in
theorem expert4_keeps_main_v27 : after (expert4 (F := Ideal)) W (Proc.devRef .tc main_v27) = W (Proc.devRef .tc main_v27) := by
  after_results_simp

set_option maxRecDepth 8192 in
set_option maxHeartbeats 4000000 in
theorem expert4_keeps_main_v28 : after (expert4 (F := Ideal)) W (Proc.devRef .tc main_v28) = W (Proc.devRef .tc main_v28) := by
  after_results_simp

end Cert.ReferenceIdeal.Stretch

end
-- ==== Proof.RefStretch5.lean ====
/-
  Expert 5's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert5_out :
    after (expert5 (F := Ideal)) W (Proc.devRef .tc main_v269) = expertStep (W (Proc.devRef .tc main_v229)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 5
        (by decide) (by decide) (by decide) (by decide) (by decide) (by decide) (by decide) (by decide)) 5 := by
  after_results_simp
  rfl

set_option maxRecDepth 8192 in
set_option maxHeartbeats 4000000 in
theorem expert5_keeps_main_arg0 : after (expert5 (F := Ideal)) W (Proc.devRef .tc main_arg0) = W (Proc.devRef .tc main_arg0) := by
  after_results_simp

set_option maxRecDepth 8192 in
set_option maxHeartbeats 4000000 in
theorem expert5_keeps_main_arg1 : after (expert5 (F := Ideal)) W (Proc.devRef .tc main_arg1) = W (Proc.devRef .tc main_arg1) := by
  after_results_simp

set_option maxRecDepth 8192 in
set_option maxHeartbeats 4000000 in
theorem expert5_keeps_main_arg2 : after (expert5 (F := Ideal)) W (Proc.devRef .tc main_arg2) = W (Proc.devRef .tc main_arg2) := by
  after_results_simp

set_option maxRecDepth 8192 in
set_option maxHeartbeats 4000000 in
theorem expert5_keeps_main_arg3 : after (expert5 (F := Ideal)) W (Proc.devRef .tc main_arg3) = W (Proc.devRef .tc main_arg3) := by
  after_results_simp

set_option maxRecDepth 8192 in
set_option maxHeartbeats 4000000 in
theorem expert5_keeps_main_arg4 : after (expert5 (F := Ideal)) W (Proc.devRef .tc main_arg4) = W (Proc.devRef .tc main_arg4) := by
  after_results_simp

set_option maxRecDepth 8192 in
set_option maxHeartbeats 4000000 in
theorem expert5_keeps_main_arg5 : after (expert5 (F := Ideal)) W (Proc.devRef .tc main_arg5) = W (Proc.devRef .tc main_arg5) := by
  after_results_simp

set_option maxRecDepth 8192 in
set_option maxHeartbeats 4000000 in
theorem expert5_keeps_main_arg6 : after (expert5 (F := Ideal)) W (Proc.devRef .tc main_arg6) = W (Proc.devRef .tc main_arg6) := by
  after_results_simp

set_option maxRecDepth 8192 in
set_option maxHeartbeats 4000000 in
theorem expert5_keeps_main_arg7 : after (expert5 (F := Ideal)) W (Proc.devRef .tc main_arg7) = W (Proc.devRef .tc main_arg7) := by
  after_results_simp

set_option maxRecDepth 8192 in
set_option maxHeartbeats 4000000 in
theorem expert5_keeps_main_arg8 : after (expert5 (F := Ideal)) W (Proc.devRef .tc main_arg8) = W (Proc.devRef .tc main_arg8) := by
  after_results_simp

set_option maxRecDepth 8192 in
set_option maxHeartbeats 4000000 in
theorem expert5_keeps_main_arg9 : after (expert5 (F := Ideal)) W (Proc.devRef .tc main_arg9) = W (Proc.devRef .tc main_arg9) := by
  after_results_simp

set_option maxRecDepth 8192 in
set_option maxHeartbeats 4000000 in
theorem expert5_keeps_main_arg10 : after (expert5 (F := Ideal)) W (Proc.devRef .tc main_arg10) = W (Proc.devRef .tc main_arg10) := by
  after_results_simp

set_option maxRecDepth 8192 in
set_option maxHeartbeats 4000000 in
theorem expert5_keeps_main_v27 : after (expert5 (F := Ideal)) W (Proc.devRef .tc main_v27) = W (Proc.devRef .tc main_v27) := by
  after_results_simp

set_option maxRecDepth 8192 in
set_option maxHeartbeats 4000000 in
theorem expert5_keeps_main_v28 : after (expert5 (F := Ideal)) W (Proc.devRef .tc main_v28) = W (Proc.devRef .tc main_v28) := by
  after_results_simp

end Cert.ReferenceIdeal.Stretch

end
-- ==== Proof.RefStretch6.lean ====
/-
  Expert 6's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert6_out :
    after (expert6 (F := Ideal)) W (Proc.devRef .tc main_v309) = expertStep (W (Proc.devRef .tc main_v269)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 6
        (by decide) (by decide) (by decide) (by decide) (by decide) (by decide) (by decide) (by decide)) 6 := by
  after_results_simp
  rfl

set_option maxRecDepth 8192 in
set_option maxHeartbeats 4000000 in
theorem expert6_keeps_main_arg0 : after (expert6 (F := Ideal)) W (Proc.devRef .tc main_arg0) = W (Proc.devRef .tc main_arg0) := by
  after_results_simp

set_option maxRecDepth 8192 in
set_option maxHeartbeats 4000000 in
theorem expert6_keeps_main_arg1 : after (expert6 (F := Ideal)) W (Proc.devRef .tc main_arg1) = W (Proc.devRef .tc main_arg1) := by
  after_results_simp

set_option maxRecDepth 8192 in
set_option maxHeartbeats 4000000 in
theorem expert6_keeps_main_arg2 : after (expert6 (F := Ideal)) W (Proc.devRef .tc main_arg2) = W (Proc.devRef .tc main_arg2) := by
  after_results_simp

set_option maxRecDepth 8192 in
set_option maxHeartbeats 4000000 in
theorem expert6_keeps_main_arg3 : after (expert6 (F := Ideal)) W (Proc.devRef .tc main_arg3) = W (Proc.devRef .tc main_arg3) := by
  after_results_simp

set_option maxRecDepth 8192 in
set_option maxHeartbeats 4000000 in
theorem expert6_keeps_main_arg4 : after (expert6 (F := Ideal)) W (Proc.devRef .tc main_arg4) = W (Proc.devRef .tc main_arg4) := by
  after_results_simp

set_option maxRecDepth 8192 in
set_option maxHeartbeats 4000000 in
theorem expert6_keeps_main_arg5 : after (expert6 (F := Ideal)) W (Proc.devRef .tc main_arg5) = W (Proc.devRef .tc main_arg5) := by
  after_results_simp

set_option maxRecDepth 8192 in
set_option maxHeartbeats 4000000 in
theorem expert6_keeps_main_arg6 : after (expert6 (F := Ideal)) W (Proc.devRef .tc main_arg6) = W (Proc.devRef .tc main_arg6) := by
  after_results_simp

set_option maxRecDepth 8192 in
set_option maxHeartbeats 4000000 in
theorem expert6_keeps_main_arg7 : after (expert6 (F := Ideal)) W (Proc.devRef .tc main_arg7) = W (Proc.devRef .tc main_arg7) := by
  after_results_simp

set_option maxRecDepth 8192 in
set_option maxHeartbeats 4000000 in
theorem expert6_keeps_main_arg8 : after (expert6 (F := Ideal)) W (Proc.devRef .tc main_arg8) = W (Proc.devRef .tc main_arg8) := by
  after_results_simp

set_option maxRecDepth 8192 in
set_option maxHeartbeats 4000000 in
theorem expert6_keeps_main_arg9 : after (expert6 (F := Ideal)) W (Proc.devRef .tc main_arg9) = W (Proc.devRef .tc main_arg9) := by
  after_results_simp

set_option maxRecDepth 8192 in
set_option maxHeartbeats 4000000 in
theorem expert6_keeps_main_arg10 : after (expert6 (F := Ideal)) W (Proc.devRef .tc main_arg10) = W (Proc.devRef .tc main_arg10) := by
  after_results_simp

set_option maxRecDepth 8192 in
set_option maxHeartbeats 4000000 in
theorem expert6_keeps_main_v27 : after (expert6 (F := Ideal)) W (Proc.devRef .tc main_v27) = W (Proc.devRef .tc main_v27) := by
  after_results_simp

set_option maxRecDepth 8192 in
set_option maxHeartbeats 4000000 in
theorem expert6_keeps_main_v28 : after (expert6 (F := Ideal)) W (Proc.devRef .tc main_v28) = W (Proc.devRef .tc main_v28) := by
  after_results_simp

end Cert.ReferenceIdeal.Stretch

end
-- ==== Proof.RefStretch7.lean ====
/-
  Expert 7's stretch of the reference, evaluated from any memory: its last buffer holds the running sum plus the
  expert's gated output, a function of the running sum before it, the labels, the batch input and the six parameter
  arrays as that memory holds them; the arguments, the batch input and the KL scalar are not written.
-/
import proofs.«162275_j30107720745799_1_alg».proof.Proof.RefOps
import proofs.«162275_j30107720745799_1_alg».proof.Proof.RefTerm

noncomputable section

namespace Cert.ReferenceIdeal.Stretch

open Cert.ReferenceIdeal Cert.ReferenceIdeal.Gen Idealize.ShloMosaic Idealize.ShloMosaic.TcCoe Idealize.SL.Sem Idealize.ShloMosaic.StableHlo

variable (W : Valuation τ sig (Elt Ideal))

set_option maxRecDepth 8192 in
set_option maxHeartbeats 4000000 in
/-- After the stretch the new running sum is one accumulation step over the old one. -/
theorem expert7_out :
    after (expert7 (F := Ideal)) W (Proc.devRef .tc main_v349) = expertStep (W (Proc.devRef .tc main_v309)) (W (Proc.devRef .tc main_arg1))
      (expertNet (W (Proc.devRef .tc main_v28)) (W (Proc.devRef .tc main_arg5)) (W (Proc.devRef .tc main_arg6)) (W (Proc.devRef .tc main_arg7))
        (W (Proc.devRef .tc main_arg8)) (W (Proc.devRef .tc main_arg9)) (W (Proc.devRef .tc main_arg10)) 7
        (by decide) (by decide) (by decide) (by decide) (by decide) (by decide) (by decide) (by decide)) 7 := by
  after_results_simp
  rfl

set_option maxRecDepth 8192 in
set_option maxHeartbeats 4000000 in
theorem expert7_keeps_main_arg0 : after (expert7 (F := Ideal)) W (Proc.devRef .tc main_arg0) = W (Proc.devRef .tc main_arg0) := by
  after_results_simp

set_option maxRecDepth 8192 in
set_option maxHeartbeats 4000000 in
theorem expert7_keeps_main_arg1 : after (expert7 (F := Ideal)) W (Proc.devRef .tc main_arg1) = W (Proc.devRef .tc main_arg1) := by
  after_results_simp

set_option maxRecDepth 8192 in
set_option maxHeartbeats 4000000 in
theorem expert7_keeps_main_arg2 : after (expert7 (F := Ideal)) W (Proc.devRef .tc main_arg2) = W (Proc.devRef .tc main_arg2) := by
  after_results_simp

set_option maxRecDepth 8192 in
set_option maxHeartbeats 4000000 in
theorem expert7_keeps_main_arg3 : after (expert7 (F := Ideal)) W (Proc.devRef .tc main_arg3) = W (Proc.devRef .tc main_arg3) := by
  after_results_simp

set_option maxRecDepth 8192 in
set_option maxHeartbeats 4000000 in
theorem expert7_keeps_main_arg4 : after (expert7 (F := Ideal)) W (Proc.devRef .tc main_arg4) = W (Proc.devRef .tc main_arg4) := by
  after_results_simp

set_option maxRecDepth 8192 in
set_option maxHeartbeats 4000000 in
theorem expert7_keeps_main_arg5 : after (expert7 (F := Ideal)) W (Proc.devRef .tc main_arg5) = W (Proc.devRef .tc main_arg5) := by
  after_results_simp

set_option maxRecDepth 8192 in
set_option maxHeartbeats 4000000 in
theorem expert7_keeps_main_arg6 : after (expert7 (F := Ideal)) W (Proc.devRef .tc main_arg6) = W (Proc.devRef .tc main_arg6) := by
  after_results_simp

set_option maxRecDepth 8192 in
set_option maxHeartbeats 4000000 in
theorem expert7_keeps_main_arg7 : after (expert7 (F := Ideal)) W (Proc.devRef .tc main_arg7) = W (Proc.devRef .tc main_arg7) := by
  after_results_simp

set_option maxRecDepth 8192 in
set_option maxHeartbeats 4000000 in
theorem expert7_keeps_main_arg8 : after (expert7 (F := Ideal)) W (Proc.devRef .tc main_arg8) = W (Proc.devRef .tc main_arg8) := by
  after_results_simp

set_option maxRecDepth 8192 in
set_option maxHeartbeats 4000000 in
theorem expert7_keeps_main_arg9 : after (expert7 (F := Ideal)) W (Proc.devRef .tc main_arg9) = W (Proc.devRef .tc main_arg9) := by
  after_results_simp

set_option maxRecDepth 8192 in
set_option maxHeartbeats 4000000 in
theorem expert7_keeps_main_arg10 : after (expert7 (F := Ideal)) W (Proc.devRef .tc main_arg10) = W (Proc.devRef .tc main_arg10) := by
  after_results_simp

set_option maxRecDepth 8192 in
set_option maxHeartbeats 4000000 in
theorem expert7_keeps_main_v27 : after (expert7 (F := Ideal)) W (Proc.devRef .tc main_v27) = W (Proc.devRef .tc main_v27) := by
  after_results_simp

set_option maxRecDepth 8192 in
set_option maxHeartbeats 4000000 in
theorem expert7_keeps_main_v28 : after (expert7 (F := Ideal)) W (Proc.devRef .tc main_v28) = W (Proc.devRef .tc main_v28) := by
  after_results_simp

end Cert.ReferenceIdeal.Stretch

end
-- ==== Proof.RefRun.lean ====
/-
  The reference's run, assembled from the stretches.

  The memory after the whole line is the memory after the last stretch from the memory after the one before it, and
  so on down to the launch memory. Every stretch leaves the arguments, the batch input and the KL scalar as it
  found them, so each expert's step reads the same batch input and the launch contents of the parameters, and the
  last running sum is the nested term of the launch contents.
-/
import proofs.«162275_j30107720745799_1_alg».proof.Proof.RefMain
import proofs.«162275_j30107720745799_1_alg».proof.Proof.RefMix
import proofs.«162275_j30107720745799_1_alg».proof.Proof.RefStretchG
import proofs.«162275_j30107720745799_1_alg».proof.Proof.RefStretch0
import proofs.«162275_j30107720745799_1_alg».proof.Proof.RefStretch1
import proofs.«162275_j30107720745799_1_alg».proof.Proof.RefStretch2
import proofs.«162275_j30107720745799_1_alg».proof.Proof.RefStretch3
import proofs.«162275_j30107720745799_1_alg».proof.Proof.RefStretch4
import proofs.«162275_j30107720745799_1_alg».proof.Proof.RefStretch5
import proofs.«162275_j30107720745799_1_alg».proof.Proof.RefStretch6
import proofs.«162275_j30107720745799_1_alg».proof.Proof.RefStretch7

noncomputable section

namespace Cert.ReferenceIdeal.Stretch

open Cert.ReferenceIdeal Cert.ReferenceIdeal.Gen Idealize.ShloMosaic Idealize.ShloMosaic.TcCoe Idealize.SL.Sem Idealize.ShloMosaic.StableHlo

/-- What a memory W reached from the launch memory V still holds: the arguments as launched, the batch input and
    the KL scalar as functions of them. -/
structure Kept (W V : Valuation τ sig (Elt Ideal)) : Prop where
  arg0 : W (Proc.devRef .tc main_arg0) = V (Proc.devRef .tc main_arg0)
  arg1 : W (Proc.devRef .tc main_arg1) = V (Proc.devRef .tc main_arg1)
  arg2 : W (Proc.devRef .tc main_arg2) = V (Proc.devRef .tc main_arg2)
  arg3 : W (Proc.devRef .tc main_arg3) = V (Proc.devRef .tc main_arg3)
  arg4 : W (Proc.devRef .tc main_arg4) = V (Proc.devRef .tc main_arg4)
  arg5 : W (Proc.devRef .tc main_arg5) = V (Proc.devRef .tc main_arg5)
  arg6 : W (Proc.devRef .tc main_arg6) = V (Proc.devRef .tc main_arg6)
  arg7 : W (Proc.devRef .tc main_arg7) = V (Proc.devRef .tc main_arg7)
  arg8 : W (Proc.devRef .tc main_arg8) = V (Proc.devRef .tc main_arg8)
  arg9 : W (Proc.devRef .tc main_arg9) = V (Proc.devRef .tc main_arg9)
  arg10 : W (Proc.devRef .tc main_arg10) = V (Proc.devRef .tc main_arg10)
  input : W (Proc.devRef .tc main_v28) = batchInput (V (Proc.devRef .tc main_arg0)) (V (Proc.devRef .tc main_arg1)) (V (Proc.devRef .tc main_arg2)) (V (Proc.devRef .tc main_arg3)) (V (Proc.devRef .tc main_arg4))
  kl : W (Proc.devRef .tc main_v27) = klTerm (V (Proc.devRef .tc main_arg1)) (V (Proc.devRef .tc main_arg3)) (V (Proc.devRef .tc main_arg4))

theorem kept_glue (V : Valuation τ sig (Elt Ideal)) : Kept (after (glue (F := Ideal)) V) V :=
  ⟨glue_keeps_main_arg0 V, glue_keeps_main_arg1 V, glue_keeps_main_arg2 V, glue_keeps_main_arg3 V, glue_keeps_main_arg4 V, glue_keeps_main_arg5 V, glue_keeps_main_arg6 V, glue_keeps_main_arg7 V, glue_keeps_main_arg8 V, glue_keeps_main_arg9 V, glue_keeps_main_arg10 V, glue_input V, glue_kl V⟩

theorem kept_expert0 {W V : Valuation τ sig (Elt Ideal)} (h : Kept W V) : Kept (after (expert0 (F := Ideal)) W) V :=
  ⟨(expert0_keeps_main_arg0 W).trans h.arg0, (expert0_keeps_main_arg1 W).trans h.arg1, (expert0_keeps_main_arg2 W).trans h.arg2, (expert0_keeps_main_arg3 W).trans h.arg3, (expert0_keeps_main_arg4 W).trans h.arg4, (expert0_keeps_main_arg5 W).trans h.arg5, (expert0_keeps_main_arg6 W).trans h.arg6, (expert0_keeps_main_arg7 W).trans h.arg7, (expert0_keeps_main_arg8 W).trans h.arg8, (expert0_keeps_main_arg9 W).trans h.arg9, (expert0_keeps_main_arg10 W).trans h.arg10, (expert0_keeps_main_v28 W).trans h.input, (expert0_keeps_main_v27 W).trans h.kl⟩

theorem step_expert0 {W V : Valuation τ sig (Elt Ideal)} (h : Kept W V) :
    after (expert0 (F := Ideal)) W (Proc.devRef .tc main_v69) = expertStep (W (Proc.devRef .tc main_v29)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 0
        (by decide) (by decide) (by decide) (by decide) (by decide) (by decide) (by decide) (by decide)) 0 := by
  rw [expert0_out, h.arg1, h.input, h.arg5, h.arg6, h.arg7, h.arg8, h.arg9, h.arg10]

theorem kept_expert1 {W V : Valuation τ sig (Elt Ideal)} (h : Kept W V) : Kept (after (expert1 (F := Ideal)) W) V :=
  ⟨(expert1_keeps_main_arg0 W).trans h.arg0, (expert1_keeps_main_arg1 W).trans h.arg1, (expert1_keeps_main_arg2 W).trans h.arg2, (expert1_keeps_main_arg3 W).trans h.arg3, (expert1_keeps_main_arg4 W).trans h.arg4, (expert1_keeps_main_arg5 W).trans h.arg5, (expert1_keeps_main_arg6 W).trans h.arg6, (expert1_keeps_main_arg7 W).trans h.arg7, (expert1_keeps_main_arg8 W).trans h.arg8, (expert1_keeps_main_arg9 W).trans h.arg9, (expert1_keeps_main_arg10 W).trans h.arg10, (expert1_keeps_main_v28 W).trans h.input, (expert1_keeps_main_v27 W).trans h.kl⟩

theorem step_expert1 {W V : Valuation τ sig (Elt Ideal)} (h : Kept W V) :
    after (expert1 (F := Ideal)) W (Proc.devRef .tc main_v109) = expertStep (W (Proc.devRef .tc main_v69)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 1
        (by decide) (by decide) (by decide) (by decide) (by decide) (by decide) (by decide) (by decide)) 1 := by
  rw [expert1_out, h.arg1, h.input, h.arg5, h.arg6, h.arg7, h.arg8, h.arg9, h.arg10]

theorem kept_expert2 {W V : Valuation τ sig (Elt Ideal)} (h : Kept W V) : Kept (after (expert2 (F := Ideal)) W) V :=
  ⟨(expert2_keeps_main_arg0 W).trans h.arg0, (expert2_keeps_main_arg1 W).trans h.arg1, (expert2_keeps_main_arg2 W).trans h.arg2, (expert2_keeps_main_arg3 W).trans h.arg3, (expert2_keeps_main_arg4 W).trans h.arg4, (expert2_keeps_main_arg5 W).trans h.arg5, (expert2_keeps_main_arg6 W).trans h.arg6, (expert2_keeps_main_arg7 W).trans h.arg7, (expert2_keeps_main_arg8 W).trans h.arg8, (expert2_keeps_main_arg9 W).trans h.arg9, (expert2_keeps_main_arg10 W).trans h.arg10, (expert2_keeps_main_v28 W).trans h.input, (expert2_keeps_main_v27 W).trans h.kl⟩

theorem step_expert2 {W V : Valuation τ sig (Elt Ideal)} (h : Kept W V) :
    after (expert2 (F := Ideal)) W (Proc.devRef .tc main_v149) = expertStep (W (Proc.devRef .tc main_v109)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 2
        (by decide) (by decide) (by decide) (by decide) (by decide) (by decide) (by decide) (by decide)) 2 := by
  rw [expert2_out, h.arg1, h.input, h.arg5, h.arg6, h.arg7, h.arg8, h.arg9, h.arg10]

theorem kept_expert3 {W V : Valuation τ sig (Elt Ideal)} (h : Kept W V) : Kept (after (expert3 (F := Ideal)) W) V :=
  ⟨(expert3_keeps_main_arg0 W).trans h.arg0, (expert3_keeps_main_arg1 W).trans h.arg1, (expert3_keeps_main_arg2 W).trans h.arg2, (expert3_keeps_main_arg3 W).trans h.arg3, (expert3_keeps_main_arg4 W).trans h.arg4, (expert3_keeps_main_arg5 W).trans h.arg5, (expert3_keeps_main_arg6 W).trans h.arg6, (expert3_keeps_main_arg7 W).trans h.arg7, (expert3_keeps_main_arg8 W).trans h.arg8, (expert3_keeps_main_arg9 W).trans h.arg9, (expert3_keeps_main_arg10 W).trans h.arg10, (expert3_keeps_main_v28 W).trans h.input, (expert3_keeps_main_v27 W).trans h.kl⟩

theorem step_expert3 {W V : Valuation τ sig (Elt Ideal)} (h : Kept W V) :
    after (expert3 (F := Ideal)) W (Proc.devRef .tc main_v189) = expertStep (W (Proc.devRef .tc main_v149)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 3
        (by decide) (by decide) (by decide) (by decide) (by decide) (by decide) (by decide) (by decide)) 3 := by
  rw [expert3_out, h.arg1, h.input, h.arg5, h.arg6, h.arg7, h.arg8, h.arg9, h.arg10]

theorem kept_expert4 {W V : Valuation τ sig (Elt Ideal)} (h : Kept W V) : Kept (after (expert4 (F := Ideal)) W) V :=
  ⟨(expert4_keeps_main_arg0 W).trans h.arg0, (expert4_keeps_main_arg1 W).trans h.arg1, (expert4_keeps_main_arg2 W).trans h.arg2, (expert4_keeps_main_arg3 W).trans h.arg3, (expert4_keeps_main_arg4 W).trans h.arg4, (expert4_keeps_main_arg5 W).trans h.arg5, (expert4_keeps_main_arg6 W).trans h.arg6, (expert4_keeps_main_arg7 W).trans h.arg7, (expert4_keeps_main_arg8 W).trans h.arg8, (expert4_keeps_main_arg9 W).trans h.arg9, (expert4_keeps_main_arg10 W).trans h.arg10, (expert4_keeps_main_v28 W).trans h.input, (expert4_keeps_main_v27 W).trans h.kl⟩

theorem step_expert4 {W V : Valuation τ sig (Elt Ideal)} (h : Kept W V) :
    after (expert4 (F := Ideal)) W (Proc.devRef .tc main_v229) = expertStep (W (Proc.devRef .tc main_v189)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 4
        (by decide) (by decide) (by decide) (by decide) (by decide) (by decide) (by decide) (by decide)) 4 := by
  rw [expert4_out, h.arg1, h.input, h.arg5, h.arg6, h.arg7, h.arg8, h.arg9, h.arg10]

theorem kept_expert5 {W V : Valuation τ sig (Elt Ideal)} (h : Kept W V) : Kept (after (expert5 (F := Ideal)) W) V :=
  ⟨(expert5_keeps_main_arg0 W).trans h.arg0, (expert5_keeps_main_arg1 W).trans h.arg1, (expert5_keeps_main_arg2 W).trans h.arg2, (expert5_keeps_main_arg3 W).trans h.arg3, (expert5_keeps_main_arg4 W).trans h.arg4, (expert5_keeps_main_arg5 W).trans h.arg5, (expert5_keeps_main_arg6 W).trans h.arg6, (expert5_keeps_main_arg7 W).trans h.arg7, (expert5_keeps_main_arg8 W).trans h.arg8, (expert5_keeps_main_arg9 W).trans h.arg9, (expert5_keeps_main_arg10 W).trans h.arg10, (expert5_keeps_main_v28 W).trans h.input, (expert5_keeps_main_v27 W).trans h.kl⟩

theorem step_expert5 {W V : Valuation τ sig (Elt Ideal)} (h : Kept W V) :
    after (expert5 (F := Ideal)) W (Proc.devRef .tc main_v269) = expertStep (W (Proc.devRef .tc main_v229)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 5
        (by decide) (by decide) (by decide) (by decide) (by decide) (by decide) (by decide) (by decide)) 5 := by
  rw [expert5_out, h.arg1, h.input, h.arg5, h.arg6, h.arg7, h.arg8, h.arg9, h.arg10]

theorem kept_expert6 {W V : Valuation τ sig (Elt Ideal)} (h : Kept W V) : Kept (after (expert6 (F := Ideal)) W) V :=
  ⟨(expert6_keeps_main_arg0 W).trans h.arg0, (expert6_keeps_main_arg1 W).trans h.arg1, (expert6_keeps_main_arg2 W).trans h.arg2, (expert6_keeps_main_arg3 W).trans h.arg3, (expert6_keeps_main_arg4 W).trans h.arg4, (expert6_keeps_main_arg5 W).trans h.arg5, (expert6_keeps_main_arg6 W).trans h.arg6, (expert6_keeps_main_arg7 W).trans h.arg7, (expert6_keeps_main_arg8 W).trans h.arg8, (expert6_keeps_main_arg9 W).trans h.arg9, (expert6_keeps_main_arg10 W).trans h.arg10, (expert6_keeps_main_v28 W).trans h.input, (expert6_keeps_main_v27 W).trans h.kl⟩

theorem step_expert6 {W V : Valuation τ sig (Elt Ideal)} (h : Kept W V) :
    after (expert6 (F := Ideal)) W (Proc.devRef .tc main_v309) = expertStep (W (Proc.devRef .tc main_v269)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 6
        (by decide) (by decide) (by decide) (by decide) (by decide) (by decide) (by decide) (by decide)) 6 := by
  rw [expert6_out, h.arg1, h.input, h.arg5, h.arg6, h.arg7, h.arg8, h.arg9, h.arg10]

theorem kept_expert7 {W V : Valuation τ sig (Elt Ideal)} (h : Kept W V) : Kept (after (expert7 (F := Ideal)) W) V :=
  ⟨(expert7_keeps_main_arg0 W).trans h.arg0, (expert7_keeps_main_arg1 W).trans h.arg1, (expert7_keeps_main_arg2 W).trans h.arg2, (expert7_keeps_main_arg3 W).trans h.arg3, (expert7_keeps_main_arg4 W).trans h.arg4, (expert7_keeps_main_arg5 W).trans h.arg5, (expert7_keeps_main_arg6 W).trans h.arg6, (expert7_keeps_main_arg7 W).trans h.arg7, (expert7_keeps_main_arg8 W).trans h.arg8, (expert7_keeps_main_arg9 W).trans h.arg9, (expert7_keeps_main_arg10 W).trans h.arg10, (expert7_keeps_main_v28 W).trans h.input, (expert7_keeps_main_v27 W).trans h.kl⟩

theorem step_expert7 {W V : Valuation τ sig (Elt Ideal)} (h : Kept W V) :
    after (expert7 (F := Ideal)) W (Proc.devRef .tc main_v349) = expertStep (W (Proc.devRef .tc main_v309)) (V (Proc.devRef .tc main_arg1))
      (expertNet (batchInput (V (Proc.devRef .tc main_arg0)) (V (Proc.devRef .tc main_arg1)) (V (Proc.devRef .tc main_arg2)) (V (Proc.devRef .tc main_arg3)) (V (Proc.devRef .tc main_arg4)))
        (V (Proc.devRef .tc main_arg5)) (V (Proc.devRef .tc main_arg6)) (V (Proc.devRef .tc main_arg7)) (V (Proc.devRef .tc main_arg8)) (V (Proc.devRef .tc main_arg9)) (V (Proc.devRef .tc main_arg10)) 7
        (by decide) (by decide) (by decide) (by decide) (by decide) (by decide) (by decide) (by decide)) 7 := by
  rw [expert7_out, h.arg1, h.input, h.arg5, h.arg6, h.arg7, h.arg8, h.arg9, h.arg10]

/-- The memory after the whole line, stretch by stretch. -/
theorem after_ops (V : Valuation τ sig (Elt Ideal)) : after (ops (F := Ideal)) V = (after (expert7 (F := Ideal)) (after (expert6 (F := Ideal)) (after (expert5 (F := Ideal)) (after (expert4 (F := Ideal)) (after (expert3 (F := Ideal)) (after (expert2 (F := Ideal)) (after (expert1 (F := Ideal)) (after (expert0 (F := Ideal)) (after (glue (F := Ideal)) V))))))))) := by
  simp only [ops, Stretches.after_append]

/-- After the whole line: the first result is the nested term of the launch contents, the second the KL scalar, the
    arguments as launched. -/
theorem after_ops_results (V : Valuation τ sig (Elt Ideal)) :
    after (ops (F := Ideal)) V (Proc.devRef .tc main_v349) = refMix (batchInput (V (Proc.devRef .tc main_arg0)) (V (Proc.devRef .tc main_arg1)) (V (Proc.devRef .tc main_arg2)) (V (Proc.devRef .tc main_arg3)) (V (Proc.devRef .tc main_arg4)))
        (V (Proc.devRef .tc main_arg1)) (V (Proc.devRef .tc main_arg5)) (V (Proc.devRef .tc main_arg6)) (V (Proc.devRef .tc main_arg7)) (V (Proc.devRef .tc main_arg8)) (V (Proc.devRef .tc main_arg9)) (V (Proc.devRef .tc main_arg10))
      ∧ after (ops (F := Ideal)) V (Proc.devRef .tc main_v27) = klTerm (V (Proc.devRef .tc main_arg1)) (V (Proc.devRef .tc main_arg3)) (V (Proc.devRef .tc main_arg4))
      ∧ after (ops (F := Ideal)) V (Proc.devRef .tc main_arg0) = V (Proc.devRef .tc main_arg0)
      ∧ after (ops (F := Ideal)) V (Proc.devRef .tc main_arg1) = V (Proc.devRef .tc main_arg1)
      ∧ after (ops (F := Ideal)) V (Proc.devRef .tc main_arg2) = V (Proc.devRef .tc main_arg2)
      ∧ after (ops (F := Ideal)) V (Proc.devRef .tc main_arg3) = V (Proc.devRef .tc main_arg3)
      ∧ after (ops (F := Ideal)) V (Proc.devRef .tc main_arg4) = V (Proc.devRef .tc main_arg4)
      ∧ after (ops (F := Ideal)) V (Proc.devRef .tc main_arg5) = V (Proc.devRef .tc main_arg5)
      ∧ after (ops (F := Ideal)) V (Proc.devRef .tc main_arg6) = V (Proc.devRef .tc main_arg6)
      ∧ after (ops (F := Ideal)) V (Proc.devRef .tc main_arg7) = V (Proc.devRef .tc main_arg7)
      ∧ after (ops (F := Ideal)) V (Proc.devRef .tc main_arg8) = V (Proc.devRef .tc main_arg8)
      ∧ after (ops (F := Ideal)) V (Proc.devRef .tc main_arg9) = V (Proc.devRef .tc main_arg9)
      ∧ after (ops (F := Ideal)) V (Proc.devRef .tc main_arg10) = V (Proc.devRef .tc main_arg10) := by
  have k0 := kept_glue V
  have k1 := kept_expert0 k0
  have k2 := kept_expert1 k1
  have k3 := kept_expert2 k2
  have k4 := kept_expert3 k3
  have k5 := kept_expert4 k4
  have k6 := kept_expert5 k5
  have k7 := kept_expert6 k6
  have k8 := kept_expert7 k7
  have a0 := glue_zero V
  have a1 := step_expert0 k0
  rw [a0] at a1
  have a2 := step_expert1 k1
  rw [a1] at a2
  have a3 := step_expert2 k2
  rw [a2] at a3
  have a4 := step_expert3 k3
  rw [a3] at a4
  have a5 := step_expert4 k4
  rw [a4] at a5
  have a6 := step_expert5 k5
  rw [a5] at a6
  have a7 := step_expert6 k6
  rw [a6] at a7
  have a8 := step_expert7 k7
  rw [a7] at a8
  rw [after_ops]
  exact ⟨a8, k8.kl, k8.arg0, k8.arg1, k8.arg2, k8.arg3, k8.arg4, k8.arg5, k8.arg6, k8.arg7, k8.arg8, k8.arg9, k8.arg10⟩

/-- The reference's run, read: every weakly fair execution terminates with the first result at the nested term of the
    arguments, the second at the KL scalar, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v349) = refMix
          (batchInput (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg1)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10))
      ∧ r.2.mem ((c.tc : Thread nD τ).loc main_v27) = klTerm (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    obtain ⟨h0, h1, g0, g1, g2, g3, g4, g5, g6, g7, g8, g9, g10⟩ := after_ops_results (launchContents m c)
    exact ⟨(h c main_v349).trans h0, (h c main_v27).trans h1, (h c main_arg0).trans g0, (h c main_arg1).trans g1, (h c main_arg2).trans g2, (h c main_arg3).trans g3, (h c main_arg4).trans g4, (h c main_arg5).trans g5, (h c main_arg6).trans g6, (h c main_arg7).trans g7, (h c main_arg8).trans g8, (h c main_arg9).trans g9, (h c main_arg10).trans g10⟩)
    (run_after m ρ)

end Cert.ReferenceIdeal.Stretch

end
-- ==== Proof.KTerm.lean ====
/-
  The kernel body's stored value as eight nested copies of one term.

  At a grid point the body holds a tile x of 4096 batch rows, their labels, and the six parameter arrays whole. For
  expert e it loads W0[e], b0[e], Wh[0,e], bh[0,e], Wh[1,e], bh[1,e], Wo[e], bo[e] through rectangles at offset e,
  runs three rectified dense layers and the output layer on the tile (blockNet), and adds the result to the running
  sum where the label is e (blockStep). What it stores is the eight steps nested, expert 0 innermost, over zero.
-/
import proofs.«162275_j30107720745799_1_alg».proof.Proof.Gen.KernelIdeal.Frame
import Idealize.ShloMosaic.PureOps.Ideal
import Idealize.ShloMosaic.Lib.Pipeline.Value

noncomputable section

namespace Cert.KernelIdeal.Tile

open Cert.KernelIdeal Cert.KernelIdeal.Gen Idealize.ShloMosaic Idealize.ShloMosaic.TcCoe

/-- A bias row [1, 256] spread down the tile's rows, through the vector form the body gives it. -/
def tileBias (b : FVec Ideal S256 .f32) : FVec Ideal S4096x256 .f32 :=
  broadcastTo S4096x256 (shapeCast S1x256 b shapeCasts_S256_S1x256) broadcasts_S1x256_S4096x256

/-- The zero a rectifier compares with, splat over a hidden layer of the tile. -/
def tileZero : FVec Ideal S4096x256 .f32 := broadcast S4096x256 (Scalar.ofBits (F := Ideal) .f32 0x00000000#32)

/-- Expert e's output on the tile, its parameters loaded at offset e. -/
def blockNet (x : FVec Ideal S4096x67 .bf16) (x2 : Vec Ideal S8x67x256 .bf16) (x3 : Vec Ideal S8x256 .f32)
    (x4 : Vec Ideal S2x8x256x256 .bf16) (x5 : Vec Ideal S2x8x256 .f32) (x6 : Vec Ideal S8x256x1 .bf16) (x7 : Vec Ideal S8x1 .f32)
    (e : ℕ)
    (i0 : ∀ a, (![e, 0, 0] : Fin 3 → Nat) a + S1x67x256.size a ≤ S8x67x256.size a)
    (i1 : ∀ a, (![e, 0] : Fin 2 → Nat) a + S1x256.size a ≤ S8x256.size a)
    (i2 : ∀ a, (![0, e, 0, 0] : Fin 4 → Nat) a + S1x1x256x256.size a ≤ S2x8x256x256.size a)
    (i3 : ∀ a, (![0, e, 0] : Fin 3 → Nat) a + S1x1x256.size a ≤ S2x8x256.size a)
    (i4 : ∀ a, (![1, e, 0, 0] : Fin 4 → Nat) a + S1x1x256x256.size a ≤ S2x8x256x256.size a)
    (i5 : ∀ a, (![1, e, 0] : Fin 3 → Nat) a + S1x1x256.size a ≤ S2x8x256.size a)
    (i6 : ∀ a, (![e, 0, 0] : Fin 3 → Nat) a + S1x256x1.size a ≤ S8x256x1.size a)
    (i7 : ∀ a, (![e, 0] : Fin 2 → Nat) a + S1x1.size a ≤ S8x1.size a) : FVec Ideal S4096x1 .f32 :=
  addf (matmul dot_S4096x256_S256x1_S4096x1_1_0_0_1_n_n none
      (truncf .bf16 (maximumf (addf (matmul dot_S4096x256_S256x256_S4096x256_1_0_0_1_n_n none
          (truncf .bf16 (maximumf (addf (matmul dot_S4096x256_S256x256_S4096x256_1_0_0_1_n_n none
              (truncf .bf16 (maximumf (addf (matmul dot_S4096x67_S67x256_S4096x256_1_0_0_1_n_n none x
                    (shapeCast S67x256 (View.ld x2 (Rect.unit (s := S8x67x256) ![e, 0, 0] S1x67x256.size i0)) shapeCasts_S1x67x256_S67x256 : FVec Ideal S67x256 .bf16)
                    (constant S4096x256 .f32 0x00000000#32))
                  (tileBias (shapeCast S256 (View.ld x3 (Rect.unit (s := S8x256) ![e, 0] S1x256.size i1)) shapeCasts_S1x256_S256 : FVec Ideal S256 .f32))) tileZero) bitsLt_bf16_f32)
              (shapeCast S256x256 (View.ld x4 (Rect.unit (s := S2x8x256x256) ![0, e, 0, 0] S1x1x256x256.size i2)) shapeCasts_S1x1x256x256_S256x256 : FVec Ideal S256x256 .bf16)
              (constant S4096x256 .f32 0x00000000#32))
            (tileBias (shapeCast S256 (View.ld x5 (Rect.unit (s := S2x8x256) ![0, e, 0] S1x1x256.size i3)) shapeCasts_S1x1x256_S256 : FVec Ideal S256 .f32))) tileZero) bitsLt_bf16_f32)
          (shapeCast S256x256 (View.ld x4 (Rect.unit (s := S2x8x256x256) ![1, e, 0, 0] S1x1x256x256.size i4)) shapeCasts_S1x1x256x256_S256x256 : FVec Ideal S256x256 .bf16)
          (constant S4096x256 .f32 0x00000000#32))
        (tileBias (shapeCast S256 (View.ld x5 (Rect.unit (s := S2x8x256) ![1, e, 0] S1x1x256.size i5)) shapeCasts_S1x1x256_S256 : FVec Ideal S256 .f32))) tileZero) bitsLt_bf16_f32)
      (shapeCast S256x1 (View.ld x6 (Rect.unit (s := S8x256x1) ![e, 0, 0] S1x256x1.size i6)) shapeCasts_S1x256x1_S256x1 : FVec Ideal S256x1 .bf16)
      (constant S4096x1 .f32 0x00000000#32))
    (broadcastTo S4096x1 (shapeCast S1x1 (shapeCast S1 (View.ld x7 (Rect.unit (s := S8x1) ![e, 0] S1x1.size i7)) shapeCasts_S1x1_S1 : FVec Ideal S1 .f32) shapeCasts_S1_S1x1 : FVec Ideal S1x1 .f32) broadcasts_S1x1_S4096x1)

/-- One step of the accumulation on the tile: the running sum plus the expert's output where the label is e. -/
def blockStep (acc : FVec Ideal S4096x1 .f32) (lab : IVec S4096x1 32) (net : FVec Ideal S4096x1 .f32) (e : ℕ) : FVec Ideal S4096x1 .f32 :=
  addf acc (select (cmpi .eq lab (broadcast S4096x1 (BitVec.ofNat 32 e))) net (broadcast S4096x1 (Scalar.ofBits (F := Ideal) .f32 0x00000000#32)))

/-- The zero the accumulation starts from. -/
def blockZero : FVec Ideal S4096x1 .f32 := broadcast S4096x1 (Scalar.ofBits (F := Ideal) .f32 0x00000000#32)

/-- The eight steps nested, expert 0 innermost. -/
def blockMix (x : FVec Ideal S4096x67 .bf16) (lab : IVec S4096x1 32) (x2 : Vec Ideal S8x67x256 .bf16) (x3 : Vec Ideal S8x256 .f32)
    (x4 : Vec Ideal S2x8x256x256 .bf16) (x5 : Vec Ideal S2x8x256 .f32) (x6 : Vec Ideal S8x256x1 .bf16) (x7 : Vec Ideal S8x1 .f32) :
    FVec Ideal S4096x1 .f32 :=
  blockStep (blockStep (blockStep (blockStep (blockStep (blockStep (blockStep (blockStep (blockZero) lab
      (blockNet x x2 x3 x4 x5 x6 x7 0 (by decide) (by decide) (by decide) (by decide) (by decide) (by decide) (by decide) (by decide)) 0) lab
      (blockNet x x2 x3 x4 x5 x6 x7 1 (by decide) (by decide) (by decide) (by decide) (by decide) (by decide) (by decide) (by decide)) 1) lab
      (blockNet x x2 x3 x4 x5 x6 x7 2 (by decide) (by decide) (by decide) (by decide) (by decide) (by decide) (by decide) (by decide)) 2) lab
      (blockNet x x2 x3 x4 x5 x6 x7 3 (by decide) (by decide) (by decide) (by decide) (by decide) (by decide) (by decide) (by decide)) 3) lab
      (blockNet x x2 x3 x4 x5 x6 x7 4 (by decide) (by decide) (by decide) (by decide) (by decide) (by decide) (by decide) (by decide)) 4) lab
      (blockNet x x2 x3 x4 x5 x6 x7 5 (by decide) (by decide) (by decide) (by decide) (by decide) (by decide) (by decide) (by decide)) 5) lab
      (blockNet x x2 x3 x4 x5 x6 x7 6 (by decide) (by decide) (by decide) (by decide) (by decide) (by decide) (by decide) (by decide)) 6) lab
      (blockNet x x2 x3 x4 x5 x6 x7 7 (by decide) (by decide) (by decide) (by decide) (by decide) (by decide) (by decide) (by decide)) 7

theorem zeros2 : (![0, 0] : Fin 2 → Nat) = fun _ => 0 := funext fun a => by fin_cases a <;> rfl

set_option maxRecDepth 65536 in
set_option maxHeartbeats 4000000 in
/-- What the body leaves in the output tile is the nested term of the staged blocks. -/
theorem out_eq_blockMix (x0 : Vec Ideal S4096x67 .bf16) (x1 : Vec Ideal S4096x1 .i32) (x2 : Vec Ideal S8x67x256 .bf16) (x3 : Vec Ideal S8x256 .f32)
    (x4 : Vec Ideal S2x8x256x256 .bf16) (x5 : Vec Ideal S2x8x256 .f32) (x6 : Vec Ideal S8x256x1 .bf16) (x7 : Vec Ideal S8x1 .f32) :
    out0_8 (F := Ideal) x0 x1 x2 x3 x4 x5 x6 x7
      = blockMix (shapeCast S4096x67 (View.ld x0 r0_0) shapeCasts_S4096x67_S4096x67) (shapeCast S4096x1 (View.ld x1 r0_1) shapeCasts_S4096x1_S4096x1)
          x2 x3 x4 x5 x6 x7 := by
  unfold out0_8
  rw [View.canon_unit_zero zeros2]
  rfl

end Cert.KernelIdeal.Tile

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«162275_j30107720745799_1_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.LibPerceptron.lean ====
/-
  A three-layer perceptron on the extended reals.

  For a batch x : [n, d0], weights w1 : [d0, d1], w2 : [d1, d2], w3 : [d2, d3] and bias rows b1, b2, b3,
  a hidden layer is the dense layer x · w + b followed by the rectifier max(·, 0), entry by entry, and the
  network's output at (r, j) is tanh of the third dense layer's entry over the two hidden layers. Row r of
  the output depends on row r of the batch only: that is what lets a batch be cut into row tiles of any
  height and each tile be computed on its own.
-/
import proofs.«162275_j30107720745799_1_alg».proof.Proof.LibDenseRow

noncomputable section

open scoped BigOperators

namespace Cert.Perceptron

open Idealize.ShloMosaic Idealize.ShloMosaic.ValueIdx Idealize.ShloMosaic.GcnDense

/-- The rectifier's threshold: the all-zero single-precision word as an extended real. -/
abbrev zeroWord : EReal := Ideal.ofBits .f32 0x00000000#32

/-- A hidden layer: the dense layer's entry, rectified. -/
def hidden {n K N : ℕ} (x : (⟨2, ![n, K]⟩ : Shape).Idx → EReal) (w : (⟨2, ![K, N]⟩ : Shape).Idx → EReal)
    (b : (⟨2, ![1, N]⟩ : Shape).Idx → EReal) : (⟨2, ![n, N]⟩ : Shape).Idx → EReal :=
  fun i => max (entry x w b (i 0) (i 1)) zeroWord

theorem hidden_ix2 {n K N : ℕ} (x : (⟨2, ![n, K]⟩ : Shape).Idx → EReal) (w : (⟨2, ![K, N]⟩ : Shape).Idx → EReal)
    (b : (⟨2, ![1, N]⟩ : Shape).Idx → EReal) (r : Fin n) (j : Fin N) :
    hidden x w b (ix2 r j) = max (entry x w b r j) zeroWord := rfl

/-- Row r of a hidden layer depends on row r of its input only, whatever the two row counts. -/
theorem hidden_congr {n n' K N : ℕ} (x : (⟨2, ![n, K]⟩ : Shape).Idx → EReal) (x' : (⟨2, ![n', K]⟩ : Shape).Idx → EReal)
    (w : (⟨2, ![K, N]⟩ : Shape).Idx → EReal) (b : (⟨2, ![1, N]⟩ : Shape).Idx → EReal) (r : Fin n) (r' : Fin n')
    (h : ∀ k, x (ix2 r k) = x' (ix2 r' k)) (j : Fin N) :
    hidden x w b (ix2 r j) = hidden x' w b (ix2 r' j) := by
  rw [hidden_ix2, hidden_ix2, entry_congr x w b x' w b r r' j h (fun _ => rfl) rfl]

/-- A dense layer as a vector program computes it — a matrix product into the zero accumulator plus the bias row
    spread over the rows — is, at (r, j), the layer's entry. -/
theorem dense_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) b hb) (ix2 r j)
      = entry x w b r j := by
  rw [addf_apply, broadcastTo_1b_ab_apply]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The same followed by the rectifier against the zero word spread over the block: the hidden layer's entry. -/
theorem hidden_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32) (hb : (⟨2, ![1, N]⟩ : Shape).Broadcasts ⟨2, ![n, N]⟩)
    (r : Fin n) (j : Fin N) :
    maximumf (addf (matmul D prec x w (constant (F := Ideal) (⟨2, ![n, N]⟩ : Shape) .f32 0x00000000#32))
        (broadcastTo (⟨2, ![n, N]⟩ : Shape) b hb))
      (broadcast (⟨2, ![n, N]⟩ : Shape) (Scalar.ofBits (F := Ideal) .f32 0x00000000#32)) (ix2 r j)
      = hidden x w b (ix2 r j) := by
  rw [maximumf_apply, broadcast_apply, dense_apply D hr hs hlc hrc hl0 hr1 prec x w b hb r j, hidden_ix2]
  rfl

/-- The network's output at row r, column j. -/
def out {n d0 d1 d2 d3 : ℕ} (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (j : Fin d3) : EReal :=
  Ideal.tanh (entry (hidden (hidden x w1 b1) w2 b2) w3 b3 r j)

/-- Row r of the output depends on row r of the batch only. -/
theorem out_congr {n n' d0 d1 d2 d3 : ℕ} (x : (⟨2, ![n, d0]⟩ : Shape).Idx → EReal) (x' : (⟨2, ![n', d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal)
    (r : Fin n) (r' : Fin n') (h : ∀ k, x (ix2 r k) = x' (ix2 r' k)) (j : Fin d3) :
    out x w1 b1 w2 b2 w3 b3 r j = out x' w1 b1 w2 b2 w3 b3 r' j := by
  unfold out
  refine congrArg Ideal.tanh (entry_congr _ _ _ _ _ _ r r' j (fun k => ?_) (fun _ => rfl) rfl)
  exact hidden_congr _ _ w2 b2 r r' (fun k' => hidden_congr x x' w1 b1 r r' h k') k

/-- The first a columns of the output, as one array over the whole batch. -/
def outCols {n d0 d1 d2 d3 a : ℕ} (ha : a ≤ d3) (x : (⟨2, ![n, d0]⟩ : Shape).Idx → EReal)
    (w1 : (⟨2, ![d0, d1]⟩ : Shape).Idx → EReal) (b1 : (⟨2, ![1, d1]⟩ : Shape).Idx → EReal)
    (w2 : (⟨2, ![d1, d2]⟩ : Shape).Idx → EReal) (b2 : (⟨2, ![1, d2]⟩ : Shape).Idx → EReal)
    (w3 : (⟨2, ![d2, d3]⟩ : Shape).Idx → EReal) (b3 : (⟨2, ![1, d3]⟩ : Shape).Idx → EReal) :
    (⟨2, ![n, a]⟩ : Shape).Idx → EReal :=
  fun i => out x w1 b1 w2 b2 w3 b3 (i 0) (Fin.castLE ha (i 1))

end Cert.Perceptron

end
-- ==== Proof.MoeSpec.lean ====
/-
  A mixture of eight small networks on the extended reals.

  Each of the eight experts is a network of three rectified dense layers (67 → 256 → 256 → 256) followed by one
  dense layer to a single output. Its parameters are slices of six shared arrays: W0 [8,67,256], b0 [8,256],
  Wh [2,8,256,256], bh [2,8,256], Wo [8,256,1], bo [8,1]; expert e reads W0[e], b0[e], Wh[0,e], bh[0,e], Wh[1,e],
  bh[1,e], Wo[e], bo[e]. On a batch row with integer label lab the mixture adds, starting from zero and in the
  order e = 0, …, 7, expert e's output where lab = e and zero elsewhere. Row r of the result depends on row r of
  the batch and on the label of that row only.
-/
import proofs.«162275_j30107720745799_1_alg».proof.Proof.LibPerceptron
import Idealize.ShloMosaic.PureOps.Ideal

noncomputable section

open scoped BigOperators

namespace Cert.Moe

open Idealize.ShloMosaic Idealize.ShloMosaic.ValueIdx Idealize.ShloMosaic.GcnDense Cert.Perceptron

/-- The six parameter arrays shared by the eight experts. -/
structure Params where
  W0 : (⟨3, ![8, 67, 256]⟩ : Shape).Idx → EReal
  b0 : (⟨2, ![8, 256]⟩ : Shape).Idx → EReal
  Wh : (⟨4, ![2, 8, 256, 256]⟩ : Shape).Idx → EReal
  bh : (⟨3, ![2, 8, 256]⟩ : Shape).Idx → EReal
  Wo : (⟨3, ![8, 256, 1]⟩ : Shape).Idx → EReal
  bo : (⟨2, ![8, 1]⟩ : Shape).Idx → EReal

namespace Params

variable (P : Params) (e : Fin 8)

/-- Expert e's first weight matrix, W0[e]. -/
def w0 : (⟨2, ![67, 256]⟩ : Shape).Idx → EReal := fun i => P.W0 (ix3 e (i 0) (i 1))
/-- Expert e's first bias as a row, b0[e]. -/
def b0r : (⟨2, ![1, 256]⟩ : Shape).Idx → EReal := fun i => P.b0 (ix2 e (i 1))
/-- Expert e's hidden weight matrix of layer l, Wh[l, e]. -/
def wh (l : Fin 2) : (⟨2, ![256, 256]⟩ : Shape).Idx → EReal := fun i => P.Wh (ix4 l e (i 0) (i 1))
/-- Expert e's hidden bias of layer l as a row, bh[l, e]. -/
def bhr (l : Fin 2) : (⟨2, ![1, 256]⟩ : Shape).Idx → EReal := fun i => P.bh (ix3 l e (i 1))
/-- Expert e's output weights as a one-column matrix, Wo[e]. -/
def wo : (⟨2, ![256, 1]⟩ : Shape).Idx → EReal := fun i => P.Wo (ix3 e (i 0) (i 1))
/-- Expert e's output bias as a one-entry row, bo[e]. -/
def bor : (⟨2, ![1, 1]⟩ : Shape).Idx → EReal := fun i => P.bo (ix2 e (i 1))

/-- Expert e's output on row r of the batch x. -/
def out {n : ℕ} (x : (⟨2, ![n, 67]⟩ : Shape).Idx → EReal) (r : Fin n) : EReal :=
  entry (hidden (hidden (hidden x (P.w0 e) (P.b0r e)) (P.wh e 0) (P.bhr e 0)) (P.wh e 1) (P.bhr e 1)) (P.wo e) (P.bor e) r 0

/-- An expert's output on a row depends on that row of the batch only, whatever the two batches' heights. -/
theorem out_congr {n n' : ℕ} (x : (⟨2, ![n, 67]⟩ : Shape).Idx → EReal) (x' : (⟨2, ![n', 67]⟩ : Shape).Idx → EReal)
    (r : Fin n) (r' : Fin n') (h : ∀ k, x (ix2 r k) = x' (ix2 r' k)) : P.out e x r = P.out e x' r' := by
  unfold out
  refine entry_congr _ _ _ _ _ _ r r' 0 (fun k => ?_) (fun _ => rfl) rfl
  refine hidden_congr _ _ _ _ r r' (fun k' => ?_) k
  exact hidden_congr _ _ _ _ r r' (fun k'' => hidden_congr x x' _ _ r r' h k'') k'

end Params

/-- What expert number e contributes on a row labelled lab: its output o where the label is e, zero elsewhere. -/
def gate (lab e : BitVec 32) (o : EReal) : EReal := Scalar.select (IntOp.cmpi .eq lab e) o zeroWord

namespace Params

variable (P : Params)

/-- One step of the accumulation: the running sum plus expert e's gated output on row r. -/
def step {n : ℕ} (x : (⟨2, ![n, 67]⟩ : Shape).Idx → EReal) (lab : BitVec 32) (r : Fin n) (e : ℕ) (he : e < 8) (acc : EReal) : EReal :=
  acc + gate lab (BitVec.ofNat 32 e) (P.out ⟨e, he⟩ x r)

theorem step_congr {n n' : ℕ} (x : (⟨2, ![n, 67]⟩ : Shape).Idx → EReal) (x' : (⟨2, ![n', 67]⟩ : Shape).Idx → EReal)
    (lab : BitVec 32) (r : Fin n) (r' : Fin n') (h : ∀ k, x (ix2 r k) = x' (ix2 r' k)) (e : ℕ) (he : e < 8) (acc : EReal) :
    P.step x lab r e he acc = P.step x' lab r' e he acc := by
  unfold step; rw [P.out_congr ⟨e, he⟩ x x' r r' h]

/-- The mixture on row r of the batch x, the row labelled lab: zero plus the eight gated outputs, expert 0 first. -/
def mix {n : ℕ} (x : (⟨2, ![n, 67]⟩ : Shape).Idx → EReal) (lab : BitVec 32) (r : Fin n) : EReal :=
  P.step x lab r 7 (by decide) (P.step x lab r 6 (by decide) (P.step x lab r 5 (by decide) (P.step x lab r 4 (by decide) (P.step x lab r 3 (by decide) (P.step x lab r 2 (by decide) (P.step x lab r 1 (by decide) (P.step x lab r 0 (by decide) (zeroWord))))))))

/-- The mixture on a row depends on that row of the batch and its label only. -/
theorem mix_congr {n n' : ℕ} (x : (⟨2, ![n, 67]⟩ : Shape).Idx → EReal) (x' : (⟨2, ![n', 67]⟩ : Shape).Idx → EReal)
    (lab : BitVec 32) (r : Fin n) (r' : Fin n') (h : ∀ k, x (ix2 r k) = x' (ix2 r' k)) :
    P.mix x lab r = P.mix x' lab r' := by
  unfold mix
  simp only [P.step_congr x x' lab r r' h]

end Params

end Cert.Moe

end
-- ==== Proof.KValue.lean ====
/-
  The tile's stored value, read at a row.

  A load through the rectangle at offset e of a parameter array, viewed without its unit axes, is expert e's slice of
  that array. Each rectified layer of the body is then the hidden layer max(x · w + b, 0) as one function of the tile,
  the output layer an entry of x · w + b, and the value stored at row r of the tile is the mixture of the eight
  experts on that row, the parameters being the staged arrays.
-/
import proofs.«162275_j30107720745799_1_alg».proof.Proof.KTerm
import proofs.«162275_j30107720745799_1_alg».proof.Proof.MoeSpec
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.TcCoe Idealize.ShloMosaic.ValueIdx
open Idealize.ShloMosaic.GcnDense Cert.Perceptron Cert.Moe

/-! ## The three products' dimension records: the free axes read the result's coordinates -/

theorem d1_l0 (i : S4096x256.Idx) (q : dot_S4096x67_S67x256_S4096x256_1_0_0_1_n_n.contr.Idx) : (dot_S4096x67_S67x256_S4096x256_1_0_0_1_n_n.lhsIdx i q 0).val = (i 0).val := by
  unfold DotDims.lhsIdx
  rw [dif_neg (show ¬(0 : Fin S4096x67.rank) ∈ dot_S4096x67_S67x256_S4096x256_1_0_0_1_n_n.lhsBatch by decide), dif_pos (show (0 : Fin S4096x67.rank) ∈ dot_S4096x67_S67x256_S4096x256_1_0_0_1_n_n.lhsNonContracting by decide)]
  rfl
theorem d1_r1 (i : S4096x256.Idx) (q : dot_S4096x67_S67x256_S4096x256_1_0_0_1_n_n.contr.Idx) : (dot_S4096x67_S67x256_S4096x256_1_0_0_1_n_n.rhsIdx i q 1).val = (i 1).val := by
  unfold DotDims.rhsIdx
  rw [dif_neg (show ¬(1 : Fin S67x256.rank) ∈ dot_S4096x67_S67x256_S4096x256_1_0_0_1_n_n.rhsBatch by decide), dif_pos (show (1 : Fin S67x256.rank) ∈ dot_S4096x67_S67x256_S4096x256_1_0_0_1_n_n.rhsNonContracting by decide)]
  rfl

theorem d2_l0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem d2_r1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem d3_l0 (i : S4096x1.Idx) (q : dot_S4096x256_S256x1_S4096x1_1_0_0_1_n_n.contr.Idx) : (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem d3_r1 (i : S4096x1.Idx) (q : dot_S4096x256_S256x1_S4096x1_1_0_0_1_n_n.contr.Idx) : (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-! ## Loads at offset e are expert e's slices -/

section Loads

variable (e : ℕ) (he : e < 8)

theorem load_w0 (X : Vec Ideal S8x67x256 .bf16) (ib : ∀ a, (![e, 0, 0] : Fin 3 → Nat) a + S1x67x256.size a ≤ S8x67x256.size a) :
    (shapeCast S67x256 (View.ld X (Rect.unit (s := S8x67x256) ![e, 0, 0] S1x67x256.size ib)) shapeCasts_S1x67x256_S67x256 : FVec Ideal S67x256 .bf16)
      = fun i => X (ix3 (⟨e, he⟩ : Fin 8) (i 0) (i 1)) := by
  funext i
  obtain ⟨k, j, rfl⟩ : ∃ (k : Fin 67) (j : Fin 256), i = ix2 k j := ⟨i 0, i 1, eq_ix2 i⟩
  refine (shapeCast_apply (s := S1x67x256) (t := S67x256) _ shapeCasts_S1x67x256_S67x256 (ix2 k j) (ix3 (0 : Fin 1) k j) ?_).trans ?_
  · rw [Shape.rowMajor_val_three, Shape.rowMajor_val_two]; show (0 * 67 + k.val) * 256 + j.val = k.val * 256 + j.val; omega
  · show X ((Rect.unit (s := S8x67x256) ![e, 0, 0] S1x67x256.size ib).emb (ix3 (0 : Fin 1) k j)) = X (ix3 (⟨e, he⟩ : Fin 8) k j)
    refine congrArg X (funext fun a => Fin.ext ?_)
    match a with
    | ⟨0, _⟩ => show e + 1 * 0 = e; omega
    | ⟨1, _⟩ => show 0 + 1 * k.val = k.val; omega
    | ⟨2, _⟩ => show 0 + 1 * j.val = j.val; omega

theorem load_b0 (X : Vec Ideal S8x256 .f32) (ib : ∀ a, (![e, 0] : Fin 2 → Nat) a + S1x256.size a ≤ S8x256.size a) :
    shapeCast S1x256 (shapeCast S256 (View.ld X (Rect.unit (s := S8x256) ![e, 0] S1x256.size ib)) shapeCasts_S1x256_S256 : FVec Ideal S256 .f32) shapeCasts_S256_S1x256
      = fun i => X (ix2 (⟨e, he⟩ : Fin 8) (i 1)) := by
  rw [shapeCast_shapeCast (s := S1x256) (t := S256)]
  funext i
  obtain ⟨p, j, rfl⟩ : ∃ (p : Fin 1) (j : Fin 256), i = ix2 p j := ⟨i 0, i 1, eq_ix2 i⟩
  show X ((Rect.unit (s := S8x256) ![e, 0] S1x256.size ib).emb (ix2 p j)) = X (ix2 (⟨e, he⟩ : Fin 8) j)
  refine congrArg X (funext fun a => Fin.ext ?_)
  have hp := p.isLt
  match a with
  | ⟨0, _⟩ => show e + 1 * p.val = e; omega
  | ⟨1, _⟩ => show 0 + 1 * j.val = j.val; omega

theorem load_wh (l : ℕ) (hl : l < 2) (X : Vec Ideal S2x8x256x256 .bf16)
    (ib : ∀ a, (![l, e, 0, 0] : Fin 4 → Nat) a + S1x1x256x256.size a ≤ S2x8x256x256.size a) :
    (shapeCast S256x256 (View.ld X (Rect.unit (s := S2x8x256x256) ![l, e, 0, 0] S1x1x256x256.size ib)) shapeCasts_S1x1x256x256_S256x256 : FVec Ideal S256x256 .bf16)
      = fun i => X (ix4 (⟨l, hl⟩ : Fin 2) (⟨e, he⟩ : Fin 8) (i 0) (i 1)) := by
  funext i
  obtain ⟨k, j, rfl⟩ : ∃ (k : Fin 256) (j : Fin 256), i = ix2 k j := ⟨i 0, i 1, eq_ix2 i⟩
  refine (shapeCast_apply (s := S1x1x256x256) (t := S256x256) _ shapeCasts_S1x1x256x256_S256x256 (ix2 k j) (ix4 (0 : Fin 1) (0 : Fin 1) k j) ?_).trans ?_
  · rw [Shape.rowMajor_val_four, Shape.rowMajor_val_two]; show ((0 * 1 + 0) * 256 + k.val) * 256 + j.val = k.val * 256 + j.val; omega
  · show X ((Rect.unit (s := S2x8x256x256) ![l, e, 0, 0] S1x1x256x256.size ib).emb (ix4 (0 : Fin 1) (0 : Fin 1) k j)) = X (ix4 (⟨l, hl⟩ : Fin 2) (⟨e, he⟩ : Fin 8) k j)
    refine congrArg X (funext fun a => Fin.ext ?_)
    match a with
    | ⟨0, _⟩ => show l + 1 * 0 = l; omega
    | ⟨1, _⟩ => show e + 1 * 0 = e; omega
    | ⟨2, _⟩ => show 0 + 1 * k.val = k.val; omega
    | ⟨3, _⟩ => show 0 + 1 * j.val = j.val; omega

theorem load_bh (l : ℕ) (hl : l < 2) (X : Vec Ideal S2x8x256 .f32)
    (ib : ∀ a, (![l, e, 0] : Fin 3 → Nat) a + S1x1x256.size a ≤ S2x8x256.size a) :
    shapeCast S1x256 (shapeCast S256 (View.ld X (Rect.unit (s := S2x8x256) ![l, e, 0] S1x1x256.size ib)) shapeCasts_S1x1x256_S256 : FVec Ideal S256 .f32) shapeCasts_S256_S1x256
      = fun i => X (ix3 (⟨l, hl⟩ : Fin 2) (⟨e, he⟩ : Fin 8) (i 1)) := by
  funext i
  obtain ⟨p, j, rfl⟩ : ∃ (p : Fin 1) (j : Fin 256), i = ix2 p j := ⟨i 0, i 1, eq_ix2 i⟩
  have hp := p.isLt
  refine (shapeCast_apply (s := S256) (t := S1x256) _ shapeCasts_S256_S1x256 (ix2 p j) (ix1 j) ?_).trans ?_
  · rw [Shape.rowMajor_val_one, Shape.rowMajor_val_two]; show j.val = p.val * 256 + j.val; omega
  refine (shapeCast_apply (s := S1x1x256) (t := S256) _ shapeCasts_S1x1x256_S256 (ix1 j) (ix3 (0 : Fin 1) (0 : Fin 1) j) ?_).trans ?_
  · rw [Shape.rowMajor_val_three, Shape.rowMajor_val_one]; show (0 * 1 + 0) * 256 + j.val = j.val; omega
  · show X ((Rect.unit (s := S2x8x256) ![l, e, 0] S1x1x256.size ib).emb (ix3 (0 : Fin 1) (0 : Fin 1) j)) = X (ix3 (⟨l, hl⟩ : Fin 2) (⟨e, he⟩ : Fin 8) j)
    refine congrArg X (funext fun a => Fin.ext ?_)
    match a with
    | ⟨0, _⟩ => show l + 1 * 0 = l; omega
    | ⟨1, _⟩ => show e + 1 * 0 = e; omega
    | ⟨2, _⟩ => show 0 + 1 * j.val = j.val; omega

theorem load_wo (X : Vec Ideal S8x256x1 .bf16) (ib : ∀ a, (![e, 0, 0] : Fin 3 → Nat) a + S1x256x1.size a ≤ S8x256x1.size a) :
    (shapeCast S256x1 (View.ld X (Rect.unit (s := S8x256x1) ![e, 0, 0] S1x256x1.size ib)) shapeCasts_S1x256x1_S256x1 : FVec Ideal S256x1 .bf16)
      = fun i => X (ix3 (⟨e, he⟩ : Fin 8) (i 0) (i 1)) := by
  funext i
  obtain ⟨k, q, rfl⟩ : ∃ (k : Fin 256) (q : Fin 1), i = ix2 k q := ⟨i 0, i 1, eq_ix2 i⟩
  refine (shapeCast_apply (s := S1x256x1) (t := S256x1) _ shapeCasts_S1x256x1_S256x1 (ix2 k q) (ix3 (0 : Fin 1) k q) ?_).trans ?_
  · rw [Shape.rowMajor_val_three, Shape.rowMajor_val_two]; show (0 * 256 + k.val) * 1 + q.val = k.val * 1 + q.val; omega
  · show X ((Rect.unit (s := S8x256x1) ![e, 0, 0] S1x256x1.size ib).emb (ix3 (0 : Fin 1) k q)) = X (ix3 (⟨e, he⟩ : Fin 8) k q)
    refine congrArg X (funext fun a => Fin.ext ?_)
    match a with
    | ⟨0, _⟩ => show e + 1 * 0 = e; omega
    | ⟨1, _⟩ => show 0 + 1 * k.val = k.val; omega
    | ⟨2, _⟩ => show 0 + 1 * q.val = q.val; omega

theorem load_bo (X : Vec Ideal S8x1 .f32) (ib : ∀ a, (![e, 0] : Fin 2 → Nat) a + S1x1.size a ≤ S8x1.size a) :
    (shapeCast S1x1 (shapeCast S1 (View.ld X (Rect.unit (s := S8x1) ![e, 0] S1x1.size ib)) shapeCasts_S1x1_S1 : FVec Ideal S1 .f32) shapeCasts_S1_S1x1 : FVec Ideal S1x1 .f32)
      = fun i => X (ix2 (⟨e, he⟩ : Fin 8) (i 1)) := by
  rw [shapeCast_shapeCast (s := S1x1) (t := S1)]
  funext i
  obtain ⟨p, q, rfl⟩ : ∃ (p : Fin 1) (q : Fin 1), i = ix2 p q := ⟨i 0, i 1, eq_ix2 i⟩
  show X ((Rect.unit (s := S8x1) ![e, 0] S1x1.size ib).emb (ix2 p q)) = X (ix2 (⟨e, he⟩ : Fin 8) q)
  refine congrArg X (funext fun a => Fin.ext ?_)
  have hp := p.isLt
  match a with
  | ⟨0, _⟩ => show e + 1 * p.val = e; omega
  | ⟨1, _⟩ => show 0 + 1 * q.val = q.val; omega

end Loads

/-! ## The layers -/

/-- A rectified layer of the body, as one function of the tile, is the hidden layer with the bias vector as a row. -/
theorem tile_layer {K : ℕ} {φ₁ φ₂ : FTy}
    (D : DotDims (⟨2, ![4096, K]⟩ : Shape) (⟨2, ![K, 256]⟩ : Shape) (⟨2, ![4096, 256]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (x : FVec Ideal (⟨2, ![4096, K]⟩ : Shape) φ₁) (w : FVec Ideal (⟨2, ![K, 256]⟩ : Shape) φ₂) (b : FVec Ideal S256 .f32) :
    (truncf .bf16 (maximumf (addf (matmul D none x w (constant S4096x256 .f32 0x00000000#32)) (tileBias b)) tileZero) bitsLt_bf16_f32 : FVec Ideal S4096x256 .bf16)
      = hidden x w (shapeCast S1x256 b shapeCasts_S256_S1x256) := by
  funext i
  obtain ⟨r, j, rfl⟩ : ∃ (r : Fin 4096) (j : Fin 256), i = ix2 r j := ⟨i 0, i 1, eq_ix2 i⟩
  exact hidden_apply D hr hs hlc hrc hl0 hr1 none x w _ broadcasts_S1x256_S4096x256 r j

/-- Expert e's output on the tile at row r, the parameters being the staged arrays. -/
theorem blockNet_apply (x : FVec Ideal S4096x67 .bf16) (x2 : Vec Ideal S8x67x256 .bf16) (x3 : Vec Ideal S8x256 .f32)
    (x4 : Vec Ideal S2x8x256x256 .bf16) (x5 : Vec Ideal S2x8x256 .f32) (x6 : Vec Ideal S8x256x1 .bf16) (x7 : Vec Ideal S8x1 .f32)
    (e : ℕ) (he : e < 8)
    (i0 : ∀ a, (![e, 0, 0] : Fin 3 → Nat) a + S1x67x256.size a ≤ S8x67x256.size a)
    (i1 : ∀ a, (![e, 0] : Fin 2 → Nat) a + S1x256.size a ≤ S8x256.size a)
    (i2 : ∀ a, (![0, e, 0, 0] : Fin 4 → Nat) a + S1x1x256x256.size a ≤ S2x8x256x256.size a)
    (i3 : ∀ a, (![0, e, 0] : Fin 3 → Nat) a + S1x1x256.size a ≤ S2x8x256.size a)
    (i4 : ∀ a, (![1, e, 0, 0] : Fin 4 → Nat) a + S1x1x256x256.size a ≤ S2x8x256x256.size a)
    (i5 : ∀ a, (![1, e, 0] : Fin 3 → Nat) a + S1x1x256.size a ≤ S2x8x256.size a)
    (i6 : ∀ a, (![e, 0, 0] : Fin 3 → Nat) a + S1x256x1.size a ≤ S8x256x1.size a)
    (i7 : ∀ a, (![e, 0] : Fin 2 → Nat) a + S1x1.size a ≤ S8x1.size a)
    (r : Fin 4096) :
    blockNet x x2 x3 x4 x5 x6 x7 e i0 i1 i2 i3 i4 i5 i6 i7 (ix2 r 0) = (Params.mk x2 x3 x4 x5 x6 x7).out ⟨e, he⟩ x r := by
  unfold blockNet
  rw [tile_layer dot_S4096x67_S67x256_S4096x256_1_0_0_1_n_n rfl rfl rfl rfl d1_l0 d1_r1, tile_layer dot_S4096x256_S256x256_S4096x256_1_0_0_1_n_n rfl rfl rfl rfl d2_l0 d2_r1, tile_layer dot_S4096x256_S256x256_S4096x256_1_0_0_1_n_n rfl rfl rfl rfl d2_l0 d2_r1]
  rw [dense_apply dot_S4096x256_S256x1_S4096x1_1_0_0_1_n_n rfl rfl rfl rfl d3_l0 d3_r1 none _ _ _ broadcasts_S1x1_S4096x1 r 0]
  rw [load_w0 e he x2 i0, load_b0 e he x3 i1, load_wh e he 0 (by decide) x4 i2, load_bh e he 0 (by decide) x5 i3,
    load_wh e he 1 (by decide) x4 i4, load_bh e he 1 (by decide) x5 i5, load_wo e he x6 i6, load_bo e he x7 i7]
  rfl

/-- One accumulation step at a row. -/
theorem blockStep_apply (acc : FVec Ideal S4096x1 .f32) (lab : IVec S4096x1 32) (net : FVec Ideal S4096x1 .f32) (e : ℕ) (r : Fin 4096) :
    blockStep acc lab net e (ix2 r 0) = acc (ix2 r 0) + gate (lab (ix2 r 0)) (BitVec.ofNat 32 e) (net (ix2 r 0)) := rfl

/-- The tile's stored value at row r is the mixture of the eight experts on that row. -/
theorem blockMix_apply (x : FVec Ideal S4096x67 .bf16) (lab : IVec S4096x1 32) (x2 : Vec Ideal S8x67x256 .bf16) (x3 : Vec Ideal S8x256 .f32)
    (x4 : Vec Ideal S2x8x256x256 .bf16) (x5 : Vec Ideal S2x8x256 .f32) (x6 : Vec Ideal S8x256x1 .bf16) (x7 : Vec Ideal S8x1 .f32) (r : Fin 4096) :
    blockMix x lab x2 x3 x4 x5 x6 x7 (ix2 r 0) = (Params.mk x2 x3 x4 x5 x6 x7).mix x (lab (ix2 r 0)) r := by
  unfold blockMix
  rw [blockStep_apply, blockNet_apply x x2 x3 x4 x5 x6 x7 7 (by decide),
    blockStep_apply, blockNet_apply x x2 x3 x4 x5 x6 x7 6 (by decide),
    blockStep_apply, blockNet_apply x x2 x3 x4 x5 x6 x7 5 (by decide),
    blockStep_apply, blockNet_apply x x2 x3 x4 x5 x6 x7 4 (by decide),
    blockStep_apply, blockNet_apply x x2 x3 x4 x5 x6 x7 3 (by decide),
    blockStep_apply, blockNet_apply x x2 x3 x4 x5 x6 x7 2 (by decide),
    blockStep_apply, blockNet_apply x x2 x3 x4 x5 x6 x7 1 (by decide),
    blockStep_apply, blockNet_apply x x2 x3 x4 x5 x6 x7 0 (by decide)]
  rfl

end Cert.KernelIdeal.Tile

end
-- ==== Proof.KArray.lean ====
/-
  From the tiles to the whole result.

  The region finds, in the buffers it stages, the batch input (x beside the reparametrised latent), the labels as a
  column, and the six parameter arrays (a change of float format is the identity on the extended reals). Grid point
  t holds rows 4096·t … 4096·t + 4095 of the batch input and of the labels and the parameter arrays whole, and
  writes back those rows of the result. So what point t writes is block t of one function of the arguments — the
  mixture of the eight experts row by row — the sixteen blocks cover the result, and the result array ends holding
  that function. The KL scalar is a host operation before the region; the run leaves it as the region found it.
-/
import proofs.«162275_j30107720745799_1_alg».proof.Proof.KValue
import proofs.«162275_j30107720745799_1_alg».proof.Proof.Gen.KernelIdeal.Value
import Idealize.ShloMosaic.Lib.StableHlo.Run

noncomputable section

namespace Cert.KernelIdeal.Tile

open Cert.KernelIdeal Cert.KernelIdeal.Gen Idealize.ShloMosaic Idealize.ShloMosaic.TcCoe Idealize.SL.Sem Idealize.ShloMosaic.ValueIdx
open Idealize.ShloMosaic.StableHlo Cert.Moe
open Idealize.ShloMosaic.Pipeline (Dat)

/-! ## The host glue as whole-array functions of the arguments -/

/-- The labels as a gather reads them: a negative label counted from the end of the table. -/
def tableIndex (lab : IVec S65536 32) : IVec S65536x1 32 :=
  broadcastInDim S65536x1 ![0] bcast_S65536_S65536x1_0
    (select (cmpi .slt lab (broadcastInDim S65536 ![] bcast_S_S65536 (constantI S_ 32 0#32)))
      (addi lab (broadcastInDim S65536 ![] bcast_S_S65536 (constantI S_ 32 8#32))) lab)

/-- The rows of a table [8, 64] looked up by label. -/
def lookup (table : FVec Ideal S8x64 .f32) (lab : IVec S65536 32) : FVec Ideal S65536x64 .f32 :=
  Host.gather gather_S8x64_S65536x1_S65536x64_1_0_n_n_0_1_164 table (tableIndex lab)

/-- The network's input [65536, 67]: x beside z = mu + eps · exp(0.5 · logvar). -/
def batchInput (x : FVec Ideal S65536x3 .f32) (lab : IVec S65536 32) (eps : FVec Ideal S65536x64 .f32)
    (mu lv : FVec Ideal S8x64 .f32) : FVec Ideal S65536x67 .f32 :=
  concatenate S65536x67 1 [⟨S65536x3, x⟩, ⟨S65536x64,
    addf (lookup mu lab) (mulf eps (Host.exp (mulf (broadcastInDim S65536x64 ![] bcast_S_S65536x64 (constant S_ .f32 0x3F000000#32)) (lookup lv lab))))⟩]
    concatenates_S65536x3_S65536x64_S65536x67_d1

/-- The KL scalar. -/
def klTerm (lab : IVec S65536 32) (mu lv : FVec Ideal S8x64 .f32) : FVec Ideal S_ .f32 :=
  Host.divf (mulf (constant S_ .f32 0xBF000000#32)
    (Host.reduceAdd (subf (subf (addf (broadcastInDim S65536x64 ![] bcast_S_S65536x64 (constant S_ .f32 0x3F800000#32)) (lookup lv lab))
        (mulf (lookup mu lab) (lookup mu lab))) (Host.exp (lookup lv lab)))
      (constant S_ .f32 0x00000000#32) reducesTo_S65536x64_S_d0_1 h_S_))
    (constant S_ .f32 0x47800000#32)

variable (m : (ℓ : Loc nD τ sig) → Buf (Elt Ideal) ℓ) (ρ : Dev nD → PrngReg)

/-! ## What the region finds in the buffers it stages -/

set_option maxRecDepth 8192 in
set_option maxHeartbeats 4000000 in
theorem V_input (c : Dev nD) : (V m c main_v29 : S65536x67.Idx → EReal)
    = batchInput (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [Gen.V, Gen.hostOps0]
  after_results_simp
  rfl

set_option maxRecDepth 8192 in
set_option maxHeartbeats 4000000 in
theorem V_kl (c : Dev nD) : (V m c main_v27 : S_.Idx → EReal)
    = klTerm (m ((c : Thread nD τ).loc main_arg1)) (m ((c : Thread nD τ).loc main_arg3)) (m ((c : Thread nD τ).loc main_arg4)) := by
  dsimp only [Gen.V, Gen.hostOps0]
  after_results_simp
  rfl

set_option maxRecDepth 8192 in
set_option maxHeartbeats 4000000 in
theorem V_labels (c : Dev nD) : (V m c main_v30 : S65536x1.Idx → BitVec 32)
    = shapeCast S65536x1 (m ((c : Thread nD τ).loc main_arg1)) shapeCasts_S65536_S65536x1 := by
  dsimp only [Gen.V, Gen.hostOps0]
  after_results_simp
  rfl

set_option maxRecDepth 8192 in
set_option maxHeartbeats 4000000 in
theorem V_w0 (c : Dev nD) : (V m c main_v31 : S8x67x256.Idx → EReal) = (m ((c : Thread nD τ).loc main_arg5)) := by
  dsimp only [Gen.V, Gen.hostOps0]
  after_results_simp
  rfl

set_option maxRecDepth 8192 in
set_option maxHeartbeats 4000000 in
theorem V_wh (c : Dev nD) : (V m c main_v32 : S2x8x256x256.Idx → EReal) = (m ((c : Thread nD τ).loc main_arg7)) := by
  dsimp only [Gen.V, Gen.hostOps0]
  after_results_simp
  rfl

set_option maxRecDepth 8192 in
set_option maxHeartbeats 4000000 in
theorem V_wo (c : Dev nD) : (V m c main_v33 : S8x256x1.Idx → EReal) = (m ((c : Thread nD τ).loc main_arg9)) := by
  dsimp only [Gen.V, Gen.hostOps0]
  after_results_simp
  rfl

/-! ## The result as one function of the arguments -/

/-- The first result: row by row, the mixture of the eight experts on the batch input, gated by the row's label. -/
def result (c : Dev nD) : S65536x1.Idx → EReal := fun i =>
  (Params.mk (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).mix
    (batchInput (m ((c : Thread nD τ).loc main_arg0)) (m ((c : Thread nD τ).loc main_arg1)) (m ((c : Thread nD τ).loc main_arg2)) (m ((c : Thread nD τ).loc main_arg3)) (m ((c : Thread nD τ).loc main_arg4)))
    ((m ((c : Thread nD τ).loc main_arg1)) (ix1 (i 0))) (i 0)

/-- A tile's stored value at row r is the mixture on row R of a batch of any height, once the tile's rows, labels
    and parameters are those of the batch. -/
theorem tile_mix_eq (x0 : Vec Ideal S4096x67 .bf16) (x1 : Vec Ideal S4096x1 .i32) (x2 : Vec Ideal S8x67x256 .bf16) (x3 : Vec Ideal S8x256 .f32)
    (x4 : Vec Ideal S2x8x256x256 .bf16) (x5 : Vec Ideal S2x8x256 .f32) (x6 : Vec Ideal S8x256x1 .bf16) (x7 : Vec Ideal S8x1 .f32)
    (P : Params) (X : (⟨2, ![65536, 67]⟩ : Shape).Idx → EReal) (lab : BitVec 32) (r : Fin 4096) (R : Fin 65536)
    (h2 : ∀ i, x2 i = P.W0 i) (h3 : ∀ i, x3 i = P.b0 i) (h4 : ∀ i, x4 i = P.Wh i) (h5 : ∀ i, x5 i = P.bh i)
    (h6 : ∀ i, x6 i = P.Wo i) (h7 : ∀ i, x7 i = P.bo i)
    (hx : ∀ k, x0 (ix2 r k) = X (ix2 R k)) (hl : x1 (ix2 r 0) = lab) :
    blockMix (shapeCast S4096x67 (View.ld x0 r0_0) shapeCasts_S4096x67_S4096x67) (shapeCast S4096x1 (View.ld x1 r0_1) shapeCasts_S4096x1_S4096x1)
        x2 x3 x4 x5 x6 x7 (ix2 r 0)
      = P.mix X lab R := by
  have e2 : x2 = P.W0 := funext h2
  have e3 : x3 = P.b0 := funext h3
  have e4 : x4 = P.Wh := funext h4
  have e5 : x5 = P.bh := funext h5
  have e6 : x6 = P.Wo := funext h6
  have e7 : x7 = P.bo := funext h7
  subst e2 e3 e4 e5 e6 e7
  have e0 : (shapeCast S4096x67 (View.ld x0 r0_0) shapeCasts_S4096x67_S4096x67 : FVec Ideal S4096x67 .bf16) = x0 :=
    (shapeCast_self (s := S4096x67) (View.ld x0 r0_0) shapeCasts_S4096x67_S4096x67).trans (View.ld_unit_zero (S := S4096x67) zeros2 _ x0)
  have e1 : (shapeCast S4096x1 (View.ld x1 r0_1) shapeCasts_S4096x1_S4096x1 : IVec S4096x1 32) = x1 :=
    (shapeCast_self (s := S4096x1) (View.ld x1 r0_1) shapeCasts_S4096x1_S4096x1).trans (View.ld_unit_zero (S := S4096x1) zeros2 _ x1)
  rw [blockMix_apply, e0, e1, hl]
  exact Params.mix_congr P x0 X lab r R hx

/-! ## The printed index maps, decided over the sixteen grid points -/

theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ (∀ a : Fin 3, win0_2.index t a = 0) ∧ (∀ a : Fin 2, win0_3.index t a = 0)
    ∧ (∀ a : Fin 4, win0_4.index t a = 0) ∧ (∀ a : Fin 3, win0_5.index t a = 0)
    ∧ (∀ a : Fin 3, win0_6.index t a = 0) ∧ (∀ a : Fin 2, win0_7.index t a = 0)
    ∧ win0_8.index t (1 : Fin 2) = 0 ∧ win0_8.index t (0 : Fin 2) ≤ 15 :=
  (by decide +kernel : ∀ t : Fin grid0.N, _)

theorem idx_onto : ∀ q : Fin 16, ∃ t : Fin cfg0.N, win0_8.index t = ![q.val, 0] :=
  (by decide +kernel : ∀ q : Fin 16, ∃ t : Fin grid0.N, win0_8.index t = ![q.val, 0])

/-! ## What a point writes back, the cover, the array -/

/-- Window 2's block at every point is its whole array, as launched. -/
theorem block2 (c : Dev nD) (t : Fin cfg0.N) (i : S8x67x256.Idx) : iblk m c 2 t i = (m ((c : Thread nD τ).loc main_arg5)) i := by
  have e := (idx_facts t).2.2.2.2.1
  show V m c main_v31 (((cfg0.win 2).blk t).view.emb i) = (m ((c : Thread nD τ).loc main_arg5)) i
  rw [V_w0 m c]
  refine congrArg _ (funext fun a => Fin.ext ?_)
  match a with
  | ⟨0, _⟩ => show win0_2.index t (0 : Fin 3) * 8 + 1 * (i 0).val = (i 0).val; rw [e 0]; omega
  | ⟨1, _⟩ => show win0_2.index t (1 : Fin 3) * 67 + 1 * (i 1).val = (i 1).val; rw [e 1]; omega
  | ⟨2, _⟩ => show win0_2.index t (2 : Fin 3) * 256 + 1 * (i 2).val = (i 2).val; rw [e 2]; omega

/-- Window 3's block at every point is its whole array, as launched. -/
theorem block3 (c : Dev nD) (t : Fin cfg0.N) (i : S8x256.Idx) : iblk m c 3 t i = (m ((c : Thread nD τ).loc main_arg6)) i := by
  have e := (idx_facts t).2.2.2.2.2.1
  show V m c main_arg6 (((cfg0.win 3).blk t).view.emb i) = (m ((c : Thread nD τ).loc main_arg6)) i
  rw [V_main_arg6 m c]
  refine congrArg _ (funext fun a => Fin.ext ?_)
  match a with
  | ⟨0, _⟩ => show win0_3.index t (0 : Fin 2) * 8 + 1 * (i 0).val = (i 0).val; rw [e 0]; omega
  | ⟨1, _⟩ => show win0_3.index t (1 : Fin 2) * 256 + 1 * (i 1).val = (i 1).val; rw [e 1]; omega

/-- Window 4's block at every point is its whole array, as launched. -/
theorem block4 (c : Dev nD) (t : Fin cfg0.N) (i : S2x8x256x256.Idx) : iblk m c 4 t i = (m ((c : Thread nD τ).loc main_arg7)) i := by
  have e := (idx_facts t).2.2.2.2.2.2.1
  show V m c main_v32 (((cfg0.win 4).blk t).view.emb i) = (m ((c : Thread nD τ).loc main_arg7)) i
  rw [V_wh m c]
  refine congrArg _ (funext fun a => Fin.ext ?_)
  match a with
  | ⟨0, _⟩ => show win0_4.index t (0 : Fin 4) * 2 + 1 * (i 0).val = (i 0).val; rw [e 0]; omega
  | ⟨1, _⟩ => show win0_4.index t (1 : Fin 4) * 8 + 1 * (i 1).val = (i 1).val; rw [e 1]; omega
  | ⟨2, _⟩ => show win0_4.index t (2 : Fin 4) * 256 + 1 * (i 2).val = (i 2).val; rw [e 2]; omega
  | ⟨3, _⟩ => show win0_4.index t (3 : Fin 4) * 256 + 1 * (i 3).val = (i 3).val; rw [e 3]; omega

/-- Window 5's block at every point is its whole array, as launched. -/
theorem block5 (c : Dev nD) (t : Fin cfg0.N) (i : S2x8x256.Idx) : iblk m c 5 t i = (m ((c : Thread nD τ).loc main_arg8)) i := by
  have e := (idx_facts t).2.2.2.2.2.2.2.1
  show V m c main_arg8 (((cfg0.win 5).blk t).view.emb i) = (m ((c : Thread nD τ).loc main_arg8)) i
  rw [V_main_arg8 m c]
  refine congrArg _ (funext fun a => Fin.ext ?_)
  match a with
  | ⟨0, _⟩ => show win0_5.index t (0 : Fin 3) * 2 + 1 * (i 0).val = (i 0).val; rw [e 0]; omega
  | ⟨1, _⟩ => show win0_5.index t (1 : Fin 3) * 8 + 1 * (i 1).val = (i 1).val; rw [e 1]; omega
  | ⟨2, _⟩ => show win0_5.index t (2 : Fin 3) * 256 + 1 * (i 2).val = (i 2).val; rw [e 2]; omega

/-- Window 6's block at every point is its whole array, as launched. -/
theorem block6 (c : Dev nD) (t : Fin cfg0.N) (i : S8x256x1.Idx) : iblk m c 6 t i = (m ((c : Thread nD τ).loc main_arg9)) i := by
  have e := (idx_facts t).2.2.2.2.2.2.2.2.1
  show V m c main_v33 (((cfg0.win 6).blk t).view.emb i) = (m ((c : Thread nD τ).loc main_arg9)) i
  rw [V_wo m c]
  refine congrArg _ (funext fun a => Fin.ext ?_)
  match a with
  | ⟨0, _⟩ => show win0_6.index t (0 : Fin 3) * 8 + 1 * (i 0).val = (i 0).val; rw [e 0]; omega
  | ⟨1, _⟩ => show win0_6.index t (1 : Fin 3) * 256 + 1 * (i 1).val = (i 1).val; rw [e 1]; omega
  | ⟨2, _⟩ => show win0_6.index t (2 : Fin 3) * 1 + 1 * (i 2).val = (i 2).val; rw [e 2]; omega

/-- Window 7's block at every point is its whole array, as launched. -/
theorem block7 (c : Dev nD) (t : Fin cfg0.N) (i : S8x1.Idx) : iblk m c 7 t i = (m ((c : Thread nD τ).loc main_arg10)) i := by
  have e := (idx_facts t).2.2.2.2.2.2.2.2.2.1
  show V m c main_arg10 (((cfg0.win 7).blk t).view.emb i) = (m ((c : Thread nD τ).loc main_arg10)) i
  rw [V_main_arg10 m c]
  refine congrArg _ (funext fun a => Fin.ext ?_)
  match a with
  | ⟨0, _⟩ => show win0_7.index t (0 : Fin 2) * 8 + 1 * (i 0).val = (i 0).val; rw [e 0]; omega
  | ⟨1, _⟩ => show win0_7.index t (1 : Fin 2) * 1 + 1 * (i 1).val = (i 1).val; rw [e 1]; omega

/-- Row r of window 0's block at point t is the batch input's row under the result's row r of block t. -/
theorem block0 (c : Dev nD) (t : Fin cfg0.N) (r : Fin 4096) (k : Fin 67) :
    iblk m c 0 t (ix2 r k) = batchInput (m ((c : Thread nD τ).loc main_arg0)) (m ((c : Thread nD τ).loc main_arg1)) (m ((c : Thread nD τ).loc main_arg2)) (m ((c : Thread nD τ).loc main_arg3)) (m ((c : Thread nD τ).loc main_arg4))
      (ix2 ((((cfg0.win 8).blk t).view.emb (ix2 r (0 : Fin 1))) 0) k) := by
  have e00 := (idx_facts t).1
  have e01 := (idx_facts t).2.1
  show V m c main_v29 (((cfg0.win 0).blk t).view.emb (ix2 r k)) = _
  rw [V_input m c]
  refine congrArg _ (funext fun a => Fin.ext ?_)
  match a with
  | ⟨0, _⟩ => show win0_0.index t (0 : Fin 2) * 4096 + 1 * r.val = win0_8.index t (0 : Fin 2) * 4096 + 1 * r.val; rw [e00]
  | ⟨1, _⟩ => show win0_0.index t (1 : Fin 2) * 67 + 1 * k.val = k.val; rw [e01]; omega

/-- Row r of window 1's block at point t is the label of the result's row r of block t. -/
theorem block1 (c : Dev nD) (t : Fin cfg0.N) (r : Fin 4096) :
    iblk m c 1 t (ix2 r (0 : Fin 1)) = (m ((c : Thread nD τ).loc main_arg1)) (ix1 ((((cfg0.win 8).blk t).view.emb (ix2 r (0 : Fin 1))) 0)) := by
  have e10 := (idx_facts t).2.2.1
  have e11 := (idx_facts t).2.2.2.1
  show V m c main_v30 (((cfg0.win 1).blk t).view.emb (ix2 r (0 : Fin 1))) = _
  rw [V_labels m c]
  refine shapeCast_apply (s := S65536) (t := S65536x1) _ shapeCasts_S65536_S65536x1 _ _ ?_
  rw [Shape.rowMajor_val_one, Shape.rowMajor_val_two]
  show win0_8.index t (0 : Fin 2) * 4096 + 1 * r.val = (win0_1.index t (0 : Fin 2) * 4096 + 1 * r.val) * 1 + (win0_1.index t (1 : Fin 2) * 1 + 1 * 0)
  rw [e10, e11]; omega

/-- What point t writes back is block t of the result function. -/
theorem flushed_eq (c : Dev nD) (t : Fin cfg0.N) :
    (dats m 0 c).flushed 8 t = ((cfg0.win 8).blk t).view.read (Elt Ideal) (result m c) := by
  show (cfg0.win 8).cut (grid0.coords t) ((dats m 0 c).after 8 t) = _
  rw [after0_8, out_eq_blockMix (iblk m c 0 t) (iblk m c 1 t) (iblk m c 2 t) (iblk m c 3 t) (iblk m c 4 t) (iblk m c 5 t) (iblk m c 6 t) (iblk m c 7 t)]
  funext (j : S4096x1.Idx)
  obtain ⟨r, q, rfl⟩ : ∃ (r : Fin 4096) (q : Fin 1), j = ix2 r q := ⟨j 0, j 1, eq_ix2 j⟩
  obtain rfl : q = 0 := Subsingleton.elim _ _
  exact tile_mix_eq (iblk m c 0 t) (iblk m c 1 t) (iblk m c 2 t) (iblk m c 3 t) (iblk m c 4 t) (iblk m c 5 t) (iblk m c 6 t) (iblk m c 7 t)
    (Params.mk (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (batchInput (m ((c : Thread nD τ).loc main_arg0)) (m ((c : Thread nD τ).loc main_arg1)) (m ((c : Thread nD τ).loc main_arg2)) (m ((c : Thread nD τ).loc main_arg3)) (m ((c : Thread nD τ).loc main_arg4)))
    ((m ((c : Thread nD τ).loc main_arg1)) (ix1 ((((cfg0.win 8).blk t).view.emb (ix2 r (0 : Fin 1))) 0)))
    r ((((cfg0.win 8).blk t).view.emb (ix2 r (0 : Fin 1))) 0)
    (block2 m c t) (block3 m c t) (block4 m c t) (block5 m c t) (block6 m c t) (block7 m c t) (block0 m c t r) (block1 m c t r)

/-- An index of the result is in point t's block iff each coordinate is in the block's range on its axis. -/
theorem mem_blk (t : Fin cfg0.N) (i : S65536x1.Idx) :
    i ∈ ((cfg0.win 8).blk t).view.set ↔ ∀ a : Fin 2, win0_8.index t a * S4096x1.size a ≤ (i a).val ∧ (i a).val < win0_8.index t a * S4096x1.size a + S4096x1.size a := by
  show i ∈ ((View.whole main_v34).slice (win0_8.rect t)).set ↔ _
  rw [View.set_slice_whole, Rect.mem_set_unit]
  exact Iff.rfl

/-- Every row of the result is in some point's block: row R in point R / 4096's. -/
theorem cover (i : S65536x1.Idx) : ∃ t : Fin cfg0.N, (cfg0.win 8).flush t = true ∧ i ∈ ((cfg0.win 8).blk t).view.set := by
  have hi0 : (i 0).val < 65536 := (i 0).isLt
  have hi1 : (i 1).val < 1 := (i 1).isLt
  obtain ⟨t, ht⟩ := idx_onto ⟨(i 0).val / 4096, by omega⟩
  have q0 : win0_8.index t (0 : Fin 2) = (i 0).val / 4096 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 1 ≤ (i 1).val ∧ (i 1).val < win0_8.index t (1 : Fin 2) * 1 + 1; omega

/-- The result array after the run is the result function. -/
theorem final (c : Dev nD) : (dats m 0 c).arrAt 8 cfg0.N = result m c :=
  (dats m 0 c).arrAt_eq_of_cover 8 (result m c) (fun t _ => flushed_eq m c t) cover

/-- The kernel's run, read: the first result at the result function, the second at the KL scalar, the arguments
    unchanged. -/
theorem run : θ_run defs (onTc (τ := τ) (main (F := Ideal))) ⟨m, fun _ => 0, ρ⟩ fun r => ∀ c : Dev nD,
      r.2.mem ((c : Thread nD τ).loc main_v34) = result m c
      ∧ r.2.mem ((c : Thread nD τ).loc main_v27) = klTerm (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(Value.post8 m r h c).trans (final m c),
      ((h c).2 main_v27 (Pipeline.mem_restRefs_of main_v27 (by decide) (by decide))).trans (V_kl m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c,
      Value.kept_main_arg9 m r h c,
      Value.kept_main_arg10 m r h c⟩)
    (run_main m ρ)

end Cert.KernelIdeal.Tile

end
-- ==== Proof.LibHostHidden.lean ====
/-
  A rectified dense layer as a host program spells it, read entry by entry on the extended reals: for a batch
  x : [n, K], weights w : [K, N] and a bias row b : [1, N], a dot_general contracting x's second axis with w's first,
  plus the bias row broadcast down the n rows, under a maximum with the zero constant spread from a scalar over the
  whole [n, N] matrix, is the hidden layer max(x · w + b, 0) of any extents.
-/
import proofs.«162275_j30107720745799_1_alg».proof.Proof.LibPerceptron

noncomputable section

namespace Cert.Perceptron

open Idealize.ShloMosaic Idealize.ShloMosaic.ValueIdx Idealize.ShloMosaic.GcnDense

/-- The host's rectified layer is the hidden layer, entry by entry. -/
theorem host_hidden {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (h0 : (⟨0, ![]⟩ : Shape).BroadcastsInDim ⟨2, ![n, N]⟩ ![]) :
    maximumf (addf (Host.dotGeneral D prec x w) (broadcastInDim (⟨2, ![n, N]⟩ : Shape) ![0, 1] h2 b))
        (broadcastInDim (⟨2, ![n, N]⟩ : Shape) ![] h0 (constant (F := Ideal) (⟨0, ![]⟩ : Shape) .f32 0x00000000#32))
      = hidden x w b := by
  funext i
  obtain ⟨r, j, rfl⟩ : ∃ (r : Fin n) (j : Fin N), i = ix2 r j := ⟨i 0, i 1, eq_ix2 i⟩
  rw [maximumf_apply, host_layer_apply D hr hs hlc hrc hl0 hr1 prec x w b h2 r j, hidden_ix2]
  exact congrArg (max _) (broadcastInDim_apply _ h0 _ (ix2 r j) (fun a => a.elim0) (fun a => a.elim0))

end Cert.Perceptron

end
-- ==== Proof.RefValue.lean ====
/-
  The reference's first result, read at a row.

  A slice of a parameter array at expert number e, reshaped without its unit axes (a bias also set under a unit axis
  again), is expert e's slice of that array. Each rectified layer of the host program is the hidden layer
  max(x · w + b, 0) as one function of the batch, the output layer an entry of x · w + b, and the nested term at row r
  is the mixture of the eight experts on that row of the batch input.
-/
import proofs.«162275_j30107720745799_1_alg».proof.Proof.RefMix
import proofs.«162275_j30107720745799_1_alg».proof.Proof.MoeSpec
import proofs.«162275_j30107720745799_1_alg».proof.Proof.LibHostHidden
import Idealize.ShloMosaic.Lib.ValueIdx
import Idealize.ShloMosaic.Lib.ValueLayout
import Idealize.ShloMosaic.Lib.Pipeline.Value

noncomputable section

open scoped BigOperators

namespace Cert.ReferenceIdeal.Stretch

open Cert.ReferenceIdeal Cert.ReferenceIdeal.Gen Idealize.ShloMosaic Idealize.ShloMosaic.TcCoe Idealize.ShloMosaic.ValueIdx
open Idealize.ShloMosaic.GcnDense Cert.Perceptron Cert.Moe

/-! ## The three products' dimension records: the free axes read the result's coordinates -/

theorem d1_l0 (i : S65536x256.Idx) (q : dot_S65536x67_S67x256_S65536x256_1_0_0_1_n_n.contr.Idx) : (dot_S65536x67_S67x256_S65536x256_1_0_0_1_n_n.lhsIdx i q 0).val = (i 0).val := by
  unfold DotDims.lhsIdx
  rw [dif_neg (show ¬(0 : Fin S65536x67.rank) ∈ dot_S65536x67_S67x256_S65536x256_1_0_0_1_n_n.lhsBatch by decide), dif_pos (show (0 : Fin S65536x67.rank) ∈ dot_S65536x67_S67x256_S65536x256_1_0_0_1_n_n.lhsNonContracting by decide)]
  rfl
theorem d1_r1 (i : S65536x256.Idx) (q : dot_S65536x67_S67x256_S65536x256_1_0_0_1_n_n.contr.Idx) : (dot_S65536x67_S67x256_S65536x256_1_0_0_1_n_n.rhsIdx i q 1).val = (i 1).val := by
  unfold DotDims.rhsIdx
  rw [dif_neg (show ¬(1 : Fin S67x256.rank) ∈ dot_S65536x67_S67x256_S65536x256_1_0_0_1_n_n.rhsBatch by decide), dif_pos (show (1 : Fin S67x256.rank) ∈ dot_S65536x67_S67x256_S65536x256_1_0_0_1_n_n.rhsNonContracting by decide)]
  rfl

theorem d2_l0 (i : S65536x256.Idx) (q : dot_S65536x256_S256x256_S65536x256_1_0_0_1_n_n.contr.Idx) : (dot_S65536x256_S256x256_S65536x256_1_0_0_1_n_n.lhsIdx i q 0).val = (i 0).val := by
  unfold DotDims.lhsIdx
  rw [dif_neg (show ¬(0 : Fin S65536x256.rank) ∈ dot_S65536x256_S256x256_S65536x256_1_0_0_1_n_n.lhsBatch by decide), dif_pos (show (0 : Fin S65536x256.rank) ∈ dot_S65536x256_S256x256_S65536x256_1_0_0_1_n_n.lhsNonContracting by decide)]
  rfl
theorem d2_r1 (i : S65536x256.Idx) (q : dot_S65536x256_S256x256_S65536x256_1_0_0_1_n_n.contr.Idx) : (dot_S65536x256_S256x256_S65536x256_1_0_0_1_n_n.rhsIdx i q 1).val = (i 1).val := by
  unfold DotDims.rhsIdx
  rw [dif_neg (show ¬(1 : Fin S256x256.rank) ∈ dot_S65536x256_S256x256_S65536x256_1_0_0_1_n_n.rhsBatch by decide), dif_pos (show (1 : Fin S256x256.rank) ∈ dot_S65536x256_S256x256_S65536x256_1_0_0_1_n_n.rhsNonContracting by decide)]
  rfl

theorem d3_l0 (i : S65536x1.Idx) (q : dot_S65536x256_S256x1_S65536x1_1_0_0_1_n_n.contr.Idx) : (dot_S65536x256_S256x1_S65536x1_1_0_0_1_n_n.lhsIdx i q 0).val = (i 0).val := by
  unfold DotDims.lhsIdx
  rw [dif_neg (show ¬(0 : Fin S65536x256.rank) ∈ dot_S65536x256_S256x1_S65536x1_1_0_0_1_n_n.lhsBatch by decide), dif_pos (show (0 : Fin S65536x256.rank) ∈ dot_S65536x256_S256x1_S65536x1_1_0_0_1_n_n.lhsNonContracting by decide)]
  rfl
theorem d3_r1 (i : S65536x1.Idx) (q : dot_S65536x256_S256x1_S65536x1_1_0_0_1_n_n.contr.Idx) : (dot_S65536x256_S256x1_S65536x1_1_0_0_1_n_n.rhsIdx i q 1).val = (i 1).val := by
  unfold DotDims.rhsIdx
  rw [dif_neg (show ¬(1 : Fin S256x1.rank) ∈ dot_S65536x256_S256x1_S65536x1_1_0_0_1_n_n.rhsBatch by decide), dif_pos (show (1 : Fin S256x1.rank) ∈ dot_S65536x256_S256x1_S65536x1_1_0_0_1_n_n.rhsNonContracting by decide)]
  rfl

/-! ## Slices at expert number e -/

section Slices

variable (e : ℕ) (he : e < 8)

theorem slice_w0 (X : FVec Ideal S8x67x256 .f32) (h : S8x67x256.Slices ![e, 0, 0] S1x67x256) :
    shapeCast S67x256 (extractStridedSlice S1x67x256 ![e, 0, 0] X h) shapeCasts_S1x67x256_S67x256
      = fun i => X (ix3 (⟨e, he⟩ : Fin 8) (i 0) (i 1)) := by
  funext i
  obtain ⟨k, j, rfl⟩ : ∃ (k : Fin 67) (j : Fin 256), i = ix2 k j := ⟨i 0, i 1, eq_ix2 i⟩
  refine (shapeCast_apply (s := S1x67x256) (t := S67x256) _ shapeCasts_S1x67x256_S67x256 (ix2 k j) (ix3 (0 : Fin 1) k j) ?_).trans ?_
  · rw [Shape.rowMajor_val_three, Shape.rowMajor_val_two]; show (0 * 67 + k.val) * 256 + j.val = k.val * 256 + j.val; omega
  · exact extractStridedSlice_apply ![e, 0, 0] X h (ix3 (0 : Fin 1) k j) (ix3 (⟨e, he⟩ : Fin 8) k j) (fun a => match a with
      | ⟨0, _⟩ => by show e = e + 0; omega
      | ⟨1, _⟩ => by show k.val = 0 + k.val; omega
      | ⟨2, _⟩ => by show j.val = 0 + j.val; omega)

theorem slice_b0 (X : FVec Ideal S8x256 .f32) (h : S8x256.Slices ![e, 0] S1x256) :
    broadcastInDim S1x256 ![1] bcast_S256_S1x256_1 (shapeCast S256 (extractStridedSlice S1x256 ![e, 0] X h) shapeCasts_S1x256_S256)
      = fun i => X (ix2 (⟨e, he⟩ : Fin 8) (i 1)) := by
  funext i
  obtain ⟨p, j, rfl⟩ : ∃ (p : Fin 1) (j : Fin 256), i = ix2 p j := ⟨i 0, i 1, eq_ix2 i⟩
  refine (broadcastInDim_apply _ bcast_S256_S1x256_1 _ (ix2 p j) (ix1 j) (fun a => match a with
    | ⟨0, _⟩ => by show j.val = if (256 : Nat) = 1 then 0 else j.val; rw [if_neg (by decide)])).trans ?_
  refine (shapeCast_apply (s := S1x256) (t := S256) _ shapeCasts_S1x256_S256 (ix1 j) (ix2 (0 : Fin 1) j) ?_).trans ?_
  · rw [Shape.rowMajor_val_two, Shape.rowMajor_val_one]; show 0 * 256 + j.val = j.val; omega
  · exact extractStridedSlice_apply ![e, 0] X h (ix2 (0 : Fin 1) j) (ix2 (⟨e, he⟩ : Fin 8) j) (fun a => match a with
      | ⟨0, _⟩ => by show e = e + 0; omega
      | ⟨1, _⟩ => by show j.val = 0 + j.val; omega)

theorem slice_wh (l : ℕ) (hl : l < 2) (X : FVec Ideal S2x8x256x256 .f32) (h : S2x8x256x256.Slices ![l, e, 0, 0] S1x1x256x256) :
    shapeCast S256x256 (extractStridedSlice S1x1x256x256 ![l, e, 0, 0] X h) shapeCasts_S1x1x256x256_S256x256
      = fun i => X (ix4 (⟨l, hl⟩ : Fin 2) (⟨e, he⟩ : Fin 8) (i 0) (i 1)) := by
  funext i
  obtain ⟨k, j, rfl⟩ : ∃ (k : Fin 256) (j : Fin 256), i = ix2 k j := ⟨i 0, i 1, eq_ix2 i⟩
  refine (shapeCast_apply (s := S1x1x256x256) (t := S256x256) _ shapeCasts_S1x1x256x256_S256x256 (ix2 k j) (ix4 (0 : Fin 1) (0 : Fin 1) k j) ?_).trans ?_
  · rw [Shape.rowMajor_val_four, Shape.rowMajor_val_two]; show ((0 * 1 + 0) * 256 + k.val) * 256 + j.val = k.val * 256 + j.val; omega
  · exact extractStridedSlice_apply ![l, e, 0, 0] X h (ix4 (0 : Fin 1) (0 : Fin 1) k j) (ix4 (⟨l, hl⟩ : Fin 2) (⟨e, he⟩ : Fin 8) k j) (fun a => match a with
      | ⟨0, _⟩ => by show l = l + 0; omega
      | ⟨1, _⟩ => by show e = e + 0; omega
      | ⟨2, _⟩ => by show k.val = 0 + k.val; omega
      | ⟨3, _⟩ => by show j.val = 0 + j.val; omega)

theorem slice_bh (l : ℕ) (hl : l < 2) (X : FVec Ideal S2x8x256 .f32) (h : S2x8x256.Slices ![l, e, 0] S1x1x256) :
    broadcastInDim S1x256 ![1] bcast_S256_S1x256_1 (shapeCast S256 (extractStridedSlice S1x1x256 ![l, e, 0] X h) shapeCasts_S1x1x256_S256)
      = fun i => X (ix3 (⟨l, hl⟩ : Fin 2) (⟨e, he⟩ : Fin 8) (i 1)) := by
  funext i
  obtain ⟨p, j, rfl⟩ : ∃ (p : Fin 1) (j : Fin 256), i = ix2 p j := ⟨i 0, i 1, eq_ix2 i⟩
  refine (broadcastInDim_apply _ bcast_S256_S1x256_1 _ (ix2 p j) (ix1 j) (fun a => match a with
    | ⟨0, _⟩ => by show j.val = if (256 : Nat) = 1 then 0 else j.val; rw [if_neg (by decide)])).trans ?_
  refine (shapeCast_apply (s := S1x1x256) (t := S256) _ shapeCasts_S1x1x256_S256 (ix1 j) (ix3 (0 : Fin 1) (0 : Fin 1) j) ?_).trans ?_
  · rw [Shape.rowMajor_val_three, Shape.rowMajor_val_one]; show (0 * 1 + 0) * 256 + j.val = j.val; omega
  · exact extractStridedSlice_apply ![l, e, 0] X h (ix3 (0 : Fin 1) (0 : Fin 1) j) (ix3 (⟨l, hl⟩ : Fin 2) (⟨e, he⟩ : Fin 8) j) (fun a => match a with
      | ⟨0, _⟩ => by show l = l + 0; omega
      | ⟨1, _⟩ => by show e = e + 0; omega
      | ⟨2, _⟩ => by show j.val = 0 + j.val; omega)

theorem slice_wo (X : FVec Ideal S8x256x1 .f32) (h : S8x256x1.Slices ![e, 0, 0] S1x256x1) :
    shapeCast S256x1 (extractStridedSlice S1x256x1 ![e, 0, 0] X h) shapeCasts_S1x256x1_S256x1
      = fun i => X (ix3 (⟨e, he⟩ : Fin 8) (i 0) (i 1)) := by
  funext i
  obtain ⟨k, q, rfl⟩ : ∃ (k : Fin 256) (q : Fin 1), i = ix2 k q := ⟨i 0, i 1, eq_ix2 i⟩
  refine (shapeCast_apply (s := S1x256x1) (t := S256x1) _ shapeCasts_S1x256x1_S256x1 (ix2 k q) (ix3 (0 : Fin 1) k q) ?_).trans ?_
  · rw [Shape.rowMajor_val_three, Shape.rowMajor_val_two]; show (0 * 256 + k.val) * 1 + q.val = k.val * 1 + q.val; omega
  · exact extractStridedSlice_apply ![e, 0, 0] X h (ix3 (0 : Fin 1) k q) (ix3 (⟨e, he⟩ : Fin 8) k q) (fun a => match a with
      | ⟨0, _⟩ => by show e = e + 0; omega
      | ⟨1, _⟩ => by show k.val = 0 + k.val; omega
      | ⟨2, _⟩ => by show q.val = 0 + q.val; omega)

theorem slice_bo (X : FVec Ideal S8x1 .f32) (h : S8x1.Slices ![e, 0] S1x1) :
    broadcastInDim S1x1 ![1] bcast_S1_S1x1_1 (shapeCast S1 (extractStridedSlice S1x1 ![e, 0] X h) shapeCasts_S1x1_S1)
      = fun i => X (ix2 (⟨e, he⟩ : Fin 8) (i 1)) := by
  funext i
  obtain ⟨p, q, rfl⟩ : ∃ (p : Fin 1) (q : Fin 1), i = ix2 p q := ⟨i 0, i 1, eq_ix2 i⟩
  have hq := q.isLt
  refine (broadcastInDim_apply _ bcast_S1_S1x1_1 _ (ix2 p q) (ix1 (0 : Fin 1)) (fun a => match a with
    | ⟨0, _⟩ => by show 0 = if (1 : Nat) = 1 then 0 else q.val; rw [if_pos rfl])).trans ?_
  refine (shapeCast_apply (s := S1x1) (t := S1) _ shapeCasts_S1x1_S1 (ix1 (0 : Fin 1)) (ix2 (0 : Fin 1) (0 : Fin 1)) ?_).trans ?_
  · rw [Shape.rowMajor_val_two, Shape.rowMajor_val_one]; show 0 * 1 + 0 = 0; omega
  · exact extractStridedSlice_apply ![e, 0] X h (ix2 (0 : Fin 1) (0 : Fin 1)) (ix2 (⟨e, he⟩ : Fin 8) q) (fun a => match a with
      | ⟨0, _⟩ => by show e = e + 0; omega
      | ⟨1, _⟩ => by show q.val = 0 + 0; omega)

end Slices

/-! ## The layers -/

/-- A rectified layer of the host program, as one function of the batch, is the hidden layer with the bias vector as a
    row. -/
theorem host_layer {K : ℕ} {φ₁ φ₂ : FTy}
    (D : DotDims (⟨2, ![65536, K]⟩ : Shape) (⟨2, ![K, 256]⟩ : Shape) (⟨2, ![65536, 256]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (x : FVec Ideal (⟨2, ![65536, K]⟩ : Shape) φ₁) (w : FVec Ideal (⟨2, ![K, 256]⟩ : Shape) φ₂) (b : FVec Ideal S256 .f32) :
    maximumf (addf (Host.dotGeneral D none x w) (biasRows b)) zeroHidden
      = hidden x w (broadcastInDim S1x256 ![1] bcast_S256_S1x256_1 b) :=
  host_hidden D hr hs hlc hrc hl0 hr1 none x w _ bcast_S1x256_S65536x256_0_1 bcast_S_S65536x256

/-- Expert e's output on the whole batch at row r, the parameters being the six arrays. -/
theorem expertNet_apply (X : FVec Ideal S65536x67 .f32) (W0 : FVec Ideal S8x67x256 .f32) (b0 : FVec Ideal S8x256 .f32)
    (Wh : FVec Ideal S2x8x256x256 .f32) (bh : FVec Ideal S2x8x256 .f32) (Wo : FVec Ideal S8x256x1 .f32) (bo : FVec Ideal S8x1 .f32)
    (e : ℕ) (he : e < 8) (h0 : S8x67x256.Slices ![e, 0, 0] S1x67x256) (h1 : S8x256.Slices ![e, 0] S1x256) (h2 : S2x8x256x256.Slices ![0, e, 0, 0] S1x1x256x256) (h3 : S2x8x256.Slices ![0, e, 0] S1x1x256) (h4 : S2x8x256x256.Slices ![1, e, 0, 0] S1x1x256x256) (h5 : S2x8x256.Slices ![1, e, 0] S1x1x256) (h6 : S8x256x1.Slices ![e, 0, 0] S1x256x1) (h7 : S8x1.Slices ![e, 0] S1x1) (r : Fin 65536) :
    expertNet X W0 b0 Wh bh Wo bo e h0 h1 h2 h3 h4 h5 h6 h7 (ix2 r 0) = (Params.mk W0 b0 Wh bh Wo bo).out ⟨e, he⟩ X r := by
  unfold expertNet
  rw [host_layer dot_S65536x67_S67x256_S65536x256_1_0_0_1_n_n rfl rfl rfl rfl d1_l0 d1_r1, host_layer dot_S65536x256_S256x256_S65536x256_1_0_0_1_n_n rfl rfl rfl rfl d2_l0 d2_r1, host_layer dot_S65536x256_S256x256_S65536x256_1_0_0_1_n_n rfl rfl rfl rfl d2_l0 d2_r1]
  rw [host_layer_apply dot_S65536x256_S256x1_S65536x1_1_0_0_1_n_n rfl rfl rfl rfl d3_l0 d3_r1 none _ _ _ bcast_S1x1_S65536x1_0_1 r 0]
  rw [slice_w0 e he W0 h0, slice_b0 e he b0 h1, slice_wh e he 0 (by decide) Wh h2, slice_bh e he 0 (by decide) bh h3,
    slice_wh e he 1 (by decide) Wh h4, slice_bh e he 1 (by decide) bh h5, slice_wo e he Wo h6, slice_bo e he bo h7]
  rfl

/-- One accumulation step at a row. -/
theorem expertStep_apply (acc : FVec Ideal S65536x1 .f32) (lab : IVec S65536 32) (net : FVec Ideal S65536x1 .f32) (e : ℕ) (r : Fin 65536) :
    expertStep acc lab net e (ix2 r 0) = acc (ix2 r 0) + gate (lab (ix1 r)) (BitVec.ofNat 32 e) (net (ix2 r 0)) := by
  unfold expertStep gate
  rw [addf_apply, select_apply]
  rw [broadcastInDim_apply _ bcast_S65536_S65536x1_0 _ (ix2 r (0 : Fin 1)) (ix1 r) (fun a => match a with
    | ⟨0, _⟩ => by show r.val = if (65536 : Nat) = 1 then 0 else r.val; rw [if_neg (by decide)])]
  rw [broadcastInDim_apply _ bcast_S_S65536x1 _ (ix2 r (0 : Fin 1)) ix0 (fun a => a.elim0)]
  show acc (ix2 r 0) + Scalar.select (IntOp.cmpi .eq (lab (ix1 r))
      (broadcastInDim S65536 ![] bcast_S_S65536 (constantI S_ 32 (BitVec.ofNat 32 e)) (ix1 r))) (net (ix2 r 0)) _ = _
  rw [broadcastInDim_apply _ bcast_S_S65536 _ (ix1 r) ix0 (fun a => a.elim0)]
  rfl

/-- The accumulation starts from zero on every row. -/
theorem zeroAcc_apply (r : Fin 65536) : zeroAcc (ix2 r 0) = zeroWord := by
  unfold zeroAcc
  rw [broadcastInDim_apply _ bcast_S_S65536x1 _ (ix2 r (0 : Fin 1)) ix0 (fun a => a.elim0)]
  rfl

/-- The reference's first result at row r is the mixture of the eight experts on that row of the batch input. -/
theorem refMix_apply (X : FVec Ideal S65536x67 .f32) (lab : IVec S65536 32) (W0 : FVec Ideal S8x67x256 .f32) (b0 : FVec Ideal S8x256 .f32)
    (Wh : FVec Ideal S2x8x256x256 .f32) (bh : FVec Ideal S2x8x256 .f32) (Wo : FVec Ideal S8x256x1 .f32) (bo : FVec Ideal S8x1 .f32) (r : Fin 65536) :
    refMix X lab W0 b0 Wh bh Wo bo (ix2 r 0) = (Params.mk W0 b0 Wh bh Wo bo).mix X (lab (ix1 r)) r := by
  unfold refMix
  rw [expertStep_apply, expertNet_apply X W0 b0 Wh bh Wo bo 7 (by decide),
    expertStep_apply, expertNet_apply X W0 b0 Wh bh Wo bo 6 (by decide),
    expertStep_apply, expertNet_apply X W0 b0 Wh bh Wo bo 5 (by decide),
    expertStep_apply, expertNet_apply X W0 b0 Wh bh Wo bo 4 (by decide),
    expertStep_apply, expertNet_apply X W0 b0 Wh bh Wo bo 3 (by decide),
    expertStep_apply, expertNet_apply X W0 b0 Wh bh Wo bo 2 (by decide),
    expertStep_apply, expertNet_apply X W0 b0 Wh bh Wo bo 1 (by decide),
    expertStep_apply, expertNet_apply X W0 b0 Wh bh Wo bo 0 (by decide),
    zeroAcc_apply]
  rfl

end Cert.ReferenceIdeal.Stretch

end
-- ==== Proof.Bridge.lean ====
/-
  The two results are one function of the arguments.

  Row by row both programs compute the mixture of the eight experts on the same batch input, gated by the row's
  label: the kernel tile by tile, the host program on the whole batch. The batch input and the KL scalar are the same
  host operations of the arguments in both programs.
-/
import proofs.«162275_j30107720745799_1_alg».proof.Proof.KArray
import proofs.«162275_j30107720745799_1_alg».proof.Proof.RefValue

noncomputable section

namespace Cert.Proof.Bridge

open Idealize.ShloMosaic Idealize.ShloMosaic.TcCoe Idealize.ShloMosaic.ValueIdx Cert.Moe

/-- The batch input is the same function of the arguments in both programs. -/
theorem batchInput_eq (x : FVec Ideal Cert.KernelIdeal.S65536x3 .f32) (lab : IVec Cert.KernelIdeal.S65536 32) (eps : FVec Ideal Cert.KernelIdeal.S65536x64 .f32)
    (mu lv : FVec Ideal Cert.KernelIdeal.S8x64 .f32) :
    Cert.ReferenceIdeal.Stretch.batchInput x lab eps mu lv = Cert.KernelIdeal.Tile.batchInput x lab eps mu lv := rfl

/-- The KL scalar is the same function of the arguments in both programs. -/
theorem klTerm_eq (lab : IVec Cert.KernelIdeal.S65536 32) (mu lv : FVec Ideal Cert.KernelIdeal.S8x64 .f32) :
    Cert.ReferenceIdeal.Stretch.klTerm lab mu lv = Cert.KernelIdeal.Tile.klTerm lab mu lv := rfl

/-- The reference's nested term is, row by row, the mixture the kernel's result function states. -/
theorem refMix_eq (x : FVec Ideal Cert.KernelIdeal.S65536x3 .f32) (lab : IVec Cert.KernelIdeal.S65536 32) (eps : FVec Ideal Cert.KernelIdeal.S65536x64 .f32)
    (mu lv : FVec Ideal Cert.KernelIdeal.S8x64 .f32) (W0 : FVec Ideal Cert.KernelIdeal.S8x67x256 .f32) (b0 : FVec Ideal Cert.KernelIdeal.S8x256 .f32)
    (Wh : FVec Ideal Cert.KernelIdeal.S2x8x256x256 .f32) (bh : FVec Ideal Cert.KernelIdeal.S2x8x256 .f32) (Wo : FVec Ideal Cert.KernelIdeal.S8x256x1 .f32)
    (bo : FVec Ideal Cert.KernelIdeal.S8x1 .f32) :
    Cert.ReferenceIdeal.Stretch.refMix (Cert.ReferenceIdeal.Stretch.batchInput x lab eps mu lv) lab W0 b0 Wh bh Wo bo
      = fun i => (Params.mk W0 b0 Wh bh Wo bo).mix (Cert.KernelIdeal.Tile.batchInput x lab eps mu lv) (lab (ix1 (i 0))) (i 0) := by
  funext i
  obtain ⟨R, q, rfl⟩ : ∃ (R : Fin 65536) (q : Fin 1), i = ix2 R q := ⟨i 0, i 1, eq_ix2 i⟩
  obtain rfl : q = 0 := Subsingleton.elim _ _
  rw [Cert.ReferenceIdeal.Stretch.refMix_apply, batchInput_eq]

end Cert.Proof.Bridge

end
-- ==== Proof.lean ====
/-
  The certificate of a mixture-of-experts kernel against its jnp reference, on the extended reals.

  Both programs build the same network input on the host — the batch x beside the reparametrised latent
  z = mu_table[labels] + eps · exp(0.5 · logvar_table[labels]) — and the same KL scalar. The kernel then runs, tile by
  tile of 4096 rows, eight experts (three rectified dense layers 67 → 256 → 256 → 256 and an output layer, the
  parameters slices of six shared arrays) and adds each expert's output where the row's label is the expert's number;
  the reference does the same on the whole batch. A change of float format is the identity on the extended reals, a
  matrix product into a zero accumulator and the host's dot_general are the same sum, so row by row both results are
  the mixture of the eight experts on that row (Proof/MoeSpec.lean). No law of arithmetic beyond the order-free finite
  sum of a product is used, and the precondition is never opened.

  The kernel's value is read off its generated frame run (the generated blockwise value leg) in Proof/KTerm.lean,
  Proof/KValue.lean and Proof/KArray.lean; the reference's run is evaluated stretch by stretch in Proof/RefOps.lean …
  Proof/RefRun.lean and read at a row in Proof/RefValue.lean; Proof/Bridge.lean joins the two.
-/
import proofs.«162275_j30107720745799_1_alg».proof.Defs
import proofs.«162275_j30107720745799_1_alg».proof.Proof.Gen.Kernel
import proofs.«162275_j30107720745799_1_alg».proof.Proof.Gen.Kernel.Skeleton
import proofs.«162275_j30107720745799_1_alg».proof.Proof.Gen.Kernel.Launch
import proofs.«162275_j30107720745799_1_alg».proof.Proof.Gen.Kernel.Points
import proofs.«162275_j30107720745799_1_alg».proof.Proof.Gen.Kernel.Frame
import proofs.«162275_j30107720745799_1_alg».proof.Proof.Gen.KernelIdeal
import proofs.«162275_j30107720745799_1_alg».proof.Proof.Gen.KernelIdeal.Skeleton
import proofs.«162275_j30107720745799_1_alg».proof.Proof.Gen.KernelIdeal.Launch
import proofs.«162275_j30107720745799_1_alg».proof.Proof.Gen.KernelIdeal.Points
import proofs.«162275_j30107720745799_1_alg».proof.Proof.Gen.KernelIdeal.Frame
import proofs.«162275_j30107720745799_1_alg».proof.Proof.Gen.ReferenceIdeal
import proofs.«162275_j30107720745799_1_alg».proof.Proof.Gen.Pre_finite_inputs
import proofs.«162275_j30107720745799_1_alg».proof.Proof.Gen.KernelIdeal.Value
import proofs.«162275_j30107720745799_1_alg».proof.Proof.RefRun
import proofs.«162275_j30107720745799_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Stretch.run m ρ)

/-- The idealization rewrote no operation. -/
theorem preserves : Cert.preserves_Kernel_KernelIdeal := trivial

/-- From memories agreeing on the arguments both programs end with the same two results: the row-by-row mixture and
    the KL scalar. -/
theorem algebraic : Cert.algebraic_KernelIdeal_ReferenceIdeal := by
  intro m ρ m' ρ' _ hagree
  refine ⟨fun c => Cert.KernelIdeal.Tile.result m c,
    fun c => Cert.KernelIdeal.Tile.klTerm (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Tile.run m ρ, ?_⟩
  refine (θ_run Cert.ReferenceIdeal.defs _ _).mono (fun _ h c => ?_) (Cert.ReferenceIdeal.Stretch.run m' ρ')
  obtain ⟨a0, a1, a2, a3, a4, a5, a6, a7, a8, a9, a10⟩ := hagree c
  obtain ⟨h0, h1, hrest⟩ := h c
  refine ⟨h0.trans ?_, h1.trans ?_, hrest⟩
  · rw [a0, a1, a2, a3, a4, a5, a6, a7, a8, a9, a10]
    exact Bridge.refMix_eq _ _ _ _ _ _ _ _ _ _ _
  · rw [a1, a3, a4]
    exact Bridge.klTerm_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
